-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v50_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v50_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S160000x128 : Shape := ⟨2, ![160000, 128]⟩
abbrev S2x160000 : Shape := ⟨2, ![2, 160000]⟩
abbrev S256x256 : Shape := ⟨2, ![256, 256]⟩
abbrev S256 : Shape := ⟨1, ![256]⟩
abbrev S128x256 : Shape := ⟨2, ![128, 256]⟩
abbrev S512x256 : Shape := ⟨2, ![512, 256]⟩
abbrev S768x256 : Shape := ⟨2, ![768, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S160000x128 : S_.BroadcastsInDim S160000x128 (![] : Fin 0 → Fin S160000x128.rank)
  reducesTo_S160000x128_S_d0_1 : S160000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S512x256 : S_.BroadcastsInDim S512x256 (![] : Fin 0 → Fin S512x256.rank)
  reducesTo_S512x256_S_d0_1 : S512x256.ReducesTo [0, 1] S_
  bcast_S_S768x256 : S_.BroadcastsInDim S768x256 (![] : Fin 0 → Fin S768x256.rank)
  reducesTo_S768x256_S_d0_1 : S768x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S768x256 .f32) (main_arg14 : FVec F S256 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S768x256 .f32 := Host.absf main_arg13
  let main_cst_22 : FVec F S_ .f32 := constant S_ .f32 0x7F800000#32
  let main_v60 : FVec F S768x256 .f32 := broadcastInDim S768x256 ![] bcast_S_S768x256 main_cst_22
  let main_v61 : IVec S768x256 1 := cmpf .olt main_v59 main_v60
  let main_c_23 : IVec S_ 1 := constantI S_ 1 1#1
  let main_v62 : IVec S_ 1 := (fun x v => Host.reduce IntOp.andi x v reducesTo_S768x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg8 : FVec F S256 .f32) (main_arg9 : FVec F S512x256 .f32) (main_arg10 : FVec F S256 .f32) (main_arg11 : FVec F S768x256 .f32) (main_arg12 : FVec F S256 .f32) (main_arg13 : FVec F S768x256 .f32) (main_arg14 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x256 .f32 := Host.absf main_arg9
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S768x256 .f32 := Host.absf main_arg11
  let main_cst_18 : FVec F S_ .f32 := constant S_ .f32 0x7F800000#32
  let main_v50 : FVec F S768x256 .f32 := broadcastInDim S768x256 ![] bcast_S_S768x256 main_cst_18
  fn_part3 (F := F) main_arg12 main_arg13 main_arg14 main_v48 main_v49 main_v50

def fn_part1 {F : FTy → Type} [FloatOps F] (main_arg5 : FVec F S128x256 .f32) (main_arg6 : FVec F S256 .f32) (main_arg7 : FVec F S512x256 .f32) (main_arg8 : FVec F S256 .f32) (main_arg9 : FVec F S512x256 .f32) (main_arg10 : FVec F S256 .f32) (main_arg11 : FVec F S768x256 .f32) (main_arg12 : FVec F S256 .f32) (main_arg13 : FVec F S768x256 .f32) (main_arg14 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S10000x256 .f32) (main_arg1 : FVec F S160000x128 .f32) (main_arg2 : IVec S2x160000 32) (main_arg3 : FVec F S256x256 .f32) (main_arg4 : FVec F S256 .f32) (main_arg5 : FVec F S128x256 .f32) (main_arg6 : FVec F S256 .f32) (main_arg7 : FVec F S512x256 .f32) (main_arg8 : FVec F S256 .f32) (main_arg9 : FVec F S512x256 .f32) (main_arg10 : FVec F S256 .f32) (main_arg11 : FVec F S768x256 .f32) (main_arg12 : FVec F S256 .f32) (main_arg13 : FVec F S768x256 .f32) (main_arg14 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S160000x128 .f32 := Host.absf main_arg1
  let main_cst_0 : FVec F S_ .f32 := constant S_ .f32 0x7F800000#32
  let main_v5 : FVec F S160000x128 .f32 := broadcastInDim S160000x128 ![] bcast_S_S160000x128 main_cst_0
  let main_v6 : IVec S160000x128 1 := cmpf .olt main_v4 main_v5
  let main_c_1 : IVec S_ 1 := constantI S_ 1 1#1
  let main_v7 : IVec S_ 1 := (fun x v => Host.reduce IntOp.andi x v reducesTo_S160000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_v13 main_v16
-- ==== Kernel.lean ====
abbrev S10000x256 : Shape := ⟨2, ![10000, 256]⟩
abbrev S160000x128 : Shape := ⟨2, ![160000, 128]⟩
abbrev S2x160000 : Shape := ⟨2, ![2, 160000]⟩
abbrev S256x256 : Shape := ⟨2, ![256, 256]⟩
abbrev S256 : Shape := ⟨1, ![256]⟩
abbrev S128x256 : Shape := ⟨2, ![128, 256]⟩
abbrev S512x256 : Shape := ⟨2, ![512, 256]⟩
abbrev S768x256 : Shape := ⟨2, ![768, 256]⟩
abbrev S1x160000 : Shape := ⟨2, ![1, 160000]⟩
abbrev S160000 : Shape := ⟨1, ![160000]⟩
abbrev S1x256 : Shape := ⟨2, ![1, 256]⟩
abbrev S1000x256 : Shape := ⟨2, ![1000, 256]⟩
abbrev S160000x256 : Shape := ⟨2, ![160000, 256]⟩
abbrev S4000x128 : Shape := ⟨2, ![4000, 128]⟩
abbrev S4000x256 : Shape := ⟨2, ![4000, 256]⟩
abbrev S_ : Shape := ⟨0, ![]⟩
abbrev S160000x1 : Shape := ⟨2, ![160000, 1]⟩
abbrev S10000 : Shape := ⟨1, ![10000]⟩
abbrev S2000x256 : Shape := ⟨2, ![2000, 256]⟩
abbrev S10000x1 : Shape := ⟨2, ![10000, 1]⟩

abbrev nBuf : Space → Nat
  | .hbm => 103
  | .vmem => 46
  | .smem => 0
  | _ => 0

abbrev bufTy : (tb : Table) → Fin (tcTables nBuf tb) → BufTy
  | .hbm, ⟨0, _⟩ => ⟨S10000x256, .f32⟩
  | .hbm, ⟨1, _⟩ => ⟨S160000x128, .f32⟩
  | .hbm, ⟨2, _⟩ => ⟨S2x160000, .i32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S512x256, .f32⟩
  | .hbm, ⟨10, _⟩ => ⟨S256, .f32⟩
  | .hbm, ⟨11, _⟩ => ⟨S768x256, .f32⟩
  | .hbm, ⟨12, _⟩ => ⟨S256, .f32⟩
  | .hbm, ⟨13, _⟩ => ⟨S768x256, .f32⟩
  | .hbm, ⟨14, _⟩ => ⟨S256, .f32⟩
  | .hbm, ⟨15, _⟩ => ⟨S1x160000, .i32⟩
  | .hbm, ⟨16, _⟩ => ⟨S160000, .i32⟩
  | .hbm, ⟨17, _⟩ => ⟨S1x160000, .i32⟩
  | .hbm, ⟨18, _⟩ => ⟨S160000, .i32⟩
  | .hbm, ⟨19, _⟩ => ⟨S10000x256, .bf16⟩
  | .hbm, ⟨20, _⟩ => ⟨S160000x128, .bf16⟩
  | .hbm, ⟨21, _⟩ => ⟨S256x256, .bf16⟩
  | .hbm, ⟨22, _⟩ => ⟨S128x256, .bf16⟩
  | .hbm, ⟨23, _⟩ => ⟨S1x256, .f32⟩
  | .hbm, ⟨24, _⟩ => ⟨S10000x256, .bf16⟩
  | .hbm, ⟨25, _⟩ => ⟨S1x256, .f32⟩
  | .hbm, ⟨26, _⟩ => ⟨S160000x256, .bf16⟩
  | .hbm, ⟨27, _⟩ => ⟨S_, .i32⟩
  | .hbm, ⟨28, _⟩ => ⟨S160000, .i32⟩
  | .hbm, ⟨29, _⟩ => ⟨S160000, .i1⟩
  | .hbm, ⟨30, _⟩ => ⟨S_, .i32⟩
  | .hbm, ⟨31, _⟩ => ⟨S160000, .i32⟩
  | .hbm, ⟨32, _⟩ => ⟨S160000, .i32⟩
  | .hbm, ⟨33, _⟩ => ⟨S160000, .i32⟩
  | .hbm, ⟨34, _⟩ => ⟨S160000x1, .i32⟩
  | .hbm, ⟨35, _⟩ => ⟨S160000x256, .bf16⟩
  | .hbm, ⟨36, _⟩ => ⟨S_, .i32⟩
  | .hbm, ⟨37, _⟩ => ⟨S160000, .i32⟩
  | .hbm, ⟨38, _⟩ => ⟨S160000, .i1⟩
  | .hbm, ⟨39, _⟩ => ⟨S_, .i32⟩
  | .hbm, ⟨40, _⟩ => ⟨S160000, .i32⟩
  | .hbm, ⟨41, _⟩ => ⟨S160000, .i32⟩
  | .hbm, ⟨42, _⟩ => ⟨S160000, .i32⟩
  | .hbm, ⟨43, _⟩ => ⟨S160000x1, .i32⟩
  | .hbm, ⟨44, _⟩ => ⟨S160000x256, .bf16⟩
  | .hbm, ⟨45, _⟩ => ⟨S_, .f32⟩
  | .hbm, ⟨46, _⟩ => ⟨S160000, .f32⟩
  | .hbm, ⟨47, _⟩ => ⟨S_, .f32⟩
  | .hbm, ⟨48, _⟩ => ⟨S10000, .f32⟩
  | .hbm, ⟨49, _⟩ => ⟨S160000x1, .i32⟩
  | .hbm, ⟨50, _⟩ => ⟨S10000, .f32⟩
  | .hbm, ⟨51, _⟩ => ⟨S_, .f32⟩
  | .hbm, ⟨52, _⟩ => ⟨S10000, .f32⟩
  | .hbm, ⟨53, _⟩ => ⟨S160000x1, .i32⟩
  | .hbm, ⟨54, _⟩ => ⟨S10000, .f32⟩
  | .hbm, ⟨55, _⟩ => ⟨S256x256, .f32⟩
  | .hbm, ⟨56, _⟩ => ⟨S256x256, .bf16⟩
  | .hbm, ⟨57, _⟩ => ⟨S256x256, .f32⟩
  | .hbm, ⟨58, _⟩ => ⟨S256x256, .bf16⟩
  | .hbm, ⟨59, _⟩ => ⟨S256x256, .f32⟩
  | .hbm, ⟨60, _⟩ => ⟨S256x256, .bf16⟩
  | .hbm, ⟨61, _⟩ => ⟨S256x256, .f32⟩
  | .hbm, ⟨62, _⟩ => ⟨S256x256, .bf16⟩
  | .hbm, ⟨63, _⟩ => ⟨S256x256, .f32⟩
  | .hbm, ⟨64, _⟩ => ⟨S256x256, .bf16⟩
  | .hbm, ⟨65, _⟩ => ⟨S256x256, .f32⟩
  | .hbm, ⟨66, _⟩ => ⟨S256x256, .bf16⟩
  | .hbm, ⟨67, _⟩ => ⟨S256x256, .f32⟩
  | .hbm, ⟨68, _⟩ => ⟨S256x256, .bf16⟩
  | .hbm, ⟨69, _⟩ => ⟨S1x256, .f32⟩
  | .hbm, ⟨70, _⟩ => ⟨S1x256, .f32⟩
  | .hbm, ⟨71, _⟩ => ⟨S1x256, .f32⟩
  | .hbm, ⟨72, _⟩ => ⟨S160000x256, .f32⟩
  | .hbm, ⟨73, _⟩ => ⟨S160000x256, .f32⟩
  | .hbm, ⟨74, _⟩ => ⟨S160000x256, .f32⟩
  | .hbm, ⟨75, _⟩ => ⟨S_, .f32⟩
  | .hbm, ⟨76, _⟩ => ⟨S10000x256, .f32⟩
  | .hbm, ⟨77, _⟩ => ⟨S160000x1, .i32⟩
  | .hbm, ⟨78, _⟩ => ⟨S10000x256, .f32⟩
  | .hbm, ⟨79, _⟩ => ⟨S_, .f32⟩
  | .hbm, ⟨80, _⟩ => ⟨S10000, .f32⟩
  | .hbm, ⟨81, _⟩ => ⟨S10000, .f32⟩
  | .hbm, ⟨82, _⟩ => ⟨S10000x1, .f32⟩
  | .hbm, ⟨83, _⟩ => ⟨S10000x256, .f32⟩
  | .hbm, ⟨84, _⟩ => ⟨S10000x256, .f32⟩
  | .hbm, ⟨85, _⟩ => ⟨S_, .f32⟩
  | .hbm, ⟨86, _⟩ => ⟨S10000x256, .f32⟩
  | .hbm, ⟨87, _⟩ => ⟨S160000x1, .i32⟩
  | .hbm, ⟨88, _⟩ => ⟨S10000x256, .f32⟩
  | .hbm, ⟨89, _⟩ => ⟨S_, .f32⟩
  | .hbm, ⟨90, _⟩ => ⟨S10000, .f32⟩
  | .hbm, ⟨91, _⟩ => ⟨S10000, .f32⟩
  | .hbm, ⟨92, _⟩ => ⟨S10000x1, .f32⟩
  | .hbm, ⟨93, _⟩ => ⟨S10000x256, .f32⟩
  | .hbm, ⟨94, _⟩ => ⟨S10000x256, .f32⟩
  | .hbm, ⟨95, _⟩ => ⟨S256x256, .f32⟩
  | .hbm, ⟨96, _⟩ => ⟨S256x256, .bf16⟩
  | .hbm, ⟨97, _⟩ => ⟨S256x256, .f32⟩
  | .hbm, ⟨98, _⟩ => ⟨S256x256, .bf16⟩
  | .hbm, ⟨99, _⟩ => ⟨S256x256, .f32⟩
  | .hbm, ⟨100, _⟩ => ⟨S256x256, .bf16⟩
  | .hbm, ⟨101, _⟩ => ⟨S1x256, .f32⟩
  | .hbm, ⟨102, _⟩ => ⟨S10000x256, .f32⟩
  | .local _ .vmem, ⟨0, _⟩ => ⟨S1000x256, .bf16⟩
  | .local _ .vmem, ⟨1, _⟩ => ⟨S1000x256, .bf16⟩
  | .local _ .vmem, ⟨2, _⟩ => ⟨S256x256, .bf16⟩
  | .local _ .vmem, ⟨3, _⟩ => ⟨S1x256, .f32⟩
  | .local _ .vmem, ⟨4, _⟩ => ⟨S1000x256, .bf16⟩
  | .local _ .vmem, ⟨5, _⟩ => ⟨S1000x256, .bf16⟩
  | .local _ .vmem, ⟨6, _⟩ => ⟨S4000x128, .bf16⟩
  | .local _ .vmem, ⟨7, _⟩ => ⟨S4000x128, .bf16⟩
  | .local _ .vmem, ⟨8, _⟩ => ⟨S128x256, .bf16⟩
  | .local _ .vmem, ⟨9, _⟩ => ⟨S1x256, .f32⟩
  | .local _ .vmem, ⟨10, _⟩ => ⟨S4000x256, .bf16⟩
  | .local _ .vmem, ⟨11, _⟩ => ⟨S4000x256, .bf16⟩
  | .local _ .vmem, ⟨12, _⟩ => ⟨S2000x256, .bf16⟩
  | .local _ .vmem, ⟨13, _⟩ => ⟨S2000x256, .bf16⟩
  | .local _ .vmem, ⟨14, _⟩ => ⟨S2000x256, .bf16⟩
  | .local _ .vmem, ⟨15, _⟩ => ⟨S2000x256, .bf16⟩
  | .local _ .vmem, ⟨16, _⟩ => ⟨S2000x256, .bf16⟩
  | .local _ .vmem, ⟨17, _⟩ => ⟨S2000x256, .bf16⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S256x256, .bf16⟩
  | .local _ .vmem, ⟨23, _⟩ => ⟨S256x256, .bf16⟩
  | .local _ .vmem, ⟨24, _⟩ => ⟨S256x256, .bf16⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S1000x256, .f32⟩
  | .local _ .vmem, ⟨35, _⟩ => ⟨S1000x256, .f32⟩
  | .local _ .vmem, ⟨36, _⟩ => ⟨S1000x256, .bf16⟩
  | .local _ .vmem, ⟨37, _⟩ => ⟨S1000x256, .bf16⟩
  | .local _ .vmem, ⟨38, _⟩ => ⟨S1000x256, .f32⟩
  | .local _ .vmem, ⟨39, _⟩ => ⟨S1000x256, .f32⟩
  | .local _ .vmem, ⟨40, _⟩ => ⟨S256x256, .bf16⟩
  | .local _ .vmem, ⟨41, _⟩ => ⟨S256x256, .bf16⟩
  | .local _ .vmem, ⟨42, _⟩ => ⟨S256x256, .bf16⟩
  | .local _ .vmem, ⟨43, _⟩ => ⟨S1x256, .f32⟩
  | .local _ .vmem, ⟨44, _⟩ => ⟨S1000x256, .f32⟩
  | .local _ .vmem, ⟨45, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50_0 : Ref sig .tc := ⟨.hbm, 72, rfl⟩
abbrev main_v50_1 : Ref sig .tc := ⟨.hbm, 73, rfl⟩
abbrev main_v50_2 : Ref sig .tc := ⟨.hbm, 74, rfl⟩
abbrev main_cst_5 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_7 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_8 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg11_0 : Ref sig .tc := ⟨.vmem, 26, rfl⟩
abbrev cc2_stg12_0 : Ref sig .tc := ⟨.vmem, 27, rfl⟩
abbrev cc2_stg13_0 : Ref sig .tc := ⟨.vmem, 28, rfl⟩
abbrev cc2_stg13_1 : Ref sig .tc := ⟨.vmem, 29, rfl⟩
abbrev cc2_stg14_0 : Ref sig .tc := ⟨.vmem, 30, rfl⟩
abbrev cc2_stg14_1 : Ref sig .tc := ⟨.vmem, 31, rfl⟩
abbrev cc2_stg15_0 : Ref sig .tc := ⟨.vmem, 32, rfl⟩
abbrev cc2_stg15_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg7_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem11_0 : DmaSem sig := 26
abbrev cc2_sem12_0 : DmaSem sig := 27
abbrev cc2_sem13_0 : DmaSem sig := 28
abbrev cc2_sem13_1 : DmaSem sig := 29
abbrev cc2_sem14_0 : DmaSem sig := 30
abbrev cc2_sem14_1 : DmaSem sig := 31
abbrev cc2_sem15_0 : DmaSem sig := 32
abbrev cc2_sem15_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem7_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x256 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S2000x256 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S2000x256 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S2000x256 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bitsLt_bf16_f32 : FTy.bits .bf16 < FTy.bits .f32
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  packedbf16_S1000x256_S1000x256_0_0 : (Rect.unit (s := S1000x256) ![0, 0] S1000x256.size inb_S1000x256_S1000x256_0_0).PackedRows (EltTy.packing .bf16)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  packedbf16_S4000x256_S4000x256_0_0 : (Rect.unit (s := S4000x256) ![0, 0] S4000x256.size inb_S4000x256_S4000x256_0_0).PackedRows (EltTy.packing .bf16)
  bcast_S_S160000 : S_.BroadcastsInDim S160000 (![] : Fin 0 → Fin S160000.rank)
  bcast_S160000_S160000x1_0 : S160000.BroadcastsInDim S160000x1 (![0] : Fin 1 → Fin S160000x1.rank)
  bcast_S_S10000 : S_.BroadcastsInDim S10000 (![] : Fin 0 → Fin S10000.rank)
  slices_S512x256_S256x256_0_0 : S512x256.Slices ![0, 0] S256x256
  slices_S512x256_S256x256_256_0 : S512x256.Slices ![256, 0] S256x256
  slices_S768x256_S256x256_0_0 : S768x256.Slices ![0, 0] S256x256
  slices_S768x256_S256x256_256_0 : S768x256.Slices ![256, 0] S256x256
  slices_S768x256_S256x256_512_0 : S768x256.Slices ![512, 0] S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  dot_S1000x256_S256x256_S1000x256_1_0_0_1_n_n_wf : DotDims.WF S1000x256 S256x256 S1000x256 [1] [0] [0] [1] [] []
  dot_S4000x128_S128x256_S4000x256_1_0_0_1_n_n_wf : DotDims.WF S4000x128 S128x256 S4000x256 [1] [0] [0] [1] [] []
  gather_S10000x256_S160000x1_S160000x256_1_0_n_n_0_1_1256_wf : GatherDims.WF S10000x256 S160000x1 S160000x256 [1] [0] [] [0] [] 1 ![1, 256]
  scatter_S10000_S160000x1_S160000_n_0_0_1_wf : ScatterDims.WF S10000 S160000x1 S160000 [] [0] [0] 1
  dot_S2000x256_S256x256_S2000x256_1_0_0_1_n_n_wf : DotDims.WF S2000x256 S256x256 S2000x256 [1] [0] [0] [1] [] []
  scatter_S10000x256_S160000x1_S160000x256_1_0_0_1_wf : ScatterDims.WF S10000x256 S160000x1 S160000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .bf16 = 32 ∨ (Rect.block (s := S10000x256) S1000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .bf16 = 32 ∨ (Rect.block (s := S10000x256) S1000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S160000x128.size a
  hwx1_0 : ∀ i : grid1.Coords, EltTy.bits .bf16 = 32 ∨ (Rect.block (s := S160000x128) S4000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .bf16 = 32 ∨ (Rect.block (s := S128x256) S128x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x256.size a ≤ S160000x256.size a
  hwx1_3 : ∀ i : grid1.Coords, EltTy.bits .bf16 = 32 ∨ (Rect.block (s := S160000x256) S4000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S160000x256.size a
  hwx2_0 : ∀ i : grid2.Coords, EltTy.bits .bf16 = 32 ∨ (Rect.block (s := S160000x256) S2000x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S160000x256.size a
  hwx2_1 : ∀ i : grid2.Coords, EltTy.bits .bf16 = 32 ∨ (Rect.block (s := S160000x256) S2000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S160000x256.size a
  hwx2_2 : ∀ i : grid2.Coords, EltTy.bits .bf16 = 32 ∨ (Rect.block (s := S160000x256) S2000x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .bf16 = 32 ∨ (Rect.block (s := S256x256) S256x256.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x256.size a ≤ S256x256.size a
  hwx2_7 : ∀ i : grid2.Coords, EltTy.bits .bf16 = 32 ∨ (Rect.block (s := S256x256) S256x256.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x256.size a ≤ S256x256.size a
  hwx2_8 : ∀ i : grid2.Coords, EltTy.bits .bf16 = 32 ∨ (Rect.block (s := S256x256) S256x256.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x256.size a ≤ S256x256.size a
  hwx2_9 : ∀ i : grid2.Coords, EltTy.bits .bf16 = 32 ∨ (Rect.block (s := S256x256) S256x256.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x256.size a ≤ S1x256.size a
  hwx2_10 : ∀ i : grid2.Coords, EltTy.bits .f32 = 32 ∨ (Rect.block (s := S1x256) S1x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x256.size a ≤ S1x256.size a
  hwx2_11 : ∀ i : grid2.Coords, EltTy.bits .f32 = 32 ∨ (Rect.block (s := S1x256) S1x256.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x256.size a ≤ S1x256.size a
  hwx2_12 : ∀ i : grid2.Coords, EltTy.bits .f32 = 32 ∨ (Rect.block (s := S1x256) S1x256.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S2000x256.size a ≤ S160000x256.size a
  hwx2_13 : ∀ i : grid2.Coords, EltTy.bits .f32 = 32 ∨ (Rect.block (s := S160000x256) S2000x256.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S2000x256.size a ≤ S160000x256.size a
  hwx2_14 : ∀ i : grid2.Coords, EltTy.bits .f32 = 32 ∨ (Rect.block (s := S160000x256) S2000x256.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2000x256.size a ≤ S160000x256.size a
  hwx2_15 : ∀ i : grid2.Coords, EltTy.bits .f32 = 32 ∨ (Rect.block (s := S160000x256) S2000x256.size (cc2_transform_15 i) (hinb2_15 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S10000x256.size a
  hwx3_0 : ∀ i : grid3.Coords, EltTy.bits .f32 = 32 ∨ (Rect.block (s := S10000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x256.size a ≤ S10000x256.size a
  hwx3_1 : ∀ i : grid3.Coords, EltTy.bits .bf16 = 32 ∨ (Rect.block (s := S10000x256) S1000x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x256.size a ≤ S10000x256.size a
  hwx3_2 : ∀ i : grid3.Coords, EltTy.bits .f32 = 32 ∨ (Rect.block (s := S10000x256) S1000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .bf16 = 32 ∨ (Rect.block (s := S256x256) S256x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .bf16 = 32 ∨ (Rect.block (s := S256x256) S256x256.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1000x256.size a ≤ S10000x256.size a
  hwx3_7 : ∀ i : grid3.Coords, EltTy.bits .f32 = 32 ∨ (Rect.block (s := S10000x256) S1000x256.size (cc3_transform_7 i) (hinb3_7 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf

abbrev win0_0 : Pipeline.Window sig grid0 :=
  Pipeline.Window.ofSpec (Memref.whole main_v4) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S4000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S256x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v44) S256x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v46) S256x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v47) S1x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v48) S1x256.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v49) S1x256.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v50_0) S2000x256.size cc2_transform_13 reads2_13 true false 2 stage2_13 sem2_13
    hrank2 hreads2_13 hinb2_13 nbuf2_13 (Memref.isWhole_whole _) hwx2_13 hstage2_13

abbrev win2_14 : Pipeline.Window sig grid2 :=
  Pipeline.Window.ofSpec (Memref.whole main_v50_1) S2000x256.size cc2_transform_14 reads2_14 true false 2 stage2_14 sem2_14
    hrank2 hreads2_14 hinb2_14 nbuf2_14 (Memref.isWhole_whole _) hwx2_14 hstage2_14

abbrev win2_15 : Pipeline.Window sig grid2 :=
  Pipeline.Window.ofSpec (Memref.whole main_v50_2) S2000x256.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

abbrev win3_0 : Pipeline.Window sig grid3 :=
  Pipeline.Window.ofSpec (Memref.whole main_v58) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S1000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v68) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v73) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v74) S1000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S10000x256 : Shape := ⟨2, ![10000, 256]⟩
abbrev S160000x128 : Shape := ⟨2, ![160000, 128]⟩
abbrev S2x160000 : Shape := ⟨2, ![2, 160000]⟩
abbrev S256x256 : Shape := ⟨2, ![256, 256]⟩
abbrev S256 : Shape := ⟨1, ![256]⟩
abbrev S128x256 : Shape := ⟨2, ![128, 256]⟩
abbrev S512x256 : Shape := ⟨2, ![512, 256]⟩
abbrev S768x256 : Shape := ⟨2, ![768, 256]⟩
abbrev S1x160000 : Shape := ⟨2, ![1, 160000]⟩
abbrev S160000 : Shape := ⟨1, ![160000]⟩
abbrev S1x256 : Shape := ⟨2, ![1, 256]⟩
abbrev S_ : Shape := ⟨0, ![]⟩
abbrev S160000x256 : Shape := ⟨2, ![160000, 256]⟩
abbrev S10000 : Shape := ⟨1, ![10000]⟩
abbrev S160000x1 : Shape := ⟨2, ![160000, 1]⟩
abbrev S160000x512 : Shape := ⟨2, ![160000, 512]⟩
abbrev S10000x1 : Shape := ⟨2, ![10000, 1]⟩
abbrev S10000x768 : Shape := ⟨2, ![10000, 768]⟩
abbrev S160000x768 : Shape := ⟨2, ![160000, 768]⟩

abbrev nBuf : Space → Nat
  | .hbm => 125
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S160000x128, .f32⟩
  | .hbm, ⟨2, _⟩ => ⟨S2x160000, .i32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S512x256, .f32⟩
  | .hbm, ⟨10, _⟩ => ⟨S256, .f32⟩
  | .hbm, ⟨11, _⟩ => ⟨S768x256, .f32⟩
  | .hbm, ⟨12, _⟩ => ⟨S256, .f32⟩
  | .hbm, ⟨13, _⟩ => ⟨S768x256, .f32⟩
  | .hbm, ⟨14, _⟩ => ⟨S256, .f32⟩
  | .hbm, ⟨15, _⟩ => ⟨S1x160000, .i32⟩
  | .hbm, ⟨16, _⟩ => ⟨S160000, .i32⟩
  | .hbm, ⟨17, _⟩ => ⟨S1x160000, .i32⟩
  | .hbm, ⟨18, _⟩ => ⟨S160000, .i32⟩
  | .hbm, ⟨19, _⟩ => ⟨S10000x256, .f32⟩
  | .hbm, ⟨20, _⟩ => ⟨S1x256, .f32⟩
  | .hbm, ⟨21, _⟩ => ⟨S10000x256, .f32⟩
  | .hbm, ⟨22, _⟩ => ⟨S10000x256, .f32⟩
  | .hbm, ⟨23, _⟩ => ⟨S_, .f32⟩
  | .hbm, ⟨24, _⟩ => ⟨S10000x256, .f32⟩
  | .hbm, ⟨25, _⟩ => ⟨S10000x256, .f32⟩
  | .hbm, ⟨26, _⟩ => ⟨S160000x256, .f32⟩
  | .hbm, ⟨27, _⟩ => ⟨S1x256, .f32⟩
  | .hbm, ⟨28, _⟩ => ⟨S160000x256, .f32⟩
  | .hbm, ⟨29, _⟩ => ⟨S160000x256, .f32⟩
  | .hbm, ⟨30, _⟩ => ⟨S_, .f32⟩
  | .hbm, ⟨31, _⟩ => ⟨S160000x256, .f32⟩
  | .hbm, ⟨32, _⟩ => ⟨S160000x256, .f32⟩
  | .hbm, ⟨33, _⟩ => ⟨S_, .f32⟩
  | .hbm, ⟨34, _⟩ => ⟨S160000, .f32⟩
  | .hbm, ⟨35, _⟩ => ⟨S_, .f32⟩
  | .hbm, ⟨36, _⟩ => ⟨S10000, .f32⟩
  | .hbm, ⟨37, _⟩ => ⟨S160000x1, .i32⟩
  | .hbm, ⟨38, _⟩ => ⟨S10000, .f32⟩
  | .hbm, ⟨39, _⟩ => ⟨S_, .f32⟩
  | .hbm, ⟨40, _⟩ => ⟨S10000, .f32⟩
  | .hbm, ⟨41, _⟩ => ⟨S160000x1, .i32⟩
  | .hbm, ⟨42, _⟩ => ⟨S10000, .f32⟩
  | .hbm, ⟨43, _⟩ => ⟨S_, .i32⟩
  | .hbm, ⟨44, _⟩ => ⟨S160000, .i32⟩
  | .hbm, ⟨45, _⟩ => ⟨S160000, .i1⟩
  | .hbm, ⟨46, _⟩ => ⟨S_, .i32⟩
  | .hbm, ⟨47, _⟩ => ⟨S160000, .i32⟩
  | .hbm, ⟨48, _⟩ => ⟨S160000, .i32⟩
  | .hbm, ⟨49, _⟩ => ⟨S160000, .i32⟩
  | .hbm, ⟨50, _⟩ => ⟨S160000x1, .i32⟩
  | .hbm, ⟨51, _⟩ => ⟨S160000x256, .f32⟩
  | .hbm, ⟨52, _⟩ => ⟨S160000x512, .f32⟩
  | .hbm, ⟨53, _⟩ => ⟨S160000x256, .f32⟩
  | .hbm, ⟨54, _⟩ => ⟨S1x256, .f32⟩
  | .hbm, ⟨55, _⟩ => ⟨S160000x256, .f32⟩
  | .hbm, ⟨56, _⟩ => ⟨S160000x256, .f32⟩
  | .hbm, ⟨57, _⟩ => ⟨S_, .f32⟩
  | .hbm, ⟨58, _⟩ => ⟨S160000x256, .f32⟩
  | .hbm, ⟨59, _⟩ => ⟨S160000x256, .f32⟩
  | .hbm, ⟨60, _⟩ => ⟨S_, .f32⟩
  | .hbm, ⟨61, _⟩ => ⟨S10000x256, .f32⟩
  | .hbm, ⟨62, _⟩ => ⟨S160000x1, .i32⟩
  | .hbm, ⟨63, _⟩ => ⟨S10000x256, .f32⟩
  | .hbm, ⟨64, _⟩ => ⟨S_, .f32⟩
  | .hbm, ⟨65, _⟩ => ⟨S10000, .f32⟩
  | .hbm, ⟨66, _⟩ => ⟨S10000, .f32⟩
  | .hbm, ⟨67, _⟩ => ⟨S10000x1, .f32⟩
  | .hbm, ⟨68, _⟩ => ⟨S10000x256, .f32⟩
  | .hbm, ⟨69, _⟩ => ⟨S10000x256, .f32⟩
  | .hbm, ⟨70, _⟩ => ⟨S_, .i32⟩
  | .hbm, ⟨71, _⟩ => ⟨S160000, .i32⟩
  | .hbm, ⟨72, _⟩ => ⟨S160000, .i1⟩
  | .hbm, ⟨73, _⟩ => ⟨S_, .i32⟩
  | .hbm, ⟨74, _⟩ => ⟨S160000, .i32⟩
  | .hbm, ⟨75, _⟩ => ⟨S160000, .i32⟩
  | .hbm, ⟨76, _⟩ => ⟨S160000, .i32⟩
  | .hbm, ⟨77, _⟩ => ⟨S160000x1, .i32⟩
  | .hbm, ⟨78, _⟩ => ⟨S160000x256, .f32⟩
  | .hbm, ⟨79, _⟩ => ⟨S160000x512, .f32⟩
  | .hbm, ⟨80, _⟩ => ⟨S160000x256, .f32⟩
  | .hbm, ⟨81, _⟩ => ⟨S1x256, .f32⟩
  | .hbm, ⟨82, _⟩ => ⟨S160000x256, .f32⟩
  | .hbm, ⟨83, _⟩ => ⟨S160000x256, .f32⟩
  | .hbm, ⟨84, _⟩ => ⟨S_, .f32⟩
  | .hbm, ⟨85, _⟩ => ⟨S160000x256, .f32⟩
  | .hbm, ⟨86, _⟩ => ⟨S160000x256, .f32⟩
  | .hbm, ⟨87, _⟩ => ⟨S_, .f32⟩
  | .hbm, ⟨88, _⟩ => ⟨S10000x256, .f32⟩
  | .hbm, ⟨89, _⟩ => ⟨S160000x1, .i32⟩
  | .hbm, ⟨90, _⟩ => ⟨S10000x256, .f32⟩
  | .hbm, ⟨91, _⟩ => ⟨S_, .f32⟩
  | .hbm, ⟨92, _⟩ => ⟨S10000, .f32⟩
  | .hbm, ⟨93, _⟩ => ⟨S10000, .f32⟩
  | .hbm, ⟨94, _⟩ => ⟨S10000x1, .f32⟩
  | .hbm, ⟨95, _⟩ => ⟨S10000x256, .f32⟩
  | .hbm, ⟨96, _⟩ => ⟨S10000x256, .f32⟩
  | .hbm, ⟨97, _⟩ => ⟨S10000x768, .f32⟩
  | .hbm, ⟨98, _⟩ => ⟨S10000x256, .f32⟩
  | .hbm, ⟨99, _⟩ => ⟨S1x256, .f32⟩
  | .hbm, ⟨100, _⟩ => ⟨S10000x256, .f32⟩
  | .hbm, ⟨101, _⟩ => ⟨S10000x256, .f32⟩
  | .hbm, ⟨102, _⟩ => ⟨S_, .i32⟩
  | .hbm, ⟨103, _⟩ => ⟨S160000, .i32⟩
  | .hbm, ⟨104, _⟩ => ⟨S160000, .i1⟩
  | .hbm, ⟨105, _⟩ => ⟨S_, .i32⟩
  | .hbm, ⟨106, _⟩ => ⟨S160000, .i32⟩
  | .hbm, ⟨107, _⟩ => ⟨S160000, .i32⟩
  | .hbm, ⟨108, _⟩ => ⟨S160000, .i32⟩
  | .hbm, ⟨109, _⟩ => ⟨S160000x1, .i32⟩
  | .hbm, ⟨110, _⟩ => ⟨S160000x256, .f32⟩
  | .hbm, ⟨111, _⟩ => ⟨S_, .i32⟩
  | .hbm, ⟨112, _⟩ => ⟨S160000, .i32⟩
  | .hbm, ⟨113, _⟩ => ⟨S160000, .i1⟩
  | .hbm, ⟨114, _⟩ => ⟨S_, .i32⟩
  | .hbm, ⟨115, _⟩ => ⟨S160000, .i32⟩
  | .hbm, ⟨116, _⟩ => ⟨S160000, .i32⟩
  | .hbm, ⟨117, _⟩ => ⟨S160000, .i32⟩
  | .hbm, ⟨118, _⟩ => ⟨S160000x1, .i32⟩
  | .hbm, ⟨119, _⟩ => ⟨S160000x256, .f32⟩
  | .hbm, ⟨120, _⟩ => ⟨S160000x768, .f32⟩
  | .hbm, ⟨121, _⟩ => ⟨S160000x256, .f32⟩
  | .hbm, ⟨122, _⟩ => ⟨S1x256, .f32⟩
  | .hbm, ⟨123, _⟩ => ⟨S160000x256, .f32⟩
  | .hbm, ⟨124, _⟩ => ⟨S160000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_cst : Ref sig .tc := ⟨.hbm, 30, rfl⟩
abbrev main_call1_v0 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call2_cst : Ref sig .tc := ⟨.hbm, 57, rfl⟩
abbrev main_call2_v0 : Ref sig .tc := ⟨.hbm, 58, rfl⟩
abbrev main_v33 : Ref sig .tc := ⟨.hbm, 59, rfl⟩
abbrev main_cst_3 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_5 : Ref sig .tc := ⟨.hbm, 70, rfl⟩
abbrev main_v42 : Ref sig .tc := ⟨.hbm, 71, rfl⟩
abbrev main_v43 : Ref sig .tc := ⟨.hbm, 72, rfl⟩
abbrev main_c_6 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call3_cst : Ref sig .tc := ⟨.hbm, 84, rfl⟩
abbrev main_call3_v0 : Ref sig .tc := ⟨.hbm, 85, rfl⟩
abbrev main_v54 : Ref sig .tc := ⟨.hbm, 86, rfl⟩
abbrev main_cst_7 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_8 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_9 : Ref sig .tc := ⟨.hbm, 102, rfl⟩
abbrev main_v68 : Ref sig .tc := ⟨.hbm, 103, rfl⟩
abbrev main_v69 : Ref sig .tc := ⟨.hbm, 104, rfl⟩
abbrev main_c_10 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_11 : Ref sig .tc := ⟨.hbm, 111, rfl⟩
abbrev main_v75 : Ref sig .tc := ⟨.hbm, 112, rfl⟩
abbrev main_v76 : Ref sig .tc := ⟨.hbm, 113, rfl⟩
abbrev main_c_12 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S1x256_S160000x256_0_1 : S1x256.BroadcastsInDim S160000x256 (![0, 1] : Fin 2 → Fin S160000x256.rank)
  bcast_S_S160000x256 : S_.BroadcastsInDim S160000x256 (![] : Fin 0 → Fin S160000x256.rank)
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  concatenates_S160000x256_S160000x256_S160000x512_d1 : Shape.Concatenates [S160000x256, S160000x256] S160000x512 1
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  concatenates_S10000x256_S10000x256_S10000x256_S10000x768_d1 : Shape.Concatenates [S10000x256, S10000x256, S10000x256] S10000x768 1
  concatenates_S160000x256_S160000x256_S160000x256_S160000x768_d1 : Shape.Concatenates [S160000x256, S160000x256, S160000x256] S160000x768 1
  dot_S10000x256_S256x256_S10000x256_1_0_0_1_n_n_wf : DotDims.WF S10000x256 S256x256 S10000x256 [1] [0] [0] [1] [] []
  dot_S160000x128_S128x256_S160000x256_1_0_0_1_n_n_wf : DotDims.WF S160000x128 S128x256 S160000x256 [1] [0] [0] [1] [] []
  scatter_S10000_S160000x1_S160000_n_0_0_1_wf : ScatterDims.WF S10000 S160000x1 S160000 [] [0] [0] 1
  gather_S10000x256_S160000x1_S160000x256_1_0_n_n_0_1_1256_wf : GatherDims.WF S10000x256 S160000x1 S160000x256 [1] [0] [] [0] [] 1 ![1, 256]
  dot_S160000x512_S512x256_S160000x256_1_0_0_1_n_n_wf : DotDims.WF S160000x512 S512x256 S160000x256 [1] [0] [0] [1] [] []
  scatter_S10000x256_S160000x1_S160000x256_1_0_0_1_wf : ScatterDims.WF S10000x256 S160000x1 S160000x256 [1] [0] [0] 1
  dot_S10000x768_S768x256_S10000x256_1_0_0_1_n_n_wf : DotDims.WF S10000x768 S768x256 S10000x256 [1] [0] [0] [1] [] []
  dot_S160000x768_S768x256_S160000x256_1_0_0_1_n_n_wf : DotDims.WF S160000x768 S768x256 S160000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S160000x128_S128x256_S160000x256_1_0_0_1_n_n : DotDims S160000x128 S128x256 S160000x256 where
  lhsContracting := [1]
  rhsContracting := [0]
  lhsNonContracting := [0]
  rhsNonContracting := [1]
  lhsBatch := []
  rhsBatch := []
  wf := dot_S160000x128_S128x256_S160000x256_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def dot_S160000x512_S512x256_S160000x256_1_0_0_1_n_n : DotDims S160000x512 S512x256 S160000x256 where
  lhsContracting := [1]
  rhsContracting := [0]
  lhsNonContracting := [0]
  rhsNonContracting := [1]
  lhsBatch := []
  rhsBatch := []
  wf := dot_S160000x512_S512x256_S160000x256_1_0_0_1_n_n_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S10000x768_S768x256_S10000x256_1_0_0_1_n_n : DotDims S10000x768 S768x256 S10000x256 where
  lhsContracting := [1]
  rhsContracting := [0]
  lhsNonContracting := [0]
  rhsNonContracting := [1]
  lhsBatch := []
  rhsBatch := []
  wf := dot_S10000x768_S768x256_S10000x256_1_0_0_1_n_n_wf
def dot_S160000x768_S768x256_S160000x256_1_0_0_1_n_n : DotDims S160000x768 S768x256 S160000x256 where
  lhsContracting := [1]
  rhsContracting := [0]
  lhsNonContracting := [0]
  rhsNonContracting := [1]
  lhsBatch := []
  rhsBatch := []
  wf := dot_S160000x768_S768x256_S160000x256_1_0_0_1_n_n_wf

class Facts : Prop extends Facts₀ where

variable [Facts]
-- ==== Proof.KernelRun.lean ====
/-
  THE RUN OF THE WHOLE PROGRAM WITH EVERY BUFFER NAMED.

  The program is four kernel regions among four stretches of host operations. Every weakly fair execution
  terminates, and at the end every buffer that outlives the regions holds what the fold through the eight segments
  leaves in it (the contents called `W8`): a host stretch applies its operations, a region replaces its arrays by
  what its write-backs leave and keeps the rest. The two results are among those buffers.
-/
import proofs.«130760_j38732015076057_2_alg».proof.Proof.Gen.KernelIdeal.Frame

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each surviving buffer at its contents after the last segment. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The two results' buffers at the end, and the argument arrays unchanged. -/
theorem run_results : θ_run defs (onTc (τ := τ) (main (F := F))) ⟨m, fun _ => 0, ρ⟩ (fun r => ∀ c : Dev nD,
      r.2.mem ((c.tc : Thread nD τ).loc main_v74) = W8 m ρ c (Proc.devRef .tc main_v74)
      ∧ r.2.mem ((c.tc : Thread nD τ).loc main_v50_2) = W8 m ρ c (Proc.devRef .tc main_v50_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v74 (by decide)), h c _ (mem_uc main_v50_2 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c)⟩)
    (run_all m ρ)

end Cert.KernelIdeal.Layers

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibSegSum.lean ====
/-
  Gathering rows by an index list and adding rows into segments, read at an index, and the law that lets a factor
  which depends only on the SEGMENT leave a segment sum.

  * a gather of whole rows of an [N, C] array at start indices [R, 1] reads row clamp(idx e) of the operand, and the
    rank-1 form (an [N] vector gathered at [R, 1]) reads entry clamp(idx e);
  * an update (e, k) of an add-scatter of [R, C] updates into an [N, C] operand at scatter indices [R, 1] lands on
    element (n, k') only if the signed index of e IS n;
  * on the extended reals a factor D with 0 ≤ D < ⊤ distributes over a finite sum, whatever the summands are
    (no summand needs to be finite);
  * hence, for per-node factors D that are all in [0, ⊤): scaling the gathered rows by D at their SOURCE node before the
    segment sum and the sum by D at the TARGET node after it gives, element by element, the segment sum of the rows each
    scaled by the product of the two factors gathered per edge — provided the edge's target factor is gathered at the
    index the scatter itself uses whenever that index is in range (the update is dropped otherwise).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## The dimension numbers -/

/-- Rows of an [N, C] operand gathered at start indices [R, 1]: result [R, C]. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entries of an [N] operand gathered at start indices [R, 1]: result [R]. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Rows [R, C] added into an [N, C] operand at scatter indices [R, 1]. -/
abbrev addRowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start-indices index [e, 0] of edge e. -/
abbrev at0 {R : Nat} (e : Fin R) : (⟨2, ![R, 1]⟩ : Shape).Idx := ix2 e (⟨0, Nat.one_pos⟩ : Fin 1)

/-- A signed index clamped into [0, N − 1]. -/
abbrev clampIx {N : Nat} (hN : 0 < N) (v : BitVec 32) : Fin N := ⟨min v.toInt.toNat (N - 1), by omega⟩

/-! ## The gathers read at an index -/

section Gather
variable {α : Type}

theorem gather_rows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (k : Fin C) :
    Host.gather (rowsDims N R C wf) x idx (ix2 e k) = x (ix2 (clampIx hN (idx (at0 e))) k) := by
  unfold Host.gather
  congr 1
  funext a
  refine Fin.ext ?_
  have hsi : (rowsDims N R C wf).siIdx (ix2 e k) ⟨List.idxOf (0 : Fin 2) (rowsDims N R C wf).startIndexMap,
      List.idxOf_lt_length_iff.2 (List.mem_singleton.mpr rfl)⟩ = at0 e := by
    funext b; refine Fin.ext ?_
    match b with
    | ⟨0, _⟩ => rfl
    | ⟨1, _⟩ => rfl
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    rw [hsi]
    rfl
  | ⟨1, _⟩ =>
    show (rowsDims N R C wf).start (ix2 e k) idx 1 + (rowsDims N R C wf).batchCoord (ix2 e k) 1
      + (rowsDims N R C wf).offCoord (ix2 e k) 1 = _
    rw [GatherDims.batchCoord_eq_zero _ _ _ List.not_mem_nil]
    unfold GatherDims.start
    rw [dif_neg (show (1 : Fin 2) ∉ (rowsDims N R C wf).startIndexMap from (by decide : (1 : Fin 2) ∉ ([0] : List (Fin 2))))]
    simp only [Nat.add_zero, Nat.zero_add]
    rfl

theorem gather_entries_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (entriesDims N R wf) x idx (ix1 e) = x (ix1 (clampIx hN (idx (at0 e)))) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

end Gather

/-! ## Where an added row lands -/

theorem addRows_lands {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (i : (⟨2, ![N, C]⟩ : Shape).Idx)
    (h : (addRowsDims N R C wf).resultIdx? (ix2 e k) idx = some i) :
    (idx (at0 e)).toInt = ((i 0).val : Int) := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  unfold ScatterDims.resultIdx? at h
  split at h
  · rename_i hin
    have h0 := congrArg (fun f => (f 0).val) (Option.some.inj h)
    simp only at h0
    have hb := (hin 0).1
    rw [hstart, hwin] at h0 hb
    simp only [Nat.cast_zero, add_zero] at h0 hb
    omega
  · exact absurd h (by simp)

/-! ## A factor in [0, ⊤) leaves a sum -/

theorem sum_mul_of_nonneg_ne_top {ι : Type} [DecidableEq ι] (s : Finset ι) (f : ι → EReal) (D : EReal)
    (h0 : 0 ≤ D) (ht : D ≠ ⊤) : (∑ j ∈ s, f j) * D = ∑ j ∈ s, f j * D := by
  induction s using Finset.induction_on with
  | empty => simp
  | insert a s ha ih =>
    rw [Finset.sum_insert ha, Finset.sum_insert ha, EReal.right_distrib_of_nonneg_of_ne_top h0 ht, ih]

/-! ## Two keepdims broadcasts in a row: a vector down the rows of a matrix -/

section Bcast
variable {α : Type}

/-- [A] → [A, 1] → [A, B], read at (a, b): the vector's entry a. -/
theorem bcast_col_apply {A B : Nat}
    (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  refine (broadcastInDim_apply ![0, 1] h2 _ (ix2 a b) (ix2 a (⟨0, Nat.one_pos⟩ : Fin 1)) fun d => ?_).trans
    (broadcastInDim_apply ![0] h1 v (ix2 a (⟨0, Nat.one_pos⟩ : Fin 1)) (ix1 a) fun d => ?_)
  · match d with
    | ⟨0, _⟩ =>
      show a.val = if A = 1 then 0 else a.val
      split
      · have := a.isLt; omega
      · rfl
    | ⟨1, _⟩ => exact (if_pos rfl).symm
  · match d with
    | ⟨0, _⟩ =>
      show a.val = if A = 1 then 0 else a.val
      split
      · have := a.isLt; omega
      · rfl

/-- [A] → [A, 1], read at (a, 0): the vector's entry a. -/
theorem bcast_unit_apply {A : Nat}
    (h1 : (⟨1, ![A]⟩ : Shape).BroadcastsInDim ⟨2, ![A, 1]⟩ ![0])
    (v : (⟨1, ![A]⟩ : Shape).Idx → α) (a : Fin A) :
    broadcastInDim ⟨2, ![A, 1]⟩ ![0] h1 v (at0 a) = v (ix1 a) := by
  refine broadcastInDim_apply ![0] h1 v (at0 a) (ix1 a) fun d => ?_
  match d with
  | ⟨0, _⟩ =>
    show a.val = if A = 1 then 0 else a.val
    split
    · have := a.isLt; omega
    · rfl

/-- [B] → [1, B] → [A, B], read at (a, b): the vector's entry b. -/
theorem bcast_row_apply {A B : Nat}
    (h1 : (⟨1, ![B]⟩ : Shape).BroadcastsInDim ⟨2, ![1, B]⟩ ![1])
    (h2 : (⟨2, ![1, B]⟩ : Shape).BroadcastsInDim ⟨2, ![A, B]⟩ ![0, 1])
    (v : (⟨1, ![B]⟩ : Shape).Idx → α) (a : Fin A) (b : Fin B) :
    broadcastInDim ⟨2, ![A, B]⟩ ![0, 1] h2 (broadcastInDim ⟨2, ![1, B]⟩ ![1] h1 v) (ix2 a b) = v (ix1 b) := by
  refine (broadcastInDim_apply ![0, 1] h2 _ (ix2 a b) (ix2 (⟨0, Nat.one_pos⟩ : Fin 1) b) fun d => ?_).trans
    (broadcastInDim_apply ![1] h1 v (ix2 (⟨0, Nat.one_pos⟩ : Fin 1) b) (ix1 b) fun d => ?_)
  · match d with
    | ⟨0, _⟩ => exact (if_pos rfl).symm
    | ⟨1, _⟩ =>
      show b.val = if B = 1 then 0 else b.val
      split
      · have := b.isLt; omega
      · rfl
  · match d with
    | ⟨0, _⟩ =>
      show b.val = if B = 1 then 0 else b.val
      split
      · have := b.isLt; omega
      · rfl

end Bcast

/-! ## A negative index wrapped, an index that is not negative left alone -/

/-- select(v < 0, a, v) is v when v is not negative as a signed word. -/
theorem wrap_of_nonneg (v a : BitVec 32) (h : 0 ≤ v.toInt) : Scalar.select (IntOp.cmpi .slt v 0#32) a v = v := by
  have hs : v.slt 0#32 = false := by
    simp only [BitVec.slt, BitVec.toInt_zero, decide_eq_false_iff_not, not_lt]
    exact h
  have hc : IntOp.cmpi .slt v 0#32 = 0#1 := by
    show BitVec.ofBool (v.slt 0#32) = 0#1
    rw [hs]; rfl
  rw [hc]
  exact select_zero _ _

/-! ## The inverse square root of a degree, guarded at zero, lies in [0, ⊤) -/

theorem rsqrt_range (v : EReal) (hv : 0 < v) : 0 ≤ Ideal.rsqrt v ∧ Ideal.rsqrt v ≠ ⊤ := by
  induction v using EReal.rec with
  | bot => exact absurd hv (by simp)
  | coe r =>
    have hr : 0 < r := by exact_mod_cast hv
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_refl _, EReal.zero_ne_top⟩

/-- select(g > z, rsqrt(max(g, ε)), z) with ε > 0 and z = 0 is a number in [0, ⊤), whatever g is. -/
theorem guarded_rsqrt_range (g eps z : EReal) (heps : 0 < eps) (hz : z = 0) :
    0 ≤ Scalar.select (Ideal.cmp .ogt g z) (Ideal.rsqrt (max g eps)) z
      ∧ Scalar.select (Ideal.cmp .ogt g z) (Ideal.rsqrt (max g eps)) z ≠ ⊤ := by
  unfold Scalar.select
  split
  · exact rsqrt_range _ (lt_of_lt_of_le heps (le_max_right _ _))
  · rw [hz]; exact ⟨le_refl _, EReal.zero_ne_top⟩

/-! ## The law -/

/-- Rows scaled by D at the source before the segment sum and by D at the target after it, against the rows scaled per
    edge by the product of the two gathered factors: equal element by element when every D is in [0, ⊤), the operand
    being added into is zero, and the target factor's gather index is the scatter's own index wherever that is not
    negative. -/
theorem hoist {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![R]⟩ : Shape).BroadcastsInDim ⟨2, ![R, 1]⟩ ![0])
    (g2 : (⟨2, ![R, 1]⟩ : Shape).BroadcastsInDim ⟨2, ![R, C]⟩ ![0, 1])
    (Z XL : FVec Ideal ⟨2, ![N, C]⟩ .f32) (hZ : ∀ i, Z i = 0)
    (D : FVec Ideal ⟨1, ![N]⟩ .f32) (hD : ∀ n, 0 ≤ D n ∧ D n ≠ ⊤)
    (rW cW cB : IVec ⟨2, ![R, 1]⟩ 32)
    (hW : ∀ e : Fin R, 0 ≤ (cB (at0 e)).toInt → cW (at0 e) = cB (at0 e)) :
    mulf (Host.scatterAdd (addRowsDims N R C wfS) Z cB
        (Host.gather (rowsDims N R C wfG)
          (mulf XL (broadcastInDim ⟨2, ![N, C]⟩ ![0, 1] h2 (broadcastInDim ⟨2, ![N, 1]⟩ ![0] h1 D))) rW))
      (broadcastInDim ⟨2, ![N, C]⟩ ![0, 1] h2 (broadcastInDim ⟨2, ![N, 1]⟩ ![0] h1 D))
    = Host.scatterAdd (addRowsDims N R C wfS) Z cB
        (mulf (Host.gather (rowsDims N R C wfG) XL rW)
          (broadcastInDim ⟨2, ![R, C]⟩ ![0, 1] g2 (broadcastInDim ⟨2, ![R, 1]⟩ ![0] g1
            (mulf (Host.gather (entriesDims N R wfV) D rW) (Host.gather (entriesDims N R wfV) D cW))))) := by
  funext i
  obtain ⟨n, k, rfl⟩ : ∃ (n : Fin N) (k : Fin C), i = ix2 n k := ⟨i 0, i 1, eq_ix2 i⟩
  rw [mulf_apply, bcast_col_apply]
  simp only [Host.scatterAdd, Ideal.hostScatterAdd_def, Ideal.hostScatterAdd]
  rw [hZ, zero_add, zero_add, sum_mul_of_nonneg_ne_top _ _ _ (hD _).1 (hD _).2]
  refine Finset.sum_congr rfl fun j hj => ?_
  obtain ⟨e, k', rfl⟩ : ∃ (e : Fin R) (k' : Fin C), j = ix2 e k' := ⟨j 0, j 1, eq_ix2 j⟩
  have hland := addRows_lands wfS cB e k' (ix2 n k) (Finset.mem_filter.mp hj).2
  have hcl : clampIx hN (cW (at0 e)) = n := by
    rw [hW e (by rw [hland]; exact Int.natCast_nonneg _)]
    refine Fin.ext ?_
    show min (cB (at0 e)).toInt.toNat (N - 1) = n.val
    have hn := n.isLt
    rw [hland]
    show min ((n.val : Int)).toNat (N - 1) = n.val
    rw [Int.toNat_natCast]
    omega
  rw [gather_rows_apply hN, mulf_apply, bcast_col_apply, mulf_apply, gather_rows_apply hN, bcast_col_apply, mulf_apply,
    gather_entries_apply hN, gather_entries_apply hN, hcl, mul_assoc]

end Cert.LibSegSum

end
-- ==== Proof.LibDenseLayer.lean ====
/-
  DENSE-LAYER STAGES AS FUNCTIONS OF WHOLE ARRAYS, element by element on the extended reals, generic in the extents:
  a plain product, a bias added to every row followed by a maximum with a constant, a bias added to every row; and
  the host operations (dot_general; two keepdims broadcasts of a vector, add, maximum with a broadcast scalar) that
  compute them. Nothing here depends on a program.

  * `prod X W`      — the plain product  [A, K] · [K, B] → [A, B]:  (r, c) ↦ Σ_k X(r, k) · W(k, c);
  * `actRow Z b z`  — the bias row b : [1, K] added to every row of Z : [A, K], then the maximum with z;
  * `act Z b z`     — the same with the bias a vector b : [K];
  * `addRowRow`, `addRow` — a row o : [1, B] (a vector o : [B]) added to every row of Y : [A, B].

  A vector cast to a one-row matrix reads its entry k at (0, k), so the row forms and the vector forms agree.
  The host's dot_general of a plain product is `prod`; two keepdims broadcasts [K] → [1, K] → [A, K] of a vector read
  its entry k at (a, k), so the host's bias-add-then-maximum is `act` and its bias add is `addRow`.
-/
import proofs.«130760_j38732015076057_2_alg».proof.Proof.LibPlainDot
import proofs.«130760_j38732015076057_2_alg».proof.Proof.LibSegSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Layer

open Idealize.ShloMosaic Idealize.ShloMosaic.ValueIdx

variable {A K B : Nat}

/-- The plain product of an [A, K] array with a [K, B] array. -/
def prod (X : (⟨2, ![A, K]⟩ : Shape).Idx → EReal) (W : (⟨2, ![K, B]⟩ : Shape).Idx → EReal) :
    (⟨2, ![A, B]⟩ : Shape).Idx → EReal :=
  fun i => ∑ k : Fin K, X (ix2 (i 0) k) * W (ix2 k (i 1))

/-- A bias ROW added to every row, then the maximum with `z`. -/
def actRow (Z : (⟨2, ![A, K]⟩ : Shape).Idx → EReal) (b : (⟨2, ![1, K]⟩ : Shape).Idx → EReal) (z : EReal) :
    (⟨2, ![A, K]⟩ : Shape).Idx → EReal :=
  fun i => max (Z i + b (ix2 (0 : Fin 1) (i 1))) z

/-- A bias VECTOR added to every row, then the maximum with `z`. -/
def act (Z : (⟨2, ![A, K]⟩ : Shape).Idx → EReal) (b : (⟨1, ![K]⟩ : Shape).Idx → EReal) (z : EReal) :
    (⟨2, ![A, K]⟩ : Shape).Idx → EReal :=
  fun i => max (Z i + b (ix1 (i 1))) z

/-- A ROW added to every row. -/
def addRowRow (Y : (⟨2, ![A, B]⟩ : Shape).Idx → EReal) (o : (⟨2, ![1, B]⟩ : Shape).Idx → EReal) :
    (⟨2, ![A, B]⟩ : Shape).Idx → EReal :=
  fun i => Y i + o (ix2 (0 : Fin 1) (i 1))

/-- A VECTOR added to every row. -/
def addRow (Y : (⟨2, ![A, B]⟩ : Shape).Idx → EReal) (o : (⟨1, ![B]⟩ : Shape).Idx → EReal) :
    (⟨2, ![A, B]⟩ : Shape).Idx → EReal :=
  fun i => Y i + o (ix1 (i 1))

/-- The row form at the vector cast to one row is the vector form. -/
theorem actRow_cast (Z : (⟨2, ![A, K]⟩ : Shape).Idx → EReal) (b : (⟨1, ![K]⟩ : Shape).Idx → EReal)
    (h : (⟨1, ![K]⟩ : Shape).ShapeCasts ⟨2, ![1, K]⟩) (z : EReal) :
    actRow Z (shapeCast ⟨2, ![1, K]⟩ b h) z = act Z b z :=
  funext fun i => by
    obtain ⟨a, k, rfl⟩ : ∃ (a : Fin A) (k : Fin K), i = ix2 a k := ⟨i 0, i 1, eq_ix2 i⟩
    show max (Z (ix2 a k) + shapeCast ⟨2, ![1, K]⟩ b h (ix2 (0 : Fin 1) k)) z = max (Z (ix2 a k) + b (ix1 k)) z
    rw [shapeCast_a_1a_apply]

theorem addRowRow_cast (Y : (⟨2, ![A, B]⟩ : Shape).Idx → EReal) (o : (⟨1, ![B]⟩ : Shape).Idx → EReal)
    (h : (⟨1, ![B]⟩ : Shape).ShapeCasts ⟨2, ![1, B]⟩) :
    addRowRow Y (shapeCast ⟨2, ![1, B]⟩ o h) = addRow Y o :=
  funext fun i => by
    obtain ⟨a, k, rfl⟩ : ∃ (a : Fin A) (k : Fin B), i = ix2 a k := ⟨i 0, i 1, eq_ix2 i⟩
    show Y (ix2 a k) + shapeCast ⟨2, ![1, B]⟩ o h (ix2 (0 : Fin 1) k) = Y (ix2 a k) + o (ix1 k)
    rw [shapeCast_a_1a_apply]

/-- The host's dot_general of a plain product (whatever record spells its dimension numbers) is `prod`. -/
theorem dotGeneral_eq_prod (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ .f32) (W : FVec Ideal ⟨2, ![K, B]⟩ .f32) :
    Host.dotGeneral d none X W = prod X W := by
  rw [Cert.Lib.PlainDot.eq_plain d h1 h2 h3 h4 h5 h6]
  exact funext fun i => Cert.Lib.PlainDot.dotGeneral_plain_apply none X W i

/-- The host's bias add (the vector broadcast to one row, the row to every row) and maximum with a broadcast
    scalar constant is `act` at that constant's value. -/
theorem hostAct_eq (Z : FVec Ideal ⟨2, ![A, K]⟩ .f32) (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![A, K]⟩ ![0, 1])
    (z : FVec Ideal ⟨0, ![]⟩ .f32) (h0 : (⟨0, ![]⟩ : Shape).BroadcastsInDim ⟨2, ![A, K]⟩ ![]) :
    maximumf (addf Z (broadcastInDim ⟨2, ![A, K]⟩ ![0, 1] h2 (broadcastInDim ⟨2, ![1, K]⟩ ![1] h1 b)))
        (broadcastInDim ⟨2, ![A, K]⟩ ![] h0 z)
      = act Z b (z ix0) :=
  funext fun i => by
    obtain ⟨a, k, rfl⟩ : ∃ (a : Fin A) (k : Fin K), i = ix2 a k := ⟨i 0, i 1, eq_ix2 i⟩
    show max (Z (ix2 a k) + broadcastInDim ⟨2, ![A, K]⟩ ![0, 1] h2 (broadcastInDim ⟨2, ![1, K]⟩ ![1] h1 b) (ix2 a k))
        (broadcastInDim ⟨2, ![A, K]⟩ ![] h0 z (ix2 a k)) = max (Z (ix2 a k) + b (ix1 k)) (z ix0)
    have hz : broadcastInDim ⟨2, ![A, K]⟩ ![] h0 z (ix2 a k) = z ix0 :=
      broadcastInDim_apply ![] h0 z (ix2 a k) ix0 fun d => d.elim0
    rw [hz, Cert.LibSegSum.bcast_row_apply]

/-- The host's bias add of a vector to every row is `addRow`. -/
theorem hostAddRow_eq (Y : FVec Ideal ⟨2, ![A, B]⟩ .f32) (o : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf Y (broadcastInDim ⟨2, ![A, B]⟩ ![0, 1] h2 (broadcastInDim ⟨2, ![1, B]⟩ ![1] h1 o)) = addRow Y o :=
  funext fun i => by
    obtain ⟨a, k, rfl⟩ : ∃ (a : Fin A) (k : Fin B), i = ix2 a k := ⟨i 0, i 1, eq_ix2 i⟩
    show Y (ix2 a k) + broadcastInDim ⟨2, ![A, B]⟩ ![0, 1] h2 (broadcastInDim ⟨2, ![1, B]⟩ ![1] h1 o) (ix2 a k)
      = Y (ix2 a k) + o (ix1 k)
    rw [Cert.LibSegSum.bcast_row_apply]

end Cert.Layer

end
-- ==== Proof.LibRowLocal.lean ====
/-
  DENSE STAGES THAT ACT ROW BY ROW, as functions of whole arrays on the extended reals, generic in the extents.

  * `scaleRows Y s`  — row a of Y : [A, B] multiplied by the entry s(a, 0) of a column s : [A, 1];
  * `mapEntries f Y` — a function of one extended real applied to every entry.

  Three things are proved about them and about the product, the bias-then-maximum and the bias add of the dense-layer
  file (`prod`, `act`, `addRow`):

  1. the HOST's spelling is the stage: a column broadcast along the rows by `broadcast_in_dim` and multiplied;
  2. a KERNEL's spelling is the stage: a matmul into the zero accumulator is `prod`; a column cast to its own shape,
     broadcast along the rows and multiplied is `scaleRows`; a vector cast to one row, broadcast down the rows, added and
     met with a broadcast scalar is `act`, without the maximum `addRow`;
  3. each stage is ROW-LOCAL: if a block x : [a, ·] holds the rows e(0), …, e(a−1) of X : [A, ·] (and a block of the
     column the same rows of the column), then the stage of the blocks, read at (p, q), is the stage of the whole arrays
     read at (e p, q). A matrix that is not cut (the weights, the bias) is the same on both sides.

  Nothing here depends on a program.
-/
import proofs.«130760_j38732015076057_2_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RowLocal

open Idealize.ShloMosaic Idealize.ShloMosaic.ValueIdx Cert.Layer

variable {A K B : Nat}

/-- The index (a, 0) of a column. -/
abbrev col0 (a : Fin A) : (⟨2, ![A, 1]⟩ : Shape).Idx := ix2 a (⟨0, Nat.one_pos⟩ : Fin 1)

/-- Row a of Y multiplied by s(a, 0). -/
def scaleRows (Y : (⟨2, ![A, B]⟩ : Shape).Idx → EReal) (s : (⟨2, ![A, 1]⟩ : Shape).Idx → EReal) :
    (⟨2, ![A, B]⟩ : Shape).Idx → EReal :=
  fun i => Y i * s (col0 (i 0))

/-- A function of one extended real applied entry by entry. -/
def mapEntries (f : EReal → EReal) (Y : (⟨2, ![A, B]⟩ : Shape).Idx → EReal) : (⟨2, ![A, B]⟩ : Shape).Idx → EReal :=
  fun i => f (Y i)

theorem scaleRows_apply (Y : (⟨2, ![A, B]⟩ : Shape).Idx → EReal) (s : (⟨2, ![A, 1]⟩ : Shape).Idx → EReal)
    (a : Fin A) (b : Fin B) : scaleRows Y s (ix2 a b) = Y (ix2 a b) * s (col0 a) := rfl

/-! ## The host's spelling -/

/-- A column [A, 1] broadcast along the rows to [A, B], read at (a, b): the column's entry (a, 0). -/
theorem bcastCol_apply (h : (⟨2, ![A, 1]⟩ : Shape).BroadcastsInDim ⟨2, ![A, B]⟩ ![0, 1])
    (s : (⟨2, ![A, 1]⟩ : Shape).Idx → EReal) (a : Fin A) (b : Fin B) :
    broadcastInDim ⟨2, ![A, B]⟩ ![0, 1] h s (ix2 a b) = s (col0 a) := by
  refine broadcastInDim_apply ![0, 1] h s (ix2 a b) (col0 a) fun d => ?_
  match d with
  | ⟨0, _⟩ =>
    show a.val = if A = 1 then 0 else a.val
    split
    · have := a.isLt; omega
    · rfl
  | ⟨1, _⟩ => exact (if_pos rfl).symm

/-- The host's product with a column broadcast along the rows is `scaleRows`. -/
theorem hostScale_eq (Y : FVec Ideal ⟨2, ![A, B]⟩ .f32) (s : FVec Ideal ⟨2, ![A, 1]⟩ .f32)
    (h : (⟨2, ![A, 1]⟩ : Shape).BroadcastsInDim ⟨2, ![A, B]⟩ ![0, 1]) :
    mulf Y (broadcastInDim ⟨2, ![A, B]⟩ ![0, 1] h s) = scaleRows Y s :=
  funext fun i => by
    obtain ⟨a, b, rfl⟩ : ∃ (a : Fin A) (b : Fin B), i = ix2 a b := ⟨i 0, i 1, eq_ix2 i⟩
    show Y (ix2 a b) * broadcastInDim ⟨2, ![A, B]⟩ ![0, 1] h s (ix2 a b) = Y (ix2 a b) * s (col0 a)
    rw [bcastCol_apply]

/-- The host's hyperbolic tangent is the entrywise one. -/
theorem hostTanh_eq (Y : FVec Ideal ⟨2, ![A, B]⟩ .f32) : Host.tanh Y = mapEntries Ideal.tanh Y := rfl

/-! ## A kernel's spelling -/

/-- A column [A, 1] broadcast (as a vector broadcast) to [A, B], read at (a, b): the column's entry (a, 0). -/
theorem bcastToCol_apply (h : (⟨2, ![A, 1]⟩ : Shape).Broadcasts ⟨2, ![A, B]⟩)
    (s : (⟨2, ![A, 1]⟩ : Shape).Idx → EReal) (a : Fin A) (b : Fin B) :
    broadcastTo ⟨2, ![A, B]⟩ s h (ix2 a b) = s (col0 a) := by
  refine broadcastTo_apply s h (ix2 a b) (col0 a) fun d => ?_
  match d with
  | ⟨0, _⟩ =>
    show a.val = if A = 1 then 0 else a.val
    split
    · have := a.isLt; omega
    · rfl
  | ⟨1, _⟩ => exact (if_pos rfl).symm

/-- A kernel's product with a column, cast to its own shape and broadcast along the rows, is `scaleRows`. -/
theorem kernelScale_eq (Y : FVec Ideal ⟨2, ![A, B]⟩ .f32) (s : FVec Ideal ⟨2, ![A, 1]⟩ .f32)
    (hc : (⟨2, ![A, 1]⟩ : Shape).ShapeCasts ⟨2, ![A, 1]⟩) (hb : (⟨2, ![A, 1]⟩ : Shape).Broadcasts ⟨2, ![A, B]⟩) :
    mulf Y (broadcastTo ⟨2, ![A, B]⟩ (shapeCast ⟨2, ![A, 1]⟩ s hc) hb) = scaleRows Y s :=
  funext fun i => by
    obtain ⟨a, b, rfl⟩ : ∃ (a : Fin A) (b : Fin B), i = ix2 a b := ⟨i 0, i 1, eq_ix2 i⟩
    show Y (ix2 a b) * broadcastTo ⟨2, ![A, B]⟩ (shapeCast ⟨2, ![A, 1]⟩ s hc) hb (ix2 a b) = Y (ix2 a b) * s (col0 a)
    rw [bcastToCol_apply, shapeCast_self]

/-- A kernel's matmul of a plain product into the zero accumulator (whatever record spells its dimension numbers, and
    whatever formats the operands were narrowed to) is `prod`. -/
theorem kernelProd_eq {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ φ₁) (W : FVec Ideal ⟨2, ![K, B]⟩ φ₂) :
    matmul d none X W (constant ⟨2, ![A, B]⟩ .f32 0x00000000#32) = prod X W := by
  rw [Cert.Lib.PlainDot.eq_plain d h1 h2 h3 h4 h5 h6]
  exact funext fun i => Cert.Lib.PlainDot.matmul_zero_plain_apply none X W i

/-- A kernel's bias add (the vector cast to one row, the row broadcast down the rows) and maximum with a broadcast
    scalar is `act`. -/
theorem kernelAct_eq (Z : FVec Ideal ⟨2, ![A, K]⟩ .f32) (b : FVec Ideal ⟨1, ![K]⟩ .f32)
    (hc : (⟨1, ![K]⟩ : Shape).ShapeCasts ⟨2, ![1, K]⟩) (hb : (⟨2, ![1, K]⟩ : Shape).Broadcasts ⟨2, ![A, K]⟩) (z : EReal) :
    maximumf (addf Z (broadcastTo ⟨2, ![A, K]⟩ (shapeCast ⟨2, ![1, K]⟩ b hc) hb)) (broadcast ⟨2, ![A, K]⟩ z) = act Z b z :=
  funext fun i => by
    obtain ⟨a, k, rfl⟩ : ∃ (a : Fin A) (k : Fin K), i = ix2 a k := ⟨i 0, i 1, eq_ix2 i⟩
    show max (Z (ix2 a k) + broadcastTo ⟨2, ![A, K]⟩ (shapeCast ⟨2, ![1, K]⟩ b hc) hb (ix2 a k)) z
      = max (Z (ix2 a k) + b (ix1 k)) z
    rw [broadcastTo_1b_ab_apply, shapeCast_a_1a_apply]

/-- A kernel's bias add of a vector to every row is `addRow`. -/
theorem kernelAddRow_eq (Y : FVec Ideal ⟨2, ![A, B]⟩ .f32) (o : FVec Ideal ⟨1, ![B]⟩ .f32)
    (hc : (⟨1, ![B]⟩ : Shape).ShapeCasts ⟨2, ![1, B]⟩) (hb : (⟨2, ![1, B]⟩ : Shape).Broadcasts ⟨2, ![A, B]⟩) :
    addf Y (broadcastTo ⟨2, ![A, B]⟩ (shapeCast ⟨2, ![1, B]⟩ o hc) hb) = addRow Y o :=
  funext fun i => by
    obtain ⟨a, k, rfl⟩ : ∃ (a : Fin A) (k : Fin B), i = ix2 a k := ⟨i 0, i 1, eq_ix2 i⟩
    show Y (ix2 a k) + broadcastTo ⟨2, ![A, B]⟩ (shapeCast ⟨2, ![1, B]⟩ o hc) hb (ix2 a k) = Y (ix2 a k) + o (ix1 k)
    rw [broadcastTo_1b_ab_apply, shapeCast_a_1a_apply]

/-! ## Row-locality: the stage of a block of rows is that block of the stage -/

section Blocks
variable {a : Nat} (e : Fin a → Fin A)

/-- A block x : [a, C] holds the rows e(0), …, e(a−1) of X : [A, C]. -/
def RowsOf {C : Nat} (x : (⟨2, ![a, C]⟩ : Shape).Idx → EReal) (X : (⟨2, ![A, C]⟩ : Shape).Idx → EReal) : Prop :=
  ∀ (p : Fin a) (q : Fin C), x (ix2 p q) = X (ix2 (e p) q)

theorem rowsOf_prod {x : (⟨2, ![a, K]⟩ : Shape).Idx → EReal} {X : (⟨2, ![A, K]⟩ : Shape).Idx → EReal}
    (hx : RowsOf e x X) (W : (⟨2, ![K, B]⟩ : Shape).Idx → EReal) : RowsOf e (prod x W) (prod X W) :=
  fun p q => Finset.sum_congr rfl fun k _ => by
    show x (ix2 p k) * W (ix2 k q) = X (ix2 (e p) k) * W (ix2 k q)
    rw [hx p k]

theorem rowsOf_scaleRows {y : (⟨2, ![a, B]⟩ : Shape).Idx → EReal} {Y : (⟨2, ![A, B]⟩ : Shape).Idx → EReal}
    {s : (⟨2, ![a, 1]⟩ : Shape).Idx → EReal} {S : (⟨2, ![A, 1]⟩ : Shape).Idx → EReal}
    (hy : RowsOf e y Y) (hs : RowsOf e s S) : RowsOf e (scaleRows y s) (scaleRows Y S) :=
  fun p q => by
    show y (ix2 p q) * s (col0 p) = Y (ix2 (e p) q) * S (col0 (e p))
    rw [hy p q, hs p ⟨0, Nat.one_pos⟩]

theorem rowsOf_act {z' : (⟨2, ![a, K]⟩ : Shape).Idx → EReal} {Z : (⟨2, ![A, K]⟩ : Shape).Idx → EReal}
    (hz : RowsOf e z' Z) (b : (⟨1, ![K]⟩ : Shape).Idx → EReal) (z : EReal) : RowsOf e (act z' b z) (act Z b z) :=
  fun p q => by
    show max (z' (ix2 p q) + b (ix1 q)) z = max (Z (ix2 (e p) q) + b (ix1 q)) z
    rw [hz p q]

theorem rowsOf_addRow {y : (⟨2, ![a, B]⟩ : Shape).Idx → EReal} {Y : (⟨2, ![A, B]⟩ : Shape).Idx → EReal}
    (hy : RowsOf e y Y) (o : (⟨1, ![B]⟩ : Shape).Idx → EReal) : RowsOf e (addRow y o) (addRow Y o) :=
  fun p q => by
    show y (ix2 p q) + o (ix1 q) = Y (ix2 (e p) q) + o (ix1 q)
    rw [hy p q]

theorem rowsOf_mapEntries (f : EReal → EReal) {y : (⟨2, ![a, B]⟩ : Shape).Idx → EReal}
    {Y : (⟨2, ![A, B]⟩ : Shape).Idx → EReal} (hy : RowsOf e y Y) : RowsOf e (mapEntries f y) (mapEntries f Y) :=
  fun p q => congrArg f (hy p q)

end Blocks

end Cert.RowLocal

end
-- ==== Proof.LibRowBias.lean ====
/-
  DENSE STAGES WITH THE BIAS KEPT AS A ONE-ROW MATRIX, on the extended reals, generic in the extents.

  A kernel that receives its bias as a [1, K] array broadcasts it down the rows; the
  dense-layer file's `actRow` (bias row added, then the maximum with a constant) and `addRowRow` (bias row added) are
  what that computes. Proved here: the kernel's spelling is the stage, each stage is row-local (the stage of a block of
  rows is that block of the stage), and so is the entrywise sum of two row-local arrays.

  Nothing here depends on a program.
-/
import proofs.«130760_j38732015076057_2_alg».proof.Proof.LibRowLocal
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RowBias

open Idealize.ShloMosaic Idealize.ShloMosaic.ValueIdx Cert.Layer Cert.RowLocal

variable {A K B : Nat}

/-- A kernel's bias add (the one-row matrix broadcast down the rows) and maximum with a broadcast scalar is
    `actRow`. -/
theorem kernelActRow_eq (Z : FVec Ideal ⟨2, ![A, K]⟩ .f32) (b : FVec Ideal ⟨2, ![1, K]⟩ .f32)
    (hb : (⟨2, ![1, K]⟩ : Shape).Broadcasts ⟨2, ![A, K]⟩) (z : EReal) :
    maximumf (addf Z (broadcastTo ⟨2, ![A, K]⟩ b hb)) (broadcast ⟨2, ![A, K]⟩ z) = actRow Z b z :=
  funext fun i => by
    obtain ⟨a, k, rfl⟩ : ∃ (a : Fin A) (k : Fin K), i = ix2 a k := ⟨i 0, i 1, eq_ix2 i⟩
    show max (Z (ix2 a k) + broadcastTo ⟨2, ![A, K]⟩ b hb (ix2 a k)) z = max (Z (ix2 a k) + b (ix2 (0 : Fin 1) k)) z
    rw [broadcastTo_1b_ab_apply]

/-- A kernel's bias add of a one-row matrix to every row is `addRowRow`. -/
theorem kernelAddRowRow_eq (Y : FVec Ideal ⟨2, ![A, B]⟩ .f32) (o : FVec Ideal ⟨2, ![1, B]⟩ .f32)
    (hb : (⟨2, ![1, B]⟩ : Shape).Broadcasts ⟨2, ![A, B]⟩) :
    addf Y (broadcastTo ⟨2, ![A, B]⟩ o hb) = addRowRow Y o :=
  funext fun i => by
    obtain ⟨a, k, rfl⟩ : ∃ (a : Fin A) (k : Fin B), i = ix2 a k := ⟨i 0, i 1, eq_ix2 i⟩
    show Y (ix2 a k) + broadcastTo ⟨2, ![A, B]⟩ o hb (ix2 a k) = Y (ix2 a k) + o (ix2 (0 : Fin 1) k)
    rw [broadcastTo_1b_ab_apply]

section Blocks
variable {a : Nat} (e : Fin a → Fin A)

theorem rowsOf_actRow {z' : (⟨2, ![a, K]⟩ : Shape).Idx → EReal} {Z : (⟨2, ![A, K]⟩ : Shape).Idx → EReal}
    (hz : RowsOf e z' Z) (b : (⟨2, ![1, K]⟩ : Shape).Idx → EReal) (z : EReal) :
    RowsOf e (actRow z' b z) (actRow Z b z) :=
  fun p q => by
    show max (z' (ix2 p q) + b (ix2 (0 : Fin 1) q)) z = max (Z (ix2 (e p) q) + b (ix2 (0 : Fin 1) q)) z
    rw [hz p q]

theorem rowsOf_addRowRow {y : (⟨2, ![a, B]⟩ : Shape).Idx → EReal} {Y : (⟨2, ![A, B]⟩ : Shape).Idx → EReal}
    (hy : RowsOf e y Y) (o : (⟨2, ![1, B]⟩ : Shape).Idx → EReal) : RowsOf e (addRowRow y o) (addRowRow Y o) :=
  fun p q => by
    show y (ix2 p q) + o (ix2 (0 : Fin 1) q) = Y (ix2 (e p) q) + o (ix2 (0 : Fin 1) q)
    rw [hy p q]

/-- The entrywise sum of two row-local arrays is row-local. -/
theorem rowsOf_add {y₁ y₂ : (⟨2, ![a, B]⟩ : Shape).Idx → EReal} {Y₁ Y₂ : (⟨2, ![A, B]⟩ : Shape).Idx → EReal}
    (h₁ : RowsOf e y₁ Y₁) (h₂ : RowsOf e y₂ Y₂) : RowsOf e (fun i => y₁ i + y₂ i) (fun i => Y₁ i + Y₂ i) :=
  fun p q => by
    show y₁ (ix2 p q) + y₂ (ix2 p q) = Y₁ (ix2 (e p) q) + Y₂ (ix2 (e p) q)
    rw [h₁ p q, h₂ p q]

end Blocks

end Cert.RowBias

end
-- ==== Proof.RegionBase.lean ====
/-
  What the four layers' modules share: the value of the float zero word, and the offset of a whole-buffer rectangle.
-/
import proofs.«130760_j38732015076057_2_alg».proof.Proof.Gen.KernelIdeal.Frame
import Idealize.ShloMosaic.Lib.Pipeline.Value
import Idealize.ShloMosaic.Lib.ValueIdx

noncomputable section

namespace Cert.KernelIdeal.Layers

open Idealize.ShloMosaic

/-- The value of the float zero word. -/
abbrev z0 : EReal := Scalar.ofBits (F := Ideal) .f32 0x00000000#32

/-- The offset of a rectangle that is a whole rank-2 buffer. -/
theorem hz : (![0, 0] : Fin 2 → Nat) = fun _ => 0 := funext fun a => by fin_cases a <;> rfl

end Cert.KernelIdeal.Layers

end
-- ==== Proof.Region0.lean ====
/-
  THE FIRST DENSE LAYER (the node features), as the array it leaves.

  Ten grid points; point t reads rows 1000 t … 1000 t + 999 of the node features X : [10000, 256], the whole weight
  matrix W : [256, 256] and the whole bias row b : [1, 256], and writes back rows 1000 t … 1000 t + 999 of
  max(X · W + b, 0). Row r of that array depends on row r of X only, so the ten blocks are the ten row bands of ONE
  array, max(X · W + b, 0) of the whole X, and together they cover it.
-/
import proofs.«130760_j38732015076057_2_alg».proof.Proof.Gen.KernelIdeal.Frame
import proofs.«130760_j38732015076057_2_alg».proof.Proof.LibRowBias
import proofs.«130760_j38732015076057_2_alg».proof.Proof.RegionBase
import Idealize.ShloMosaic.Lib.Pipeline.Value
import Idealize.ShloMosaic.Lib.ValueIdx

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen Cert.Layer Cert.RowLocal Cert.RowBias

/-- The body's stored value: max(x · w + b, 0) of the three loaded blocks. -/
theorem pay0 (x0 : Vec Ideal S1000x256 .bf16) (x1 : Vec Ideal S256x256 .bf16) (x2 : Vec Ideal S1x256 .f32) :
    k0_pay1 x0 x1 x2 = actRow (prod x0 x1) x2 z0 := by
  unfold k0_pay1
  show maximumf (F := Ideal) (addf (matmul dot_S1000x256_S256x256_S1000x256_1_0_0_1_n_n none (shapeCast S1000x256 x0 _)
      (shapeCast S256x256 x1 _) (constant S1000x256 .f32 0x00000000#32))
      (broadcastTo S1000x256 (shapeCast S1x256 x2 _) _)) (broadcast S1000x256 (Scalar.ofBits .f32 0x00000000#32)) = _
  simp only [shapeCast_self]
  rw [kernelProd_eq _ rfl rfl rfl rfl rfl rfl, kernelActRow_eq]

/-- Where each window's block sits at point t: band t of the row-tiled arrays, the whole of the others. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt0 (t : Fin cfg0.N) : t.val < 10 := by
  exact lt_of_lt_of_eq t.isLt N_0

/-- Row p of block t is row 1000 t + p of the array. -/
def row0 (t : Fin cfg0.N) (p : Fin 1000) : Fin 10000 :=
  ⟨t.val * 1000 + p.val, by have := lt0 t; have := p.isLt; omega⟩

variable (V : (c : Dev nD) → (b : Ref sig .tc) → Buf (Elt Ideal) ((c : Thread nD τ).loc b))

/-- Window 0's block at point t holds rows 1000 t … of its array. -/
theorem rows0_0 (c : Dev nD) (t : Fin cfg0.N) :
    RowsOf (C := 256) (row0 t) (iblk0 V c 0 t) (V c main_v4 : S10000x256.Idx → EReal) := fun p q => by
  obtain ⟨e0a, e0b, e1a, e1b, e2a, e2b, e3a, e3b⟩ := idx0 t
  show V c main_v4 (((cfg0.win 0).blk t).view.emb (ix2 p q)) = V c main_v4 (ix2 (row0 t p) q)
  refine congrArg (V c main_v4) (funext fun a => Fin.ext ?_)
  match a with
  | ⟨0, _⟩ => show win0_0.index t (0 : Fin 2) * 1000 + 1 * p.val = t.val * 1000 + p.val; omega
  | ⟨1, _⟩ => show win0_0.index t (1 : Fin 2) * 256 + 1 * q.val = q.val; omega

/-- Window 1's block at every point is its whole array. -/
theorem whole0_1 (c : Dev nD) (t : Fin cfg0.N) :
    (iblk0 V c 1 t : S256x256.Idx → EReal) = V c main_v6 := funext fun y => by
  obtain ⟨e0a, e0b, e1a, e1b, e2a, e2b, e3a, e3b⟩ := idx0 t
  show V c main_v6 (((cfg0.win 1).blk t).view.emb y) = V c main_v6 y
  refine congrArg (V c main_v6) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- Window 2's block at every point is its whole array. -/
theorem whole0_2 (c : Dev nD) (t : Fin cfg0.N) :
    (iblk0 V c 2 t : S1x256.Idx → EReal) = V c main_v8 := funext fun y => by
  obtain ⟨e0a, e0b, e1a, e1b, e2a, e2b, e3a, e3b⟩ := idx0 t
  show V c main_v8 (((cfg0.win 2).blk t).view.emb y) = V c main_v8 y
  refine congrArg (V c main_v8) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- Entry (p, q) of output window 3's block at point t is entry (1000 t + p, q) of its array. -/
theorem emb0_3 (t : Fin cfg0.N) (p : Fin 1000) (q : Fin 256) :
    ((cfg0.win 3).blk t).view.emb (ix2 p q) = ix2 (row0 t p) q := funext fun a => Fin.ext (by
  obtain ⟨e0a, e0b, e1a, e1b, e2a, e2b, e3a, e3b⟩ := idx0 t
  match a with
  | ⟨0, _⟩ => show win0_3.index t (0 : Fin 2) * 1000 + 1 * p.val = t.val * 1000 + p.val; omega
  | ⟨1, _⟩ => show win0_3.index t (1 : Fin 2) * 256 + 1 * q.val = q.val; omega)

/-- An index is in block t of window 3 exactly when its row is in band t. -/
theorem mem_blk0_3 (t : Fin cfg0.N) (i : S10000x256.Idx) :
    i ∈ ((cfg0.win 3).blk t).view.set ↔ ∀ a : Fin 2,
      win0_3.index t a * S1000x256.size a ≤ (i a).val
        ∧ (i a).val < win0_3.index t a * S1000x256.size a + S1000x256.size a := by
  show i ∈ ((View.whole main_v9).slice (win0_3.rect t)).set ↔ _
  rw [View.set_slice_whole, Rect.mem_set_unit]
  exact Iff.rfl

/-- Every index of window 3's array is in the block of the band its row lies in. -/
theorem cover0_3 (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  let t : Fin cfg0.N := ⟨(i 0).val / 1000, by rw [show cfg0.N = 10 from N_0]; omega⟩
  obtain ⟨e0a, e0b, e1a, e1b, e2a, e2b, e3a, e3b⟩ := idx0 t
  have ht : t.val = (i 0).val / 1000 := rfl
  refine ⟨t, flush0_3 t, ?_⟩
  rw [mem_blk0_3]
  intro a
  match a with
  | ⟨0, _⟩ =>
    show win0_3.index t (0 : Fin 2) * 1000 ≤ (i 0).val ∧ (i 0).val < win0_3.index t (0 : Fin 2) * 1000 + 1000
    omega
  | ⟨1, _⟩ =>
    show win0_3.index t (1 : Fin 2) * 256 ≤ (i 1).val ∧ (i 1).val < win0_3.index t (1 : Fin 2) * 256 + 256
    omega

/-- The array the layer computes from the arrays the region finds. -/
def layer0 (c : Dev nD) : S10000x256.Idx → EReal :=
  actRow (prod (V c main_v4 : S10000x256.Idx → EReal) (V c main_v6 : S256x256.Idx → EReal))
    (V c main_v8 : S1x256.Idx → EReal) z0

/-- What point t writes back is block t of that array. -/
theorem flushed0 (c : Dev nD) (t : Fin cfg0.N) :
    (dat0 (F := Ideal) V c).flushed 3 t = ((cfg0.win 3).blk t).view.read (Elt Ideal) (layer0 V c) := by
  show (cfg0.win 3).cut (grid0.coords t) ((dat0 V c).after 3 t) = _
  rw [after0_3]
  unfold out0_3
  rw [View.canon_unit_zero hz]
  simp only [View.ld_unit_zero (S := S1000x256) hz, View.ld_unit_zero (S := S256x256) hz,
    View.ld_unit_zero (S := S1x256) hz]
  rw [pay0]
  funext j
  obtain ⟨p, q, rfl⟩ : ∃ (p : Fin 1000) (q : Fin 256), j = ix2 p q := ⟨j 0, j 1, eq_ix2 j⟩
  show actRow (prod (iblk0 V c 0 t) (iblk0 V c 1 t)) (iblk0 V c 2 t) z0 (ix2 p q)
    = layer0 V c (((cfg0.win 3).blk t).view.emb (ix2 p q))
  rw [emb0_3 t p q, whole0_1 V c t, whole0_2 V c t]
  exact rowsOf_actRow (row0 t) (rowsOf_prod (row0 t) (rows0_0 V c t) _) _ _ p q

/-- THE ARRAY after the region. -/
theorem final0 (c : Dev nD) : (dat0 (F := Ideal) V c).arrAt 3 cfg0.N = layer0 V c :=
  (dat0 V c).arrAt_eq_of_cover 3 (layer0 V c) (fun t _ => flushed0 V c t) cover0_3

end Cert.KernelIdeal.Layers

end
-- ==== Proof.Region1.lean ====
/-
  THE SECOND DENSE LAYER (the edge features), as the array it leaves.

  Forty grid points; point t reads rows 4000 t … 4000 t + 3999 of the edge features X : [160000, 128], the whole weight
  matrix W : [128, 256] and the whole bias row b : [1, 256], and writes back the same rows of max(X · W + b, 0). The
  forty blocks are the forty row bands of max(X · W + b, 0) of the whole X, and together they cover it.
-/
import proofs.«130760_j38732015076057_2_alg».proof.Proof.Gen.KernelIdeal.Frame
import proofs.«130760_j38732015076057_2_alg».proof.Proof.LibRowBias
import proofs.«130760_j38732015076057_2_alg».proof.Proof.RegionBase
import Idealize.ShloMosaic.Lib.Pipeline.Value
import Idealize.ShloMosaic.Lib.ValueIdx

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen Cert.Layer Cert.RowLocal Cert.RowBias

/-- The body's stored value: max(x · w + b, 0) of the three loaded blocks. -/
theorem pay1 (x0 : Vec Ideal S4000x128 .bf16) (x1 : Vec Ideal S128x256 .bf16) (x2 : Vec Ideal S1x256 .f32) :
    k1_pay1 x0 x1 x2 = actRow (prod x0 x1) x2 z0 := by
  unfold k1_pay1
  show maximumf (F := Ideal) (addf (matmul dot_S4000x128_S128x256_S4000x256_1_0_0_1_n_n none (shapeCast S4000x128 x0 _)
      (shapeCast S128x256 x1 _) (constant S4000x256 .f32 0x00000000#32))
      (broadcastTo S4000x256 (shapeCast S1x256 x2 _) _)) (broadcast S4000x256 (Scalar.ofBits .f32 0x00000000#32)) = _
  simp only [shapeCast_self]
  rw [kernelProd_eq _ rfl rfl rfl rfl rfl rfl, kernelActRow_eq]

/-- Where each window's block sits at point t: band t of the row-tiled arrays, the whole of the others. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt1 (t : Fin cfg1.N) : t.val < 40 := by
  exact lt_of_lt_of_eq t.isLt N_1

/-- Row p of block t is row 4000 t + p of the array. -/
def row1 (t : Fin cfg1.N) (p : Fin 4000) : Fin 160000 :=
  ⟨t.val * 4000 + p.val, by have := lt1 t; have := p.isLt; omega⟩

variable (V : (c : Dev nD) → (b : Ref sig .tc) → Buf (Elt Ideal) ((c : Thread nD τ).loc b))

/-- Window 0's block at point t holds rows 4000 t … of its array. -/
theorem rows1_0 (c : Dev nD) (t : Fin cfg1.N) :
    RowsOf (C := 128) (row1 t) (iblk1 V c 0 t) (V c main_v5 : S160000x128.Idx → EReal) := fun p q => by
  obtain ⟨e0a, e0b, e1a, e1b, e2a, e2b, e3a, e3b⟩ := idx1 t
  show V c main_v5 (((cfg1.win 0).blk t).view.emb (ix2 p q)) = V c main_v5 (ix2 (row1 t p) q)
  refine congrArg (V c main_v5) (funext fun a => Fin.ext ?_)
  match a with
  | ⟨0, _⟩ => show win1_0.index t (0 : Fin 2) * 4000 + 1 * p.val = t.val * 4000 + p.val; omega
  | ⟨1, _⟩ => show win1_0.index t (1 : Fin 2) * 128 + 1 * q.val = q.val; omega

/-- Window 1's block at every point is its whole array. -/
theorem whole1_1 (c : Dev nD) (t : Fin cfg1.N) :
    (iblk1 V c 1 t : S128x256.Idx → EReal) = V c main_v7 := funext fun y => by
  obtain ⟨e0a, e0b, e1a, e1b, e2a, e2b, e3a, e3b⟩ := idx1 t
  show V c main_v7 (((cfg1.win 1).blk t).view.emb y) = V c main_v7 y
  refine congrArg (V c main_v7) (funext fun a => Fin.ext ?_)
  match a with
  | ⟨0, _⟩ => show win1_1.index t (0 : Fin 2) * 128 + 1 * (y 0).val = (y 0).val; omega
  | ⟨1, _⟩ => show win1_1.index t (1 : Fin 2) * 256 + 1 * (y 1).val = (y 1).val; omega

/-- Window 2's block at every point is its whole array. -/
theorem whole1_2 (c : Dev nD) (t : Fin cfg1.N) :
    (iblk1 V c 2 t : S1x256.Idx → EReal) = V c main_v10 := funext fun y => by
  obtain ⟨e0a, e0b, e1a, e1b, e2a, e2b, e3a, e3b⟩ := idx1 t
  show V c main_v10 (((cfg1.win 2).blk t).view.emb y) = V c main_v10 y
  refine congrArg (V c main_v10) (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- Entry (p, q) of output window 3's block at point t is entry (4000 t + p, q) of its array. -/
theorem emb1_3 (t : Fin cfg1.N) (p : Fin 4000) (q : Fin 256) :
    ((cfg1.win 3).blk t).view.emb (ix2 p q) = ix2 (row1 t p) q := funext fun a => Fin.ext (by
  obtain ⟨e0a, e0b, e1a, e1b, e2a, e2b, e3a, e3b⟩ := idx1 t
  match a with
  | ⟨0, _⟩ => show win1_3.index t (0 : Fin 2) * 4000 + 1 * p.val = t.val * 4000 + p.val; omega
  | ⟨1, _⟩ => show win1_3.index t (1 : Fin 2) * 256 + 1 * q.val = q.val; omega)

/-- An index is in block t of window 3 exactly when its row is in band t. -/
theorem mem_blk1_3 (t : Fin cfg1.N) (i : S160000x256.Idx) :
    i ∈ ((cfg1.win 3).blk t).view.set ↔ ∀ a : Fin 2,
      win1_3.index t a * S4000x256.size a ≤ (i a).val
        ∧ (i a).val < win1_3.index t a * S4000x256.size a + S4000x256.size a := by
  show i ∈ ((View.whole main_v11).slice (win1_3.rect t)).set ↔ _
  rw [View.set_slice_whole, Rect.mem_set_unit]
  exact Iff.rfl

/-- Every index of window 3's array is in the block of the band its row lies in. -/
theorem cover1_3 (i : S160000x256.Idx) :
    ∃ t : Fin cfg1.N, (cfg1.win 3).flush t = true ∧ i ∈ ((cfg1.win 3).blk t).view.set := by
  have hi0 : (i 0).val < 160000 := (i 0).isLt
  have hi1 : (i 1).val < 256 := (i 1).isLt
  let t : Fin cfg1.N := ⟨(i 0).val / 4000, by rw [show cfg1.N = 40 from N_1]; omega⟩
  obtain ⟨e0a, e0b, e1a, e1b, e2a, e2b, e3a, e3b⟩ := idx1 t
  have ht : t.val = (i 0).val / 4000 := rfl
  refine ⟨t, flush1_3 t, ?_⟩
  rw [mem_blk1_3]
  intro a
  match a with
  | ⟨0, _⟩ =>
    show win1_3.index t (0 : Fin 2) * 4000 ≤ (i 0).val ∧ (i 0).val < win1_3.index t (0 : Fin 2) * 4000 + 4000
    omega
  | ⟨1, _⟩ =>
    show win1_3.index t (1 : Fin 2) * 256 ≤ (i 1).val ∧ (i 1).val < win1_3.index t (1 : Fin 2) * 256 + 256
    omega

/-- The array the layer computes from the arrays the region finds. -/
def layer1 (c : Dev nD) : S160000x256.Idx → EReal :=
  actRow (prod (V c main_v5 : S160000x128.Idx → EReal) (V c main_v7 : S128x256.Idx → EReal))
    (V c main_v10 : S1x256.Idx → EReal) z0

/-- What point t writes back is block t of that array. -/
theorem flushed1 (c : Dev nD) (t : Fin cfg1.N) :
    (dat1 (F := Ideal) V c).flushed 3 t = ((cfg1.win 3).blk t).view.read (Elt Ideal) (layer1 V c) := by
  show (cfg1.win 3).cut (grid1.coords t) ((dat1 V c).after 3 t) = _
  rw [after1_3]
  unfold out1_3
  rw [View.canon_unit_zero hz]
  simp only [View.ld_unit_zero (S := S4000x128) hz, View.ld_unit_zero (S := S128x256) hz,
    View.ld_unit_zero (S := S1x256) hz]
  rw [pay1]
  funext j
  obtain ⟨p, q, rfl⟩ : ∃ (p : Fin 4000) (q : Fin 256), j = ix2 p q := ⟨j 0, j 1, eq_ix2 j⟩
  show actRow (prod (iblk1 V c 0 t) (iblk1 V c 1 t)) (iblk1 V c 2 t) z0 (ix2 p q)
    = layer1 V c (((cfg1.win 3).blk t).view.emb (ix2 p q))
  rw [emb1_3 t p q, whole1_1 V c t, whole1_2 V c t]
  exact rowsOf_actRow (row1 t) (rowsOf_prod (row1 t) (rows1_0 V c t) _) _ _ p q

/-- THE ARRAY after the region. -/
theorem final1 (c : Dev nD) : (dat1 (F := Ideal) V c).arrAt 3 cfg1.N = layer1 V c :=
  (dat1 V c).arrAt_eq_of_cover 3 (layer1 V c) (fun t _ => flushed1 V c t) cover1_3

end Cert.KernelIdeal.Layers

end
-- ==== Proof.Region2.lean ====
/-
  THE EDGE-SCALE LAYERS, as the three arrays they leave.

  Eighty grid points; point t reads rows 2000 t … 2000 t + 1999 of three [160000, 256] arrays — the node layer's rows
  gathered at the edges' sources (S), the edge layer's rows (E), the node layer's rows gathered at the targets (T) —
  seven whole [256, 256] weight matrices and three whole bias rows, and writes back the same rows of

    max(S · A₀ + E · A₁ + a, 0),   max(T · B₀ + E · B₁ + b, 0),   S · C₀ + E · C₁ + T · C₂ + c.

  Each is computed row by row, so the eighty blocks of each output are the row bands of one array of the whole inputs.
-/
import proofs.«130760_j38732015076057_2_alg».proof.Proof.Gen.KernelIdeal.Frame
import proofs.«130760_j38732015076057_2_alg».proof.Proof.LibRowBias
import proofs.«130760_j38732015076057_2_alg».proof.Proof.RegionBase
import Idealize.ShloMosaic.Lib.Pipeline.Value
import Idealize.ShloMosaic.Lib.ValueIdx

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen Cert.Layer Cert.RowLocal Cert.RowBias

/-- The first stored value: max(s · a₀ + e · a₁ + a, 0). -/
theorem pay2_13 (v0 v2 : Vec Ideal S2000x256 .bf16) (v6 v9 : Vec Ideal S256x256 .bf16) (v13 : Vec Ideal S1x256 .f32) :
    k2_pay6 v0 v2 v6 v9 v13 = actRow (fun i => prod v0 v6 i + prod v2 v9 i) v13 z0 := by
  unfold k2_pay6 k2_pay3 k2_pay4
  show maximumf (F := Ideal) (addf (addf
      (matmul dot_S2000x256_S256x256_S2000x256_1_0_0_1_n_n none (shapeCast S2000x256 v0 _) (shapeCast S256x256 v6 _)
        (constant S2000x256 .f32 0x00000000#32))
      (matmul dot_S2000x256_S256x256_S2000x256_1_0_0_1_n_n none (shapeCast S2000x256 v2 _) (shapeCast S256x256 v9 _)
        (constant S2000x256 .f32 0x00000000#32)))
      (broadcastTo S2000x256 (shapeCast S1x256 v13 _) _)) (broadcast S2000x256 (Scalar.ofBits .f32 0x00000000#32)) = _
  simp only [shapeCast_self]
  rw [kernelProd_eq _ rfl rfl rfl rfl rfl rfl, kernelProd_eq _ rfl rfl rfl rfl rfl rfl, kernelActRow_eq]
  rfl

/-- The second stored value: max(t · b₀ + e · b₁ + b, 0). -/
theorem pay2_14 (v2 v4 : Vec Ideal S2000x256 .bf16) (v20 v23 : Vec Ideal S256x256 .bf16) (v27 : Vec Ideal S1x256 .f32) :
    k2_pay1 (k2_pay7 v2 v4 v20 v23 v27) (k2_pay8 (F := Ideal))
      = actRow (fun i => prod v4 v20 i + prod v2 v23 i) v27 z0 := by
  unfold k2_pay1 k2_pay7 k2_pay8 k2_pay5 k2_pay4
  show maximumf (F := Ideal) (addf (addf
      (matmul dot_S2000x256_S256x256_S2000x256_1_0_0_1_n_n none (shapeCast S2000x256 v4 _) (shapeCast S256x256 v20 _)
        (constant S2000x256 .f32 0x00000000#32))
      (matmul dot_S2000x256_S256x256_S2000x256_1_0_0_1_n_n none (shapeCast S2000x256 v2 _) (shapeCast S256x256 v23 _)
        (constant S2000x256 .f32 0x00000000#32)))
      (broadcastTo S2000x256 (shapeCast S1x256 v27 _) _)) (broadcast S2000x256 (Scalar.ofBits .f32 0x00000000#32)) = _
  simp only [shapeCast_self]
  rw [kernelProd_eq _ rfl rfl rfl rfl rfl rfl, kernelProd_eq _ rfl rfl rfl rfl rfl rfl, kernelActRow_eq]
  rfl

/-- The third stored value: s · c₀ + e · c₁ + t · c₂ + c. -/
theorem pay2_15 (v0 v2 v4 : Vec Ideal S2000x256 .bf16) (v34 v37 v41 : Vec Ideal S256x256 .bf16) (v45 : Vec Ideal S1x256 .f32) :
    k2_pay2 (k2_pay3 v0) (k2_pay4 v2) (k2_pay5 v4) v34 v37 v41 v45
      = addRowRow (fun i => prod v0 v34 i + prod v2 v37 i + prod v4 v41 i) v45 := by
  unfold k2_pay2 k2_pay3 k2_pay4 k2_pay5
  show addf (F := Ideal) (addf (addf
      (matmul dot_S2000x256_S256x256_S2000x256_1_0_0_1_n_n none (shapeCast S2000x256 v0 _) (shapeCast S256x256 v34 _)
        (constant S2000x256 .f32 0x00000000#32))
      (matmul dot_S2000x256_S256x256_S2000x256_1_0_0_1_n_n none (shapeCast S2000x256 v2 _) (shapeCast S256x256 v37 _)
        (constant S2000x256 .f32 0x00000000#32)))
      (matmul dot_S2000x256_S256x256_S2000x256_1_0_0_1_n_n none (shapeCast S2000x256 v4 _) (shapeCast S256x256 v41 _)
        (constant S2000x256 .f32 0x00000000#32)))
      (broadcastTo S2000x256 (shapeCast S1x256 v45 _) _) = _
  simp only [shapeCast_self]
  rw [kernelProd_eq _ rfl rfl rfl rfl rfl rfl, kernelProd_eq _ rfl rfl rfl rfl rfl rfl,
    kernelProd_eq _ rfl rfl rfl rfl rfl rfl, kernelAddRowRow_eq]
  rfl

/-- Where each window's block sits at point t: band t of the row-tiled arrays, the whole of the others. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = t.val ∧ win2_13.index t (1 : Fin 2) = 0
    ∧ win2_14.index t (0 : Fin 2) = t.val ∧ win2_14.index t (1 : Fin 2) = 0
    ∧ win2_15.index t (0 : Fin 2) = t.val ∧ win2_15.index t (1 : Fin 2) = 0 :=
  (by decide +kernel : ∀ t : Fin grid2.N, _)

theorem lt2 (t : Fin cfg2.N) : t.val < 80 := by
  exact lt_of_lt_of_eq t.isLt N_2

/-- Row p of block t is row 2000 t + p of the array. -/
def row2 (t : Fin cfg2.N) (p : Fin 2000) : Fin 160000 :=
  ⟨t.val * 2000 + p.val, by have := lt2 t; have := p.isLt; omega⟩

variable (V : (c : Dev nD) → (b : Ref sig .tc) → Buf (Elt Ideal) ((c : Thread nD τ).loc b))

/-- Window 0's block at point t holds rows 2000 t … of its array. -/
theorem rows2_0 (c : Dev nD) (t : Fin cfg2.N) :
    RowsOf (C := 256) (row2 t) (iblk2 V c 0 t) (V c main_v18 : S160000x256.Idx → EReal) := fun p q => by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  show V c main_v18 (((cfg2.win 0).blk t).view.emb (ix2 p q)) = V c main_v18 (ix2 (row2 t p) q)
  refine congrArg (V c main_v18) (funext fun a => Fin.ext ?_)
  match a with
  | ⟨0, _⟩ => show win2_0.index t (0 : Fin 2) * 2000 + 1 * p.val = t.val * 2000 + p.val; omega
  | ⟨1, _⟩ => show win2_0.index t (1 : Fin 2) * 256 + 1 * q.val = q.val; omega

/-- Window 1's block at point t holds rows 2000 t … of its array. -/
theorem rows2_1 (c : Dev nD) (t : Fin cfg2.N) :
    RowsOf (C := 256) (row2 t) (iblk2 V c 1 t) (V c main_v11 : S160000x256.Idx → EReal) := fun p q => by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  show V c main_v11 (((cfg2.win 1).blk t).view.emb (ix2 p q)) = V c main_v11 (ix2 (row2 t p) q)
  refine congrArg (V c main_v11) (funext fun a => Fin.ext ?_)
  match a with
  | ⟨0, _⟩ => show win2_1.index t (0 : Fin 2) * 2000 + 1 * p.val = t.val * 2000 + p.val; omega
  | ⟨1, _⟩ => show win2_1.index t (1 : Fin 2) * 256 + 1 * q.val = q.val; omega

/-- Window 2's block at point t holds rows 2000 t … of its array. -/
theorem rows2_2 (c : Dev nD) (t : Fin cfg2.N) :
    RowsOf (C := 256) (row2 t) (iblk2 V c 2 t) (V c main_v25 : S160000x256.Idx → EReal) := fun p q => by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  show V c main_v25 (((cfg2.win 2).blk t).view.emb (ix2 p q)) = V c main_v25 (ix2 (row2 t p) q)
  refine congrArg (V c main_v25) (funext fun a => Fin.ext ?_)
  match a with
  | ⟨0, _⟩ => show win2_2.index t (0 : Fin 2) * 2000 + 1 * p.val = t.val * 2000 + p.val; omega
  | ⟨1, _⟩ => show win2_2.index t (1 : Fin 2) * 256 + 1 * q.val = q.val; omega

/-- Window 3's block at every point is its whole array. -/
theorem whole2_3 (c : Dev nD) (t : Fin cfg2.N) :
    (iblk2 V c 3 t : S256x256.Idx → EReal) = V c main_v34 := funext fun y => by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  show V c main_v34 (((cfg2.win 3).blk t).view.emb y) = V c main_v34 y
  refine congrArg (V c main_v34) (funext fun a => Fin.ext ?_)
  match a with
  | ⟨0, _⟩ => show win2_3.index t (0 : Fin 2) * 256 + 1 * (y 0).val = (y 0).val; omega
  | ⟨1, _⟩ => show win2_3.index t (1 : Fin 2) * 256 + 1 * (y 1).val = (y 1).val; omega

/-- Window 4's block at every point is its whole array. -/
theorem whole2_4 (c : Dev nD) (t : Fin cfg2.N) :
    (iblk2 V c 4 t : S256x256.Idx → EReal) = V c main_v36 := funext fun y => by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  show V c main_v36 (((cfg2.win 4).blk t).view.emb y) = V c main_v36 y
  refine congrArg (V c main_v36) (funext fun a => Fin.ext ?_)
  match a with
  | ⟨0, _⟩ => show win2_4.index t (0 : Fin 2) * 256 + 1 * (y 0).val = (y 0).val; omega
  | ⟨1, _⟩ => show win2_4.index t (1 : Fin 2) * 256 + 1 * (y 1).val = (y 1).val; omega

/-- Window 5's block at every point is its whole array. -/
theorem whole2_5 (c : Dev nD) (t : Fin cfg2.N) :
    (iblk2 V c 5 t : S256x256.Idx → EReal) = V c main_v38 := funext fun y => by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  show V c main_v38 (((cfg2.win 5).blk t).view.emb y) = V c main_v38 y
  refine congrArg (V c main_v38) (funext fun a => Fin.ext ?_)
  match a with
  | ⟨0, _⟩ => show win2_5.index t (0 : Fin 2) * 256 + 1 * (y 0).val = (y 0).val; omega
  | ⟨1, _⟩ => show win2_5.index t (1 : Fin 2) * 256 + 1 * (y 1).val = (y 1).val; omega

/-- Window 6's block at every point is its whole array. -/
theorem whole2_6 (c : Dev nD) (t : Fin cfg2.N) :
    (iblk2 V c 6 t : S256x256.Idx → EReal) = V c main_v40 := funext fun y => by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  show V c main_v40 (((cfg2.win 6).blk t).view.emb y) = V c main_v40 y
  refine congrArg (V c main_v40) (funext fun a => Fin.ext ?_)
  match a with
  | ⟨0, _⟩ => show win2_6.index t (0 : Fin 2) * 256 + 1 * (y 0).val = (y 0).val; omega
  | ⟨1, _⟩ => show win2_6.index t (1 : Fin 2) * 256 + 1 * (y 1).val = (y 1).val; omega

/-- Window 7's block at every point is its whole array. -/
theorem whole2_7 (c : Dev nD) (t : Fin cfg2.N) :
    (iblk2 V c 7 t : S256x256.Idx → EReal) = V c main_v42 := funext fun y => by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  show V c main_v42 (((cfg2.win 7).blk t).view.emb y) = V c main_v42 y
  refine congrArg (V c main_v42) (funext fun a => Fin.ext ?_)
  match a with
  | ⟨0, _⟩ => show win2_7.index t (0 : Fin 2) * 256 + 1 * (y 0).val = (y 0).val; omega
  | ⟨1, _⟩ => show win2_7.index t (1 : Fin 2) * 256 + 1 * (y 1).val = (y 1).val; omega

/-- Window 8's block at every point is its whole array. -/
theorem whole2_8 (c : Dev nD) (t : Fin cfg2.N) :
    (iblk2 V c 8 t : S256x256.Idx → EReal) = V c main_v44 := funext fun y => by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  show V c main_v44 (((cfg2.win 8).blk t).view.emb y) = V c main_v44 y
  refine congrArg (V c main_v44) (funext fun a => Fin.ext ?_)
  match a with
  | ⟨0, _⟩ => show win2_8.index t (0 : Fin 2) * 256 + 1 * (y 0).val = (y 0).val; omega
  | ⟨1, _⟩ => show win2_8.index t (1 : Fin 2) * 256 + 1 * (y 1).val = (y 1).val; omega

/-- Window 9's block at every point is its whole array. -/
theorem whole2_9 (c : Dev nD) (t : Fin cfg2.N) :
    (iblk2 V c 9 t : S256x256.Idx → EReal) = V c main_v46 := funext fun y => by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  show V c main_v46 (((cfg2.win 9).blk t).view.emb y) = V c main_v46 y
  refine congrArg (V c main_v46) (funext fun a => Fin.ext ?_)
  match a with
  | ⟨0, _⟩ => show win2_9.index t (0 : Fin 2) * 256 + 1 * (y 0).val = (y 0).val; omega
  | ⟨1, _⟩ => show win2_9.index t (1 : Fin 2) * 256 + 1 * (y 1).val = (y 1).val; omega

/-- Window 10's block at every point is its whole array. -/
theorem whole2_10 (c : Dev nD) (t : Fin cfg2.N) :
    (iblk2 V c 10 t : S1x256.Idx → EReal) = V c main_v47 := funext fun y => by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  show V c main_v47 (((cfg2.win 10).blk t).view.emb y) = V c main_v47 y
  refine congrArg (V c main_v47) (funext fun a => Fin.ext ?_)
  match a with
  | ⟨0, _⟩ => show win2_10.index t (0 : Fin 2) * 1 + 1 * (y 0).val = (y 0).val; omega
  | ⟨1, _⟩ => show win2_10.index t (1 : Fin 2) * 256 + 1 * (y 1).val = (y 1).val; omega

/-- Window 11's block at every point is its whole array. -/
theorem whole2_11 (c : Dev nD) (t : Fin cfg2.N) :
    (iblk2 V c 11 t : S1x256.Idx → EReal) = V c main_v48 := funext fun y => by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  show V c main_v48 (((cfg2.win 11).blk t).view.emb y) = V c main_v48 y
  refine congrArg (V c main_v48) (funext fun a => Fin.ext ?_)
  match a with
  | ⟨0, _⟩ => show win2_11.index t (0 : Fin 2) * 1 + 1 * (y 0).val = (y 0).val; omega
  | ⟨1, _⟩ => show win2_11.index t (1 : Fin 2) * 256 + 1 * (y 1).val = (y 1).val; omega

/-- Window 12's block at every point is its whole array. -/
theorem whole2_12 (c : Dev nD) (t : Fin cfg2.N) :
    (iblk2 V c 12 t : S1x256.Idx → EReal) = V c main_v49 := funext fun y => by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  show V c main_v49 (((cfg2.win 12).blk t).view.emb y) = V c main_v49 y
  refine congrArg (V c main_v49) (funext fun a => Fin.ext ?_)
  match a with
  | ⟨0, _⟩ => show win2_12.index t (0 : Fin 2) * 1 + 1 * (y 0).val = (y 0).val; omega
  | ⟨1, _⟩ => show win2_12.index t (1 : Fin 2) * 256 + 1 * (y 1).val = (y 1).val; omega

/-- Entry (p, q) of output window 13's block at point t is entry (2000 t + p, q) of its array. -/
theorem emb2_13 (t : Fin cfg2.N) (p : Fin 2000) (q : Fin 256) :
    ((cfg2.win 13).blk t).view.emb (ix2 p q) = ix2 (row2 t p) q := funext fun a => Fin.ext (by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  match a with
  | ⟨0, _⟩ => show win2_13.index t (0 : Fin 2) * 2000 + 1 * p.val = t.val * 2000 + p.val; omega
  | ⟨1, _⟩ => show win2_13.index t (1 : Fin 2) * 256 + 1 * q.val = q.val; omega)

/-- An index is in block t of window 13 exactly when its row is in band t. -/
theorem mem_blk2_13 (t : Fin cfg2.N) (i : S160000x256.Idx) :
    i ∈ ((cfg2.win 13).blk t).view.set ↔ ∀ a : Fin 2,
      win2_13.index t a * S2000x256.size a ≤ (i a).val
        ∧ (i a).val < win2_13.index t a * S2000x256.size a + S2000x256.size a := by
  show i ∈ ((View.whole main_v50_0).slice (win2_13.rect t)).set ↔ _
  rw [View.set_slice_whole, Rect.mem_set_unit]
  exact Iff.rfl

/-- Every index of window 13's array is in the block of the band its row lies in. -/
theorem cover2_13 (i : S160000x256.Idx) :
    ∃ t : Fin cfg2.N, (cfg2.win 13).flush t = true ∧ i ∈ ((cfg2.win 13).blk t).view.set := by
  have hi0 : (i 0).val < 160000 := (i 0).isLt
  have hi1 : (i 1).val < 256 := (i 1).isLt
  let t : Fin cfg2.N := ⟨(i 0).val / 2000, by rw [show cfg2.N = 80 from N_2]; omega⟩
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  have ht : t.val = (i 0).val / 2000 := rfl
  refine ⟨t, flush2_13 t, ?_⟩
  rw [mem_blk2_13]
  intro a
  match a with
  | ⟨0, _⟩ =>
    show win2_13.index t (0 : Fin 2) * 2000 ≤ (i 0).val ∧ (i 0).val < win2_13.index t (0 : Fin 2) * 2000 + 2000
    omega
  | ⟨1, _⟩ =>
    show win2_13.index t (1 : Fin 2) * 256 ≤ (i 1).val ∧ (i 1).val < win2_13.index t (1 : Fin 2) * 256 + 256
    omega

/-- Entry (p, q) of output window 14's block at point t is entry (2000 t + p, q) of its array. -/
theorem emb2_14 (t : Fin cfg2.N) (p : Fin 2000) (q : Fin 256) :
    ((cfg2.win 14).blk t).view.emb (ix2 p q) = ix2 (row2 t p) q := funext fun a => Fin.ext (by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  match a with
  | ⟨0, _⟩ => show win2_14.index t (0 : Fin 2) * 2000 + 1 * p.val = t.val * 2000 + p.val; omega
  | ⟨1, _⟩ => show win2_14.index t (1 : Fin 2) * 256 + 1 * q.val = q.val; omega)

/-- An index is in block t of window 14 exactly when its row is in band t. -/
theorem mem_blk2_14 (t : Fin cfg2.N) (i : S160000x256.Idx) :
    i ∈ ((cfg2.win 14).blk t).view.set ↔ ∀ a : Fin 2,
      win2_14.index t a * S2000x256.size a ≤ (i a).val
        ∧ (i a).val < win2_14.index t a * S2000x256.size a + S2000x256.size a := by
  show i ∈ ((View.whole main_v50_1).slice (win2_14.rect t)).set ↔ _
  rw [View.set_slice_whole, Rect.mem_set_unit]
  exact Iff.rfl

/-- Every index of window 14's array is in the block of the band its row lies in. -/
theorem cover2_14 (i : S160000x256.Idx) :
    ∃ t : Fin cfg2.N, (cfg2.win 14).flush t = true ∧ i ∈ ((cfg2.win 14).blk t).view.set := by
  have hi0 : (i 0).val < 160000 := (i 0).isLt
  have hi1 : (i 1).val < 256 := (i 1).isLt
  let t : Fin cfg2.N := ⟨(i 0).val / 2000, by rw [show cfg2.N = 80 from N_2]; omega⟩
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  have ht : t.val = (i 0).val / 2000 := rfl
  refine ⟨t, flush2_14 t, ?_⟩
  rw [mem_blk2_14]
  intro a
  match a with
  | ⟨0, _⟩ =>
    show win2_14.index t (0 : Fin 2) * 2000 ≤ (i 0).val ∧ (i 0).val < win2_14.index t (0 : Fin 2) * 2000 + 2000
    omega
  | ⟨1, _⟩ =>
    show win2_14.index t (1 : Fin 2) * 256 ≤ (i 1).val ∧ (i 1).val < win2_14.index t (1 : Fin 2) * 256 + 256
    omega

/-- Entry (p, q) of output window 15's block at point t is entry (2000 t + p, q) of its array. -/
theorem emb2_15 (t : Fin cfg2.N) (p : Fin 2000) (q : Fin 256) :
    ((cfg2.win 15).blk t).view.emb (ix2 p q) = ix2 (row2 t p) q := funext fun a => Fin.ext (by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  match a with
  | ⟨0, _⟩ => show win2_15.index t (0 : Fin 2) * 2000 + 1 * p.val = t.val * 2000 + p.val; omega
  | ⟨1, _⟩ => show win2_15.index t (1 : Fin 2) * 256 + 1 * q.val = q.val; omega)

/-- An index is in block t of window 15 exactly when its row is in band t. -/
theorem mem_blk2_15 (t : Fin cfg2.N) (i : S160000x256.Idx) :
    i ∈ ((cfg2.win 15).blk t).view.set ↔ ∀ a : Fin 2,
      win2_15.index t a * S2000x256.size a ≤ (i a).val
        ∧ (i a).val < win2_15.index t a * S2000x256.size a + S2000x256.size a := by
  show i ∈ ((View.whole main_v50_2).slice (win2_15.rect t)).set ↔ _
  rw [View.set_slice_whole, Rect.mem_set_unit]
  exact Iff.rfl

/-- Every index of window 15's array is in the block of the band its row lies in. -/
theorem cover2_15 (i : S160000x256.Idx) :
    ∃ t : Fin cfg2.N, (cfg2.win 15).flush t = true ∧ i ∈ ((cfg2.win 15).blk t).view.set := by
  have hi0 : (i 0).val < 160000 := (i 0).isLt
  have hi1 : (i 1).val < 256 := (i 1).isLt
  let t : Fin cfg2.N := ⟨(i 0).val / 2000, by rw [show cfg2.N = 80 from N_2]; omega⟩
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b⟩ := idx2 t
  have ht : t.val = (i 0).val / 2000 := rfl
  refine ⟨t, flush2_15 t, ?_⟩
  rw [mem_blk2_15]
  intro a
  match a with
  | ⟨0, _⟩ =>
    show win2_15.index t (0 : Fin 2) * 2000 ≤ (i 0).val ∧ (i 0).val < win2_15.index t (0 : Fin 2) * 2000 + 2000
    omega
  | ⟨1, _⟩ =>
    show win2_15.index t (1 : Fin 2) * 256 ≤ (i 1).val ∧ (i 1).val < win2_15.index t (1 : Fin 2) * 256 + 256
    omega

/-- The three arrays the layers compute from the arrays the region finds. -/
def layer2_13 (c : Dev nD) : S160000x256.Idx → EReal :=
  actRow (fun i => prod (V c main_v18 : S160000x256.Idx → EReal) (V c main_v34 : S256x256.Idx → EReal) i
      + prod (V c main_v11 : S160000x256.Idx → EReal) (V c main_v36 : S256x256.Idx → EReal) i)
    (V c main_v47 : S1x256.Idx → EReal) z0
def layer2_14 (c : Dev nD) : S160000x256.Idx → EReal :=
  actRow (fun i => prod (V c main_v25 : S160000x256.Idx → EReal) (V c main_v38 : S256x256.Idx → EReal) i
      + prod (V c main_v11 : S160000x256.Idx → EReal) (V c main_v40 : S256x256.Idx → EReal) i)
    (V c main_v48 : S1x256.Idx → EReal) z0
def layer2_15 (c : Dev nD) : S160000x256.Idx → EReal :=
  addRowRow (fun i => prod (V c main_v18 : S160000x256.Idx → EReal) (V c main_v42 : S256x256.Idx → EReal) i
      + prod (V c main_v11 : S160000x256.Idx → EReal) (V c main_v44 : S256x256.Idx → EReal) i
      + prod (V c main_v25 : S160000x256.Idx → EReal) (V c main_v46 : S256x256.Idx → EReal) i)
    (V c main_v49 : S1x256.Idx → EReal)

theorem flushed2_13 (c : Dev nD) (t : Fin cfg2.N) :
    (dat2 (F := Ideal) V c).flushed 13 t = ((cfg2.win 13).blk t).view.read (Elt Ideal) (layer2_13 V c) := by
  show (cfg2.win 13).cut (grid2.coords t) ((dat2 V c).after 13 t) = _
  rw [after2_13]
  unfold out2_13
  rw [View.canon_unit_zero hz]
  simp only [View.ld_unit_zero (S := S2000x256) hz, View.ld_unit_zero (S := S256x256) hz,
    View.ld_unit_zero (S := S1x256) hz]
  rw [pay2_13]
  funext j
  obtain ⟨p, q, rfl⟩ : ∃ (p : Fin 2000) (q : Fin 256), j = ix2 p q := ⟨j 0, j 1, eq_ix2 j⟩
  show actRow (fun i => prod (iblk2 V c 0 t) (iblk2 V c 3 t) i + prod (iblk2 V c 1 t) (iblk2 V c 4 t) i)
      (iblk2 V c 10 t) z0 (ix2 p q)
    = layer2_13 V c (((cfg2.win 13).blk t).view.emb (ix2 p q))
  rw [emb2_13 t p q, whole2_3 V c t, whole2_4 V c t, whole2_10 V c t]
  exact rowsOf_actRow (row2 t) (rowsOf_add (row2 t) (rowsOf_prod (row2 t) (rows2_0 V c t) _)
    (rowsOf_prod (row2 t) (rows2_1 V c t) _)) _ _ p q

theorem flushed2_14 (c : Dev nD) (t : Fin cfg2.N) :
    (dat2 (F := Ideal) V c).flushed 14 t = ((cfg2.win 14).blk t).view.read (Elt Ideal) (layer2_14 V c) := by
  show (cfg2.win 14).cut (grid2.coords t) ((dat2 V c).after 14 t) = _
  rw [after2_14]
  unfold out2_14
  rw [View.canon_unit_zero hz]
  simp only [View.ld_unit_zero (S := S2000x256) hz, View.ld_unit_zero (S := S256x256) hz,
    View.ld_unit_zero (S := S1x256) hz]
  rw [pay2_14]
  funext j
  obtain ⟨p, q, rfl⟩ : ∃ (p : Fin 2000) (q : Fin 256), j = ix2 p q := ⟨j 0, j 1, eq_ix2 j⟩
  show actRow (fun i => prod (iblk2 V c 2 t) (iblk2 V c 5 t) i + prod (iblk2 V c 1 t) (iblk2 V c 6 t) i)
      (iblk2 V c 11 t) z0 (ix2 p q)
    = layer2_14 V c (((cfg2.win 14).blk t).view.emb (ix2 p q))
  rw [emb2_14 t p q, whole2_5 V c t, whole2_6 V c t, whole2_11 V c t]
  exact rowsOf_actRow (row2 t) (rowsOf_add (row2 t) (rowsOf_prod (row2 t) (rows2_2 V c t) _)
    (rowsOf_prod (row2 t) (rows2_1 V c t) _)) _ _ p q

theorem flushed2_15 (c : Dev nD) (t : Fin cfg2.N) :
    (dat2 (F := Ideal) V c).flushed 15 t = ((cfg2.win 15).blk t).view.read (Elt Ideal) (layer2_15 V c) := by
  show (cfg2.win 15).cut (grid2.coords t) ((dat2 V c).after 15 t) = _
  rw [after2_15]
  unfold out2_15
  rw [View.canon_unit_zero hz]
  simp only [View.ld_unit_zero (S := S2000x256) hz, View.ld_unit_zero (S := S256x256) hz,
    View.ld_unit_zero (S := S1x256) hz]
  rw [pay2_15]
  funext j
  obtain ⟨p, q, rfl⟩ : ∃ (p : Fin 2000) (q : Fin 256), j = ix2 p q := ⟨j 0, j 1, eq_ix2 j⟩
  show addRowRow (fun i => prod (iblk2 V c 0 t) (iblk2 V c 7 t) i + prod (iblk2 V c 1 t) (iblk2 V c 8 t) i
      + prod (iblk2 V c 2 t) (iblk2 V c 9 t) i) (iblk2 V c 12 t) (ix2 p q)
    = layer2_15 V c (((cfg2.win 15).blk t).view.emb (ix2 p q))
  rw [emb2_15 t p q, whole2_7 V c t, whole2_8 V c t, whole2_9 V c t, whole2_12 V c t]
  exact rowsOf_addRowRow (row2 t) (rowsOf_add (row2 t) (rowsOf_add (row2 t)
    (rowsOf_prod (row2 t) (rows2_0 V c t) _) (rowsOf_prod (row2 t) (rows2_1 V c t) _))
    (rowsOf_prod (row2 t) (rows2_2 V c t) _)) _ p q

/-- THE THREE ARRAYS after the region. -/
theorem final2_13 (c : Dev nD) : (dat2 (F := Ideal) V c).arrAt 13 cfg2.N = layer2_13 V c :=
  (dat2 V c).arrAt_eq_of_cover 13 (layer2_13 V c) (fun t _ => flushed2_13 V c t) cover2_13
theorem final2_14 (c : Dev nD) : (dat2 (F := Ideal) V c).arrAt 14 cfg2.N = layer2_14 V c :=
  (dat2 V c).arrAt_eq_of_cover 14 (layer2_14 V c) (fun t _ => flushed2_14 V c t) cover2_14
theorem final2_15 (c : Dev nD) : (dat2 (F := Ideal) V c).arrAt 15 cfg2.N = layer2_15 V c :=
  (dat2 V c).arrAt_eq_of_cover 15 (layer2_15 V c) (fun t _ => flushed2_15 V c t) cover2_15

end Cert.KernelIdeal.Layers

end
-- ==== Proof.Region3.lean ====
/-
  THE NODE-SCALE LAYER, as the array it leaves.

  Ten grid points; point t reads rows 1000 t … 1000 t + 999 of three [10000, 256] arrays — the mean of the incoming
  messages (P), the node layer (Q), the mean of the outgoing messages (R) —, three whole [256, 256] weight matrices
  and the whole bias row, and writes back the same rows of  P · D₀ + Q · D₁ + R · D₂ + d.  Computed row by row, so the
  ten blocks are the row bands of one array of the whole inputs.
-/
import proofs.«130760_j38732015076057_2_alg».proof.Proof.Gen.KernelIdeal.Frame
import proofs.«130760_j38732015076057_2_alg».proof.Proof.LibRowBias
import proofs.«130760_j38732015076057_2_alg».proof.Proof.RegionBase
import Idealize.ShloMosaic.Lib.Pipeline.Value
import Idealize.ShloMosaic.Lib.ValueIdx

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen Cert.Layer Cert.RowLocal Cert.RowBias

/-- The stored value: p · d₀ + q · d₁ + r · d₂ + d (the narrowing of p and r to the matrix unit's input format is
    the identity on the extended reals). -/
theorem pay3 (v0 : Vec Ideal S1000x256 .f32) (v3 : Vec Ideal S1000x256 .bf16) (v5 : Vec Ideal S1000x256 .f32)
    (v8 v11 v15 : Vec Ideal S256x256 .bf16) (v19 : Vec Ideal S1x256 .f32) :
    k3_pay1 v0 v3 v5 v8 v11 v15 v19
      = addRowRow (fun i => prod v0 v8 i + prod v3 v11 i + prod v5 v15 i) v19 := by
  unfold k3_pay1
  show addf (F := Ideal) (addf (addf
      (matmul dot_S1000x256_S256x256_S1000x256_1_0_0_1_n_n none (truncf .bf16 (shapeCast S1000x256 v0 _) _)
        (shapeCast S256x256 v8 _) (constant S1000x256 .f32 0x00000000#32))
      (matmul dot_S1000x256_S256x256_S1000x256_1_0_0_1_n_n none (shapeCast S1000x256 v3 _) (shapeCast S256x256 v11 _)
        (constant S1000x256 .f32 0x00000000#32)))
      (matmul dot_S1000x256_S256x256_S1000x256_1_0_0_1_n_n none (truncf .bf16 (shapeCast S1000x256 v5 _) _)
        (shapeCast S256x256 v15 _) (constant S1000x256 .f32 0x00000000#32)))
      (broadcastTo S1000x256 (shapeCast S1x256 v19 _) _) = _
  simp only [shapeCast_self]
  rw [kernelProd_eq _ rfl rfl rfl rfl rfl rfl, kernelProd_eq _ rfl rfl rfl rfl rfl rfl,
    kernelProd_eq _ rfl rfl rfl rfl rfl rfl, kernelAddRowRow_eq]
  rfl

/-- Where each window's block sits at point t: band t of the row-tiled arrays, the whole of the others. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

theorem lt3 (t : Fin cfg3.N) : t.val < 10 := by
  exact lt_of_lt_of_eq t.isLt N_3

/-- Row p of block t is row 1000 t + p of the array. -/
def row3 (t : Fin cfg3.N) (p : Fin 1000) : Fin 10000 :=
  ⟨t.val * 1000 + p.val, by have := lt3 t; have := p.isLt; omega⟩

variable (V : (c : Dev nD) → (b : Ref sig .tc) → Buf (Elt Ideal) ((c : Thread nD τ).loc b))

/-- Window 0's block at point t holds rows 1000 t … of its array. -/
theorem rows3_0 (c : Dev nD) (t : Fin cfg3.N) :
    RowsOf (C := 256) (row3 t) (iblk3 V c 0 t) (V c main_v58 : S10000x256.Idx → EReal) := fun p q => by
  obtain ⟨e0a, e0b, e1a, e1b, e2a, e2b, e3a, e3b, e4a, e4b, e5a, e5b, e6a, e6b, e7a, e7b⟩ := idx3 t
  show V c main_v58 (((cfg3.win 0).blk t).view.emb (ix2 p q)) = V c main_v58 (ix2 (row3 t p) q)
  refine congrArg (V c main_v58) (funext fun a => Fin.ext ?_)
  match a with
  | ⟨0, _⟩ => show win3_0.index t (0 : Fin 2) * 1000 + 1 * p.val = t.val * 1000 + p.val; omega
  | ⟨1, _⟩ => show win3_0.index t (1 : Fin 2) * 256 + 1 * q.val = q.val; omega

/-- Window 1's block at point t holds rows 1000 t … of its array. -/
theorem rows3_1 (c : Dev nD) (t : Fin cfg3.N) :
    RowsOf (C := 256) (row3 t) (iblk3 V c 1 t) (V c main_v9 : S10000x256.Idx → EReal) := fun p q => by
  obtain ⟨e0a, e0b, e1a, e1b, e2a, e2b, e3a, e3b, e4a, e4b, e5a, e5b, e6a, e6b, e7a, e7b⟩ := idx3 t
  show V c main_v9 (((cfg3.win 1).blk t).view.emb (ix2 p q)) = V c main_v9 (ix2 (row3 t p) q)
  refine congrArg (V c main_v9) (funext fun a => Fin.ext ?_)
  match a with
  | ⟨0, _⟩ => show win3_1.index t (0 : Fin 2) * 1000 + 1 * p.val = t.val * 1000 + p.val; omega
  | ⟨1, _⟩ => show win3_1.index t (1 : Fin 2) * 256 + 1 * q.val = q.val; omega

/-- Window 2's block at point t holds rows 1000 t … of its array. -/
theorem rows3_2 (c : Dev nD) (t : Fin cfg3.N) :
    RowsOf (C := 256) (row3 t) (iblk3 V c 2 t) (V c main_v66 : S10000x256.Idx → EReal) := fun p q => by
  obtain ⟨e0a, e0b, e1a, e1b, e2a, e2b, e3a, e3b, e4a, e4b, e5a, e5b, e6a, e6b, e7a, e7b⟩ := idx3 t
  show V c main_v66 (((cfg3.win 2).blk t).view.emb (ix2 p q)) = V c main_v66 (ix2 (row3 t p) q)
  refine congrArg (V c main_v66) (funext fun a => Fin.ext ?_)
  match a with
  | ⟨0, _⟩ => show win3_2.index t (0 : Fin 2) * 1000 + 1 * p.val = t.val * 1000 + p.val; omega
  | ⟨1, _⟩ => show win3_2.index t (1 : Fin 2) * 256 + 1 * q.val = q.val; omega

/-- Window 3's block at every point is its whole array. -/
theorem whole3_3 (c : Dev nD) (t : Fin cfg3.N) :
    (iblk3 V c 3 t : S256x256.Idx → EReal) = V c main_v68 := funext fun y => by
  obtain ⟨e0a, e0b, e1a, e1b, e2a, e2b, e3a, e3b, e4a, e4b, e5a, e5b, e6a, e6b, e7a, e7b⟩ := idx3 t
  show V c main_v68 (((cfg3.win 3).blk t).view.emb y) = V c main_v68 y
  refine congrArg (V c main_v68) (funext fun a => Fin.ext ?_)
  match a with
  | ⟨0, _⟩ => show win3_3.index t (0 : Fin 2) * 256 + 1 * (y 0).val = (y 0).val; omega
  | ⟨1, _⟩ => show win3_3.index t (1 : Fin 2) * 256 + 1 * (y 1).val = (y 1).val; omega

/-- Window 4's block at every point is its whole array. -/
theorem whole3_4 (c : Dev nD) (t : Fin cfg3.N) :
    (iblk3 V c 4 t : S256x256.Idx → EReal) = V c main_v70 := funext fun y => by
  obtain ⟨e0a, e0b, e1a, e1b, e2a, e2b, e3a, e3b, e4a, e4b, e5a, e5b, e6a, e6b, e7a, e7b⟩ := idx3 t
  show V c main_v70 (((cfg3.win 4).blk t).view.emb y) = V c main_v70 y
  refine congrArg (V c main_v70) (funext fun a => Fin.ext ?_)
  match a with
  | ⟨0, _⟩ => show win3_4.index t (0 : Fin 2) * 256 + 1 * (y 0).val = (y 0).val; omega
  | ⟨1, _⟩ => show win3_4.index t (1 : Fin 2) * 256 + 1 * (y 1).val = (y 1).val; omega

/-- Window 5's block at every point is its whole array. -/
theorem whole3_5 (c : Dev nD) (t : Fin cfg3.N) :
    (iblk3 V c 5 t : S256x256.Idx → EReal) = V c main_v72 := funext fun y => by
  obtain ⟨e0a, e0b, e1a, e1b, e2a, e2b, e3a, e3b, e4a, e4b, e5a, e5b, e6a, e6b, e7a, e7b⟩ := idx3 t
  show V c main_v72 (((cfg3.win 5).blk t).view.emb y) = V c main_v72 y
  refine congrArg (V c main_v72) (funext fun a => Fin.ext ?_)
  match a with
  | ⟨0, _⟩ => show win3_5.index t (0 : Fin 2) * 256 + 1 * (y 0).val = (y 0).val; omega
  | ⟨1, _⟩ => show win3_5.index t (1 : Fin 2) * 256 + 1 * (y 1).val = (y 1).val; omega

/-- Window 6's block at every point is its whole array. -/
theorem whole3_6 (c : Dev nD) (t : Fin cfg3.N) :
    (iblk3 V c 6 t : S1x256.Idx → EReal) = V c main_v73 := funext fun y => by
  obtain ⟨e0a, e0b, e1a, e1b, e2a, e2b, e3a, e3b, e4a, e4b, e5a, e5b, e6a, e6b, e7a, e7b⟩ := idx3 t
  show V c main_v73 (((cfg3.win 6).blk t).view.emb y) = V c main_v73 y
  refine congrArg (V c main_v73) (funext fun a => Fin.ext ?_)
  match a with
  | ⟨0, _⟩ => show win3_6.index t (0 : Fin 2) * 1 + 1 * (y 0).val = (y 0).val; omega
  | ⟨1, _⟩ => show win3_6.index t (1 : Fin 2) * 256 + 1 * (y 1).val = (y 1).val; omega

/-- Entry (p, q) of output window 7's block at point t is entry (1000 t + p, q) of its array. -/
theorem emb3_7 (t : Fin cfg3.N) (p : Fin 1000) (q : Fin 256) :
    ((cfg3.win 7).blk t).view.emb (ix2 p q) = ix2 (row3 t p) q := funext fun a => Fin.ext (by
  obtain ⟨e0a, e0b, e1a, e1b, e2a, e2b, e3a, e3b, e4a, e4b, e5a, e5b, e6a, e6b, e7a, e7b⟩ := idx3 t
  match a with
  | ⟨0, _⟩ => show win3_7.index t (0 : Fin 2) * 1000 + 1 * p.val = t.val * 1000 + p.val; omega
  | ⟨1, _⟩ => show win3_7.index t (1 : Fin 2) * 256 + 1 * q.val = q.val; omega)

/-- An index is in block t of window 7 exactly when its row is in band t. -/
theorem mem_blk3_7 (t : Fin cfg3.N) (i : S10000x256.Idx) :
    i ∈ ((cfg3.win 7).blk t).view.set ↔ ∀ a : Fin 2,
      win3_7.index t a * S1000x256.size a ≤ (i a).val
        ∧ (i a).val < win3_7.index t a * S1000x256.size a + S1000x256.size a := by
  show i ∈ ((View.whole main_v74).slice (win3_7.rect t)).set ↔ _
  rw [View.set_slice_whole, Rect.mem_set_unit]
  exact Iff.rfl

/-- Every index of window 7's array is in the block of the band its row lies in. -/
theorem cover3_7 (i : S10000x256.Idx) :
    ∃ t : Fin cfg3.N, (cfg3.win 7).flush t = true ∧ i ∈ ((cfg3.win 7).blk t).view.set := by
  have hi0 : (i 0).val < 10000 := (i 0).isLt
  have hi1 : (i 1).val < 256 := (i 1).isLt
  let t : Fin cfg3.N := ⟨(i 0).val / 1000, by rw [show cfg3.N = 10 from N_3]; omega⟩
  obtain ⟨e0a, e0b, e1a, e1b, e2a, e2b, e3a, e3b, e4a, e4b, e5a, e5b, e6a, e6b, e7a, e7b⟩ := idx3 t
  have ht : t.val = (i 0).val / 1000 := rfl
  refine ⟨t, flush3_7 t, ?_⟩
  rw [mem_blk3_7]
  intro a
  match a with
  | ⟨0, _⟩ =>
    show win3_7.index t (0 : Fin 2) * 1000 ≤ (i 0).val ∧ (i 0).val < win3_7.index t (0 : Fin 2) * 1000 + 1000
    omega
  | ⟨1, _⟩ =>
    show win3_7.index t (1 : Fin 2) * 256 ≤ (i 1).val ∧ (i 1).val < win3_7.index t (1 : Fin 2) * 256 + 256
    omega

/-- The array the layer computes from the arrays the region finds. -/
def layer3 (c : Dev nD) : S10000x256.Idx → EReal :=
  addRowRow (fun i => prod (V c main_v58 : S10000x256.Idx → EReal) (V c main_v68 : S256x256.Idx → EReal) i
      + prod (V c main_v9 : S10000x256.Idx → EReal) (V c main_v70 : S256x256.Idx → EReal) i
      + prod (V c main_v66 : S10000x256.Idx → EReal) (V c main_v72 : S256x256.Idx → EReal) i)
    (V c main_v73 : S1x256.Idx → EReal)

theorem flushed3 (c : Dev nD) (t : Fin cfg3.N) :
    (dat3 (F := Ideal) V c).flushed 7 t = ((cfg3.win 7).blk t).view.read (Elt Ideal) (layer3 V c) := by
  show (cfg3.win 7).cut (grid3.coords t) ((dat3 V c).after 7 t) = _
  rw [after3_7]
  unfold out3_7
  rw [View.canon_unit_zero hz]
  simp only [View.ld_unit_zero (S := S1000x256) hz, View.ld_unit_zero (S := S256x256) hz,
    View.ld_unit_zero (S := S1x256) hz]
  rw [pay3]
  funext j
  obtain ⟨p, q, rfl⟩ : ∃ (p : Fin 1000) (q : Fin 256), j = ix2 p q := ⟨j 0, j 1, eq_ix2 j⟩
  show addRowRow (fun i => prod (iblk3 V c 0 t) (iblk3 V c 3 t) i + prod (iblk3 V c 1 t) (iblk3 V c 4 t) i
      + prod (iblk3 V c 2 t) (iblk3 V c 5 t) i) (iblk3 V c 6 t) (ix2 p q)
    = layer3 V c (((cfg3.win 7).blk t).view.emb (ix2 p q))
  rw [emb3_7 t p q, whole3_3 V c t, whole3_4 V c t, whole3_5 V c t, whole3_6 V c t]
  exact rowsOf_addRowRow (row3 t) (rowsOf_add (row3 t) (rowsOf_add (row3 t)
    (rowsOf_prod (row3 t) (rows3_0 V c t) _) (rowsOf_prod (row3 t) (rows3_1 V c t) _))
    (rowsOf_prod (row3 t) (rows3_2 V c t) _)) _ p q

/-- THE ARRAY after the region. -/
theorem final3 (c : Dev nD) : (dat3 (F := Ideal) V c).arrAt 7 cfg3.N = layer3 V c :=
  (dat3 V c).arrAt_eq_of_cover 7 (layer3 V c) (fun t _ => flushed3 V c t) cover3_7

end Cert.KernelIdeal.Layers

end
-- ==== Proof.KernelKeep.lean ====
/-
  BUFFERS THAT A SEGMENT LEAVES ALONE. A host stretch changes only the buffers its operations write; a region changes
  only its own arrays. So the contents of a buffer at a later segment boundary are its contents at the boundary right
  after the segment that produced it.
-/
import proofs.«130760_j38732015076057_2_alg».proof.Proof.Gen.KernelIdeal.Frame

set_option maxRecDepth 16384

noncomputable section

namespace Cert.KernelIdeal.Layers

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- A buffer that the first host stretch does not write keeps its contents through it. -/
theorem keepH0 (b : Ref sig .tc)
    (hb : b ∉ ([main_v0, main_v1, main_v2, main_v3, main_v4, main_v5, main_v6, main_v7, main_v8] : List (Ref sig .tc))) :
    W1 m ρ c (Proc.devRef .tc b) = W0 m ρ c (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun h => hb (by rw [h]; simp))

/-- A buffer that the second host stretch does not write keeps its contents through it. -/
theorem keepH1 (b : Ref sig .tc)
    (hb : b ∉ ([main_v10] : List (Ref sig .tc))) :
    W3 m ρ c (Proc.devRef .tc b) = W2 m ρ c (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun h => hb (by rw [h]; simp))

/-- A buffer that the third host stretch does not write keeps its contents through it. -/
theorem keepH2 (b : Ref sig .tc)
    (hb : b ∉ ([main_c, main_v12, main_v13, main_c_0, main_v14, main_v15, main_v16, main_v17, main_v18, main_c_1, main_v19, main_v20, main_c_2, main_v21, main_v22, main_v23, main_v24, main_v25, main_cst, main_v26, main_cst_3, main_v27, main_v28, main_v29, main_cst_4, main_v30, main_v31, main_v32, main_v33, main_v34, main_v35, main_v36, main_v37, main_v38, main_v39, main_v40, main_v41, main_v42, main_v43, main_v44, main_v45, main_v46, main_v47, main_v48, main_v49] : List (Ref sig .tc))) :
    W5 m ρ c (Proc.devRef .tc b) = W4 m ρ c (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun h => hb (by rw [h]; simp))

/-- A buffer that the fourth host stretch does not write keeps its contents through it. -/
theorem keepH3 (b : Ref sig .tc)
    (hb : b ∉ ([main_cst_5, main_v51, main_v52, main_v53, main_cst_6, main_v54, main_v55, main_v56, main_v57, main_v58, main_cst_7, main_v59, main_v60, main_v61, main_cst_8, main_v62, main_v63, main_v64, main_v65, main_v66, main_v67, main_v68, main_v69, main_v70, main_v71, main_v72, main_v73] : List (Ref sig .tc))) :
    W7 m ρ c (Proc.devRef .tc b) = W6 m ρ c (Proc.devRef .tc b) := by
  refine StableHlo.after_of_forall_not_mem (b := Proc.devRef .tc b) _ _ (List.forall_iff_forall_mem.mp ?_)
  simp only [hostOps3, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun h => hb (by rw [h]; simp))

end Cert.KernelIdeal.Layers

end
-- ==== Proof.KernelGlue.lean ====
/-
  THE IRREGULAR STEPS OF THE NETWORK, which both programs leave to the host: the two node lists of the edges, the
  gather of a node array's rows at a list, the degree of each node in a list, and the mean over a node's edges (the
  edge rows added into their nodes, divided by max(degree, 1)). Each is spelled here once, with the host operations the
  program prints, so that the rest of the proof can carry it as one opaque function.
-/
import proofs.«130760_j38732015076057_2_alg».proof.Proof.Gen.KernelIdeal
import Idealize.ShloMosaic.PureOps.Ideal

noncomputable section

namespace Cert.KernelIdeal.Layers

open Idealize.ShloMosaic Cert.KernelIdeal Cert.KernelIdeal.Facts₀ Cert.KernelIdeal.Facts

/-- The edges' source nodes: row 0 of the index array. -/
def srcOf (a2 : IVec S2x160000 32) : IVec S160000 32 :=
  shapeCast S160000 (extractStridedSlice S1x160000 ![0, 0] a2 slices_S2x160000_S1x160000_0_0) shapeCasts_S1x160000_S160000

/-- The edges' target nodes: row 1 of the index array. -/
def dstOf (a2 : IVec S2x160000 32) : IVec S160000 32 :=
  shapeCast S160000 (extractStridedSlice S1x160000 ![1, 0] a2 slices_S2x160000_S1x160000_1_0) shapeCasts_S1x160000_S160000

/-- A node list as a column of start indices, a negative entry moved up by the number of nodes. -/
def wrapOf (s : IVec S160000 32) : IVec S160000x1 32 :=
  broadcastInDim S160000x1 ![0] bcast_S160000_S160000x1_0
    (select (cmpi .slt s (broadcastInDim S160000 ![] bcast_S_S160000 (constantI S_ 32 0#32)))
      (addi s (broadcastInDim S160000 ![] bcast_S_S160000 (constantI S_ 32 10000#32))) s)

/-- The rows of a node array at the nodes of a list, one row per edge. -/
def rowsAt (P : S10000x256.Idx → EReal) (s : IVec S160000 32) : S160000x256.Idx → EReal :=
  Host.gather gather_S10000x256_S160000x1_S160000x256_1_0_n_n_0_1_1256 P (wrapOf s)

/-- How many edges name each node in a list: ones added into zeros. -/
def degreeOf (s : IVec S160000 32) : FVec Ideal S10000 .f32 :=
  Host.scatterAdd scatter_S10000_S160000x1_S160000_n_0_0_1
    (broadcastInDim S10000 ![] bcast_S_S10000 (constant S_ .f32 0x00000000#32))
    (broadcastInDim S160000x1 ![0] bcast_S160000_S160000x1_0 s)
    (broadcastInDim S160000 ![] bcast_S_S160000 (constant S_ .f32 0x3F800000#32))

/-- The edge rows added into the nodes of a list, each node's sum divided by max(its degree, 1). -/
def meanAt (M : S160000x256.Idx → EReal) (s : IVec S160000 32) : S10000x256.Idx → EReal :=
  Host.divf (φ := .f32)
    (Host.scatterAdd scatter_S10000x256_S160000x1_S160000x256_1_0_0_1
      (broadcastInDim S10000x256 ![] bcast_S_S10000x256 (constant S_ .f32 0x00000000#32))
      (broadcastInDim S160000x1 ![0] bcast_S160000_S160000x1_0 s) M)
    (broadcastInDim S10000x256 ![0, 1] bcast_S10000x1_S10000x256_0_1
      (broadcastInDim S10000x1 ![0] bcast_S10000_S10000x1_0
        (maximumf (degreeOf s) (broadcastInDim S10000 ![] bcast_S_S10000 (constant S_ .f32 0x3F800000#32)))))

end Cert.KernelIdeal.Layers

end
-- ==== Proof.LibSplitDot.lean ====
/-
  A PRODUCT WHOSE CONTRACTED AXIS IS SEVERAL BLOCKS LAID SIDE BY SIDE, on the extended reals, generic in the extents.

  If the columns of C : [A, Kt] are the columns of X1 : [A, K1] followed by those of X2 : [A, K2] (Kt = K1 + K2), then
  row by row  C · W = X1 · W[0 : K1] + X2 · W[K1 : Kt] : the sum over the contracted index splits at K1. The same with
  three blocks. Only the associativity of a finite sum is used, so no entry has to be finite.

  * `sum_split2`, `sum_split3`   — a sum over Fin Kt cut into two (three) consecutive ranges;
  * `side2`, `side3`             — blocks side by side along axis 1; `rowsFrom` — K consecutive rows of a matrix;
  * `prod_side2`, `prod_side3`   — the product law;
  * `concat2_eq`, `concat3_eq`   — the host's concatenate along axis 1 of two (three) arrays IS `side2` (`side3`);
  * `slice_eq`                    — a unit-stride slice of whole rows IS `rowsFrom`.

  Nothing here depends on a program.
-/
import proofs.«130760_j38732015076057_2_alg».proof.Proof.LibDenseLayer
import Idealize.ShloMosaic.Lib.ValueIdx
import Idealize.ShloMosaic.Lib.Pipeline.Value
import Idealize.ShloMosaic.PureOps.Ideal.Laws

noncomputable section

open scoped BigOperators

namespace Cert.SplitDot

open Idealize.ShloMosaic Idealize.ShloMosaic.ValueIdx Cert.Layer

/-! ## A finite sum cut into consecutive ranges -/

theorem sum_split2 {K1 K2 Kt : Nat} (h : Kt = K1 + K2) (f : Fin Kt → EReal) :
    ∑ k : Fin Kt, f k
      = (∑ k : Fin K1, f ⟨k.val, by have := k.isLt; omega⟩) + ∑ k : Fin K2, f ⟨K1 + k.val, by have := k.isLt; omega⟩ := by
  subst h
  rw [Fin.sum_univ_add]
  rfl

theorem sum_split3 {K1 K2 K3 Kt : Nat} (h : Kt = K1 + K2 + K3) (f : Fin Kt → EReal) :
    ∑ k : Fin Kt, f k
      = (∑ k : Fin K1, f ⟨k.val, by have := k.isLt; omega⟩) + (∑ k : Fin K2, f ⟨K1 + k.val, by have := k.isLt; omega⟩)
        + ∑ k : Fin K3, f ⟨K1 + K2 + k.val, by have := k.isLt; omega⟩ := by
  subst h
  rw [Fin.sum_univ_add, Fin.sum_univ_add]
  rfl

/-! ## Blocks side by side, and consecutive rows -/

variable {A B : Nat}

/-- X1 : [A, K1] and X2 : [A, K2] side by side: column k is X1's for k < K1, X2's column k − K1 after that. -/
def side2 {K1 K2 Kt : Nat} (h : Kt = K1 + K2) (X1 : (⟨2, ![A, K1]⟩ : Shape).Idx → EReal)
    (X2 : (⟨2, ![A, K2]⟩ : Shape).Idx → EReal) : (⟨2, ![A, Kt]⟩ : Shape).Idx → EReal :=
  fun i => if hk : (i 1).val < K1 then X1 (ix2 (i 0) ⟨(i 1).val, hk⟩)
    else X2 (ix2 (i 0) ⟨(i 1).val - K1, by have := idx2_lt1 i; omega⟩)

/-- Three blocks side by side. -/
def side3 {K1 K2 K3 Kt : Nat} (h : Kt = K1 + K2 + K3) (X1 : (⟨2, ![A, K1]⟩ : Shape).Idx → EReal)
    (X2 : (⟨2, ![A, K2]⟩ : Shape).Idx → EReal) (X3 : (⟨2, ![A, K3]⟩ : Shape).Idx → EReal) :
    (⟨2, ![A, Kt]⟩ : Shape).Idx → EReal :=
  fun i => if hk : (i 1).val < K1 then X1 (ix2 (i 0) ⟨(i 1).val, hk⟩)
    else if hk2 : (i 1).val < K1 + K2 then X2 (ix2 (i 0) ⟨(i 1).val - K1, by omega⟩)
    else X3 (ix2 (i 0) ⟨(i 1).val - (K1 + K2), by have := idx2_lt1 i; omega⟩)

/-- Rows K0, …, K0 + K − 1 of W : [Kt, B]. -/
def rowsFrom {Kt : Nat} (K0 K : Nat) (h : K0 + K ≤ Kt) (W : (⟨2, ![Kt, B]⟩ : Shape).Idx → EReal) :
    (⟨2, ![K, B]⟩ : Shape).Idx → EReal :=
  fun i => W (ix2 (⟨K0 + (i 0).val, by have := idx2_lt0 i; omega⟩ : Fin Kt) (i 1))

/-! ## The product law -/

theorem prod_side2 {K1 K2 Kt : Nat} (h : Kt = K1 + K2) (X1 : (⟨2, ![A, K1]⟩ : Shape).Idx → EReal)
    (X2 : (⟨2, ![A, K2]⟩ : Shape).Idx → EReal) (W : (⟨2, ![Kt, B]⟩ : Shape).Idx → EReal) :
    prod (side2 h X1 X2) W
      = fun i => prod X1 (rowsFrom 0 K1 (by omega) W) i + prod X2 (rowsFrom K1 K2 (by omega) W) i :=
  funext fun i => by
    show ∑ k : Fin Kt, side2 h X1 X2 (ix2 (i 0) k) * W (ix2 k (i 1)) = _
    rw [sum_split2 h]
    refine congrArg₂ (· + ·) (Finset.sum_congr rfl fun k _ => ?_) (Finset.sum_congr rfl fun k _ => ?_)
    · show side2 h X1 X2 (ix2 (i 0) ⟨k.val, _⟩) * W (ix2 ⟨k.val, _⟩ (i 1))
        = X1 (ix2 (i 0) k) * W (ix2 ⟨0 + k.val, _⟩ (i 1))
      have e : side2 h X1 X2 (ix2 (i 0) (⟨k.val, by have := k.isLt; omega⟩ : Fin Kt)) = X1 (ix2 (i 0) k) :=
        dif_pos k.isLt
      rw [e]
      exact congrArg (fun j : Fin Kt => X1 (ix2 (i 0) k) * W (ix2 j (i 1))) (Fin.ext (Nat.zero_add _).symm)
    · show side2 h X1 X2 (ix2 (i 0) ⟨K1 + k.val, _⟩) * W (ix2 ⟨K1 + k.val, _⟩ (i 1))
        = X2 (ix2 (i 0) k) * W (ix2 ⟨K1 + k.val, _⟩ (i 1))
      have e : side2 h X1 X2 (ix2 (i 0) (⟨K1 + k.val, by have := k.isLt; omega⟩ : Fin Kt)) = X2 (ix2 (i 0) k) := by
        refine (dif_neg (show ¬ K1 + k.val < K1 by omega)).trans ?_
        congr 2
        exact Fin.ext (by show K1 + k.val - K1 = k.val; omega)
      rw [e]

theorem prod_side3 {K1 K2 K3 Kt : Nat} (h : Kt = K1 + K2 + K3) (X1 : (⟨2, ![A, K1]⟩ : Shape).Idx → EReal)
    (X2 : (⟨2, ![A, K2]⟩ : Shape).Idx → EReal) (X3 : (⟨2, ![A, K3]⟩ : Shape).Idx → EReal)
    (W : (⟨2, ![Kt, B]⟩ : Shape).Idx → EReal) :
    prod (side3 h X1 X2 X3) W
      = fun i => prod X1 (rowsFrom 0 K1 (by omega) W) i + prod X2 (rowsFrom K1 K2 (by omega) W) i
          + prod X3 (rowsFrom (K1 + K2) K3 (by omega) W) i :=
  funext fun i => by
    show ∑ k : Fin Kt, side3 h X1 X2 X3 (ix2 (i 0) k) * W (ix2 k (i 1)) = _
    rw [sum_split3 h]
    refine congrArg₂ (· + ·) (congrArg₂ (· + ·) (Finset.sum_congr rfl fun k _ => ?_)
      (Finset.sum_congr rfl fun k _ => ?_)) (Finset.sum_congr rfl fun k _ => ?_)
    · show side3 h X1 X2 X3 (ix2 (i 0) ⟨k.val, _⟩) * W (ix2 ⟨k.val, _⟩ (i 1))
        = X1 (ix2 (i 0) k) * W (ix2 ⟨0 + k.val, _⟩ (i 1))
      have e : side3 h X1 X2 X3 (ix2 (i 0) (⟨k.val, by have := k.isLt; omega⟩ : Fin Kt)) = X1 (ix2 (i 0) k) :=
        dif_pos k.isLt
      rw [e]
      exact congrArg (fun j : Fin Kt => X1 (ix2 (i 0) k) * W (ix2 j (i 1))) (Fin.ext (Nat.zero_add _).symm)
    · show side3 h X1 X2 X3 (ix2 (i 0) ⟨K1 + k.val, _⟩) * W (ix2 ⟨K1 + k.val, _⟩ (i 1))
        = X2 (ix2 (i 0) k) * W (ix2 ⟨K1 + k.val, _⟩ (i 1))
      have e : side3 h X1 X2 X3 (ix2 (i 0) (⟨K1 + k.val, by have := k.isLt; omega⟩ : Fin Kt)) = X2 (ix2 (i 0) k) := by
        refine (dif_neg (show ¬ K1 + k.val < K1 by omega)).trans
          ((dif_pos (show K1 + k.val < K1 + K2 by have := k.isLt; omega)).trans ?_)
        congr 2
        exact Fin.ext (by show K1 + k.val - K1 = k.val; omega)
      rw [e]
    · show side3 h X1 X2 X3 (ix2 (i 0) ⟨K1 + K2 + k.val, _⟩) * W (ix2 ⟨K1 + K2 + k.val, _⟩ (i 1))
        = X3 (ix2 (i 0) k) * W (ix2 ⟨K1 + K2 + k.val, _⟩ (i 1))
      have e : side3 h X1 X2 X3 (ix2 (i 0) (⟨K1 + K2 + k.val, by have := k.isLt; omega⟩ : Fin Kt)) = X3 (ix2 (i 0) k) := by
        refine (dif_neg (show ¬ K1 + K2 + k.val < K1 by omega)).trans
          ((dif_neg (show ¬ K1 + K2 + k.val < K1 + K2 by omega)).trans ?_)
        congr 2
        exact Fin.ext (by show K1 + K2 + k.val - (K1 + K2) = k.val; omega)
      rw [e]

/-! ## The host's spellings -/

/-- The host's concatenate of two arrays along axis 1 is the two side by side. -/
theorem concat2_eq {K1 K2 Kt : Nat} (h : Kt = K1 + K2) (X1 : (⟨2, ![A, K1]⟩ : Shape).Idx → EReal)
    (X2 : (⟨2, ![A, K2]⟩ : Shape).Idx → EReal)
    (hc : Shape.Concatenates [(⟨2, ![A, K1]⟩ : Shape), ⟨2, ![A, K2]⟩] ⟨2, ![A, Kt]⟩ 1) :
    concatenate ⟨2, ![A, Kt]⟩ 1 [⟨⟨2, ![A, K1]⟩, X1⟩, ⟨⟨2, ![A, K2]⟩, X2⟩] hc = side2 h X1 X2 :=
  funext fun i => by
    obtain ⟨a, k, rfl⟩ : ∃ (a : Fin A) (k : Fin Kt), i = ix2 a k := ⟨i 0, i 1, eq_ix2 i⟩
    by_cases hk : k.val < K1
    · refine (concatenate_pair_apply_left 1 X1 X2 hc (ix2 a k) rfl (ix2 a ⟨k.val, hk⟩) fun b => ?_).trans
        (show side2 h X1 X2 (ix2 a k) = X1 (ix2 a ⟨k.val, hk⟩) from dif_pos hk).symm
      match b with
      | ⟨0, _⟩ => rfl
      | ⟨1, _⟩ => rfl
    · refine (concatenate_pair_apply_right 1 X1 X2 hc (ix2 a k) rfl rfl
        (ix2 a ⟨k.val - K1, by have := k.isLt; omega⟩) (fun b hb => ?_) ?_).trans
        (show side2 h X1 X2 (ix2 a k) = X2 (ix2 a ⟨k.val - K1, by have := k.isLt; omega⟩) from dif_neg hk).symm
      · match b with
        | ⟨0, _⟩ => rfl
        | ⟨1, _⟩ => exact absurd rfl hb
      · show k.val - K1 + K1 = k.val
        omega

/-- The host's concatenate of three arrays along axis 1 is the three side by side. -/
theorem concat3_eq {K1 K2 K3 Kt : Nat} (h : Kt = K1 + K2 + K3) (X1 : (⟨2, ![A, K1]⟩ : Shape).Idx → EReal)
    (X2 : (⟨2, ![A, K2]⟩ : Shape).Idx → EReal) (X3 : (⟨2, ![A, K3]⟩ : Shape).Idx → EReal)
    (hc : Shape.Concatenates [(⟨2, ![A, K1]⟩ : Shape), ⟨2, ![A, K2]⟩, ⟨2, ![A, K3]⟩] ⟨2, ![A, Kt]⟩ 1) :
    concatenate ⟨2, ![A, Kt]⟩ 1 [⟨⟨2, ![A, K1]⟩, X1⟩, ⟨⟨2, ![A, K2]⟩, X2⟩, ⟨⟨2, ![A, K3]⟩, X3⟩] hc = side3 h X1 X2 X3 :=
  funext fun i => by
    obtain ⟨a, k, rfl⟩ : ∃ (a : Fin A) (k : Fin Kt), i = ix2 a k := ⟨i 0, i 1, eq_ix2 i⟩
    by_cases hk : k.val < K1
    · refine (concatenate_apply_piece 1 [⟨⟨2, ![A, K1]⟩, X1⟩, ⟨⟨2, ![A, K2]⟩, X2⟩, ⟨⟨2, ![A, K3]⟩, X3⟩] hc (ix2 a k) 0 (Nat.zero_lt_succ _) ⟨2, ![A, K1]⟩ X1 rfl rfl 0 rfl
        (ix2 a ⟨k.val, hk⟩) (fun b hb => ?_) ?_).trans
        (show side3 h X1 X2 X3 (ix2 a k) = X1 (ix2 a ⟨k.val, hk⟩) from dif_pos hk).symm
      · match b with
        | ⟨0, _⟩ => rfl
        | ⟨1, _⟩ => exact absurd rfl hb
      · show 0 + k.val = k.val
        omega
    · by_cases hk2 : k.val < K1 + K2
      · refine (concatenate_apply_piece 1 [⟨⟨2, ![A, K1]⟩, X1⟩, ⟨⟨2, ![A, K2]⟩, X2⟩, ⟨⟨2, ![A, K3]⟩, X3⟩] hc (ix2 a k) 1 (Nat.succ_lt_succ (Nat.zero_lt_succ _)) ⟨2, ![A, K2]⟩ X2 rfl rfl K1 ?_
          (ix2 a ⟨k.val - K1, by omega⟩) (fun b hb => ?_) ?_).trans
          (show side3 h X1 X2 X3 (ix2 a k) = X2 (ix2 a ⟨k.val - K1, by omega⟩) from
            (dif_neg hk).trans (dif_pos hk2)).symm
        · simp
        · match b with
          | ⟨0, _⟩ => rfl
          | ⟨1, _⟩ => exact absurd rfl hb
        · show K1 + (k.val - K1) = k.val
          omega
      · refine (concatenate_apply_piece 1 [⟨⟨2, ![A, K1]⟩, X1⟩, ⟨⟨2, ![A, K2]⟩, X2⟩, ⟨⟨2, ![A, K3]⟩, X3⟩] hc (ix2 a k) 2 (Nat.succ_lt_succ (Nat.succ_lt_succ (Nat.zero_lt_succ _))) ⟨2, ![A, K3]⟩ X3 rfl rfl (K1 + K2) ?_
          (ix2 a ⟨k.val - (K1 + K2), by have := k.isLt; omega⟩) (fun b hb => ?_) ?_).trans
          (show side3 h X1 X2 X3 (ix2 a k) = X3 (ix2 a ⟨k.val - (K1 + K2), by have := k.isLt; omega⟩) from
            (dif_neg hk).trans (dif_neg hk2)).symm
        · simp
        · match b with
          | ⟨0, _⟩ => rfl
          | ⟨1, _⟩ => exact absurd rfl hb
        · show K1 + K2 + (k.val - (K1 + K2)) = k.val
          omega

/-- A unit-stride slice of K whole rows starting at row K0 is those rows. -/
theorem slice_eq {Kt : Nat} (K0 K : Nat) (h : K0 + K ≤ Kt) (W : (⟨2, ![Kt, B]⟩ : Shape).Idx → EReal)
    (hs : (⟨2, ![Kt, B]⟩ : Shape).Slices ![K0, 0] ⟨2, ![K, B]⟩) :
    extractStridedSlice ⟨2, ![K, B]⟩ ![K0, 0] W hs = rowsFrom K0 K h W :=
  funext fun i => by
    obtain ⟨k, b, rfl⟩ : ∃ (k : Fin K) (b : Fin B), i = ix2 k b := ⟨i 0, i 1, eq_ix2 i⟩
    refine extractStridedSlice_apply ![K0, 0] W hs (ix2 k b) (ix2 (⟨K0 + k.val, by have := k.isLt; omega⟩ : Fin Kt) b)
      fun a => ?_
    match a with
    | ⟨0, _⟩ => rfl
    | ⟨1, _⟩ => exact (Nat.zero_add _).symm

end Cert.SplitDot

end
-- ==== Proof.Spec.lean ====
/-
  THE LAYERS OF THE NETWORK AS FUNCTIONS OF WHOLE ARRAYS, on the extended reals.

  With  relu(u) = max(u, 0),  the network is built from three kinds of layer, all with 256 output features:

  * `dense X W b`      = relu(X · W + b)                        — one dense layer;
  * `msg g e W b`      = relu(g · W[0:256] + e · W[256:512] + b) — a message: the layer of the rows (g | e) of width 512,
                                                                  its product cut at the seam;
  * `tri p q r W o`    = p · W[0:256] + q · W[256:512] + r · W[512:768] + o — the layer of the rows (p | q | r) of
                                                                  width 768, no relu.

  The reference multiplies the concatenated rows by the whole weight matrix; the kernel multiplies each part by its
  slice of the weights and adds the products. They agree because a sum over the 512 (768) contracted indices is the
  sum of its two (three) consecutive ranges — associativity of a finite sum, which holds on the extended reals
  without any finiteness hypothesis. Proved here: the host's spelling of each layer (dot_general of a concatenate,
  two keepdims broadcasts of the bias, add, maximum with a broadcast zero) IS the layer.

  Nothing here depends on a program.
-/
import proofs.«130760_j38732015076057_2_alg».proof.Proof.LibSplitDot
import proofs.«130760_j38732015076057_2_alg».proof.Proof.LibRowBias
import Idealize.ShloMosaic.Lib.ValueIdx
import Idealize.ShloMosaic.Lib.Pipeline.Value
import Idealize.ShloMosaic.PureOps.Ideal.Laws

noncomputable section

open scoped BigOperators

namespace Cert.Spec

open Idealize.ShloMosaic Idealize.ShloMosaic.ValueIdx Cert.Layer Cert.RowLocal Cert.RowBias Cert.SplitDot

/-- The value of the float zero word. -/
abbrev z0 : EReal := Scalar.ofBits (F := Ideal) .f32 0x00000000#32

variable {A K : Nat}

/-- relu(X · W + b). -/
def dense (X : (⟨2, ![A, K]⟩ : Shape).Idx → EReal) (W : (⟨2, ![K, 256]⟩ : Shape).Idx → EReal)
    (b : (⟨1, ![256]⟩ : Shape).Idx → EReal) : (⟨2, ![A, 256]⟩ : Shape).Idx → EReal :=
  act (prod X W) b z0

/-- g · W[0:256] + e · W[256:512], entry by entry. -/
def pair (g e : (⟨2, ![A, 256]⟩ : Shape).Idx → EReal) (W : (⟨2, ![512, 256]⟩ : Shape).Idx → EReal) :
    (⟨2, ![A, 256]⟩ : Shape).Idx → EReal :=
  fun i => prod g (rowsFrom 0 256 (by decide) W) i + prod e (rowsFrom 256 256 (by decide) W) i

/-- p · W[0:256] + q · W[256:512] + r · W[512:768], entry by entry. -/
def triple (p q r : (⟨2, ![A, 256]⟩ : Shape).Idx → EReal) (W : (⟨2, ![768, 256]⟩ : Shape).Idx → EReal) :
    (⟨2, ![A, 256]⟩ : Shape).Idx → EReal :=
  fun i => prod p (rowsFrom 0 256 (by decide) W) i + prod q (rowsFrom 256 256 (by decide) W) i
    + prod r (rowsFrom (256 + 256) 256 (by decide) W) i

/-- relu(g · W[0:256] + e · W[256:512] + b). -/
def msg (g e : (⟨2, ![A, 256]⟩ : Shape).Idx → EReal) (W : (⟨2, ![512, 256]⟩ : Shape).Idx → EReal)
    (b : (⟨1, ![256]⟩ : Shape).Idx → EReal) : (⟨2, ![A, 256]⟩ : Shape).Idx → EReal :=
  act (pair g e W) b z0

/-- p · W[0:256] + q · W[256:512] + r · W[512:768] + o. -/
def tri (p q r : (⟨2, ![A, 256]⟩ : Shape).Idx → EReal) (W : (⟨2, ![768, 256]⟩ : Shape).Idx → EReal)
    (o : (⟨1, ![256]⟩ : Shape).Idx → EReal) : (⟨2, ![A, 256]⟩ : Shape).Idx → EReal :=
  addRow (triple p q r W) o

/-! ## The host's spellings -/

/-- The host's dense layer with relu. -/
theorem hostDense_eq (d : DotDims ⟨2, ![A, K]⟩ ⟨2, ![K, 256]⟩ ⟨2, ![A, 256]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ .f32) (W : FVec Ideal ⟨2, ![K, 256]⟩ .f32) (b : FVec Ideal ⟨1, ![256]⟩ .f32)
    (b1 : (⟨1, ![256]⟩ : Shape).BroadcastsInDim ⟨2, ![1, 256]⟩ ![1])
    (b2 : (⟨2, ![1, 256]⟩ : Shape).BroadcastsInDim ⟨2, ![A, 256]⟩ ![0, 1])
    (b0 : (⟨0, ![]⟩ : Shape).BroadcastsInDim ⟨2, ![A, 256]⟩ ![]) :
    maximumf (addf (Host.dotGeneral d none X W)
        (broadcastInDim ⟨2, ![A, 256]⟩ ![0, 1] b2 (broadcastInDim ⟨2, ![1, 256]⟩ ![1] b1 b)))
        (broadcastInDim ⟨2, ![A, 256]⟩ ![] b0 (constant ⟨0, ![]⟩ .f32 0x00000000#32))
      = dense X W b := by
  rw [dotGeneral_eq_prod d h1 h2 h3 h4 h5 h6, hostAct_eq]
  rfl

/-- The host's message layer: the two parts concatenated, one product with the whole weight matrix. -/
theorem hostMsg_eq (d : DotDims ⟨2, ![A, 512]⟩ ⟨2, ![512, 256]⟩ ⟨2, ![A, 256]⟩)
    (h1 : d.lhsContracting = [1]) (h2 : d.rhsContracting = [0]) (h3 : d.lhsNonContracting = [0])
    (h4 : d.rhsNonContracting = [1]) (h5 : d.lhsBatch = []) (h6 : d.rhsBatch = [])
    (g e : FVec Ideal ⟨2, ![A, 256]⟩ .f32) (W : FVec Ideal ⟨2, ![512, 256]⟩ .f32) (b : FVec Ideal ⟨1, ![256]⟩ .f32)
    (hc : Shape.Concatenates [(⟨2, ![A, 256]⟩ : Shape), ⟨2, ![A, 256]⟩] ⟨2, ![A, 512]⟩ 1)
    (b1 : (⟨1, ![256]⟩ : Shape).BroadcastsInDim ⟨2, ![1, 256]⟩ ![1])
    (b2 : (⟨2, ![1, 256]⟩ : Shape).BroadcastsInDim ⟨2, ![A, 256]⟩ ![0, 1])
    (b0 : (⟨0, ![]⟩ : Shape).BroadcastsInDim ⟨2, ![A, 256]⟩ ![]) :
    maximumf (addf (Host.dotGeneral d none
          (concatenate ⟨2, ![A, 512]⟩ 1 [⟨⟨2, ![A, 256]⟩, g⟩, ⟨⟨2, ![A, 256]⟩, e⟩] hc) W)
        (broadcastInDim ⟨2, ![A, 256]⟩ ![0, 1] b2 (broadcastInDim ⟨2, ![1, 256]⟩ ![1] b1 b)))
        (broadcastInDim ⟨2, ![A, 256]⟩ ![] b0 (constant ⟨0, ![]⟩ .f32 0x00000000#32))
      = msg g e W b := by
  rw [dotGeneral_eq_prod d h1 h2 h3 h4 h5 h6, hostAct_eq, concat2_eq (by decide : 512 = 256 + 256),
    prod_side2]
  rfl

/-- The host's three-part layer: the three parts concatenated, one product with the whole weight matrix, the bias. -/
theorem hostTri_eq (d : DotDims ⟨2, ![A, 768]⟩ ⟨2, ![768, 256]⟩ ⟨2, ![A, 256]⟩)
    (h1 : d.lhsContracting = [1]) (h2 : d.rhsContracting = [0]) (h3 : d.lhsNonContracting = [0])
    (h4 : d.rhsNonContracting = [1]) (h5 : d.lhsBatch = []) (h6 : d.rhsBatch = [])
    (p q r : FVec Ideal ⟨2, ![A, 256]⟩ .f32) (W : FVec Ideal ⟨2, ![768, 256]⟩ .f32) (o : FVec Ideal ⟨1, ![256]⟩ .f32)
    (hc : Shape.Concatenates [(⟨2, ![A, 256]⟩ : Shape), ⟨2, ![A, 256]⟩, ⟨2, ![A, 256]⟩] ⟨2, ![A, 768]⟩ 1)
    (b1 : (⟨1, ![256]⟩ : Shape).BroadcastsInDim ⟨2, ![1, 256]⟩ ![1])
    (b2 : (⟨2, ![1, 256]⟩ : Shape).BroadcastsInDim ⟨2, ![A, 256]⟩ ![0, 1]) :
    addf (Host.dotGeneral d none
          (concatenate ⟨2, ![A, 768]⟩ 1 [⟨⟨2, ![A, 256]⟩, p⟩, ⟨⟨2, ![A, 256]⟩, q⟩, ⟨⟨2, ![A, 256]⟩, r⟩] hc) W)
        (broadcastInDim ⟨2, ![A, 256]⟩ ![0, 1] b2 (broadcastInDim ⟨2, ![1, 256]⟩ ![1] b1 o))
      = tri p q r W o := by
  rw [dotGeneral_eq_prod d h1 h2 h3 h4 h5 h6, hostAddRow_eq, concat3_eq (by decide : 768 = 256 + 256 + 256),
    prod_side3]
  rfl

end Cert.Spec

end
-- ==== Proof.KernelValue.lean ====
/-
  THE KERNEL PROGRAM'S TWO RESULTS, as the layers of the specification.

  Followed segment by segment from the launch memory: the first host stretch narrows the inputs and splits the index
  array; the first two regions leave the node layer Q and the edge layer E; the third stretch gathers Q at the
  edges' sources and targets, counts the degrees and slices the weights; the third region leaves the two messages and
  the edge result; the fourth stretch takes the two means; the fourth region leaves the node result. Every narrowing
  to the matrix unit's input format is the identity on the extended reals, a bias reshaped to one row is the bias,
  and a slice of whole rows of a weight matrix is those rows — so each region's array is its layer of the
  specification at the launch arrays.
-/
import proofs.«130760_j38732015076057_2_alg».proof.Proof.Gen.KernelIdeal.Frame
import proofs.«130760_j38732015076057_2_alg».proof.Proof.Region0
import proofs.«130760_j38732015076057_2_alg».proof.Proof.Region1
import proofs.«130760_j38732015076057_2_alg».proof.Proof.Region2
import proofs.«130760_j38732015076057_2_alg».proof.Proof.Region3
import proofs.«130760_j38732015076057_2_alg».proof.Proof.KernelKeep
import proofs.«130760_j38732015076057_2_alg».proof.Proof.KernelGlue
import proofs.«130760_j38732015076057_2_alg».proof.Proof.Spec
import Idealize.ShloMosaic.Lib.StableHlo.Run

set_option maxRecDepth 16384

noncomputable section

namespace Cert.KernelIdeal.Layers

open Idealize.ShloMosaic Idealize.ShloMosaic.TcCoe Idealize.ShloMosaic.ValueIdx Idealize.SL.Sem
open Idealize.ShloMosaic.StableHlo
open Cert.KernelIdeal Cert.KernelIdeal.Gen Cert.Layer Cert.SplitDot Cert.Spec

variable (m : (ℓ : Loc nD τ sig) → Buf (Elt Ideal) ℓ) (ρ : Dev nD → PrngReg) (c : Dev nD)

/-! ## The launch arrays -/

abbrev X0 : S10000x256.Idx → EReal := m ((c.tc : Thread nD τ).loc main_arg0)
abbrev X1 : S160000x128.Idx → EReal := m ((c.tc : Thread nD τ).loc main_arg1)
abbrev X2 : IVec S2x160000 32 := m ((c.tc : Thread nD τ).loc main_arg2)
abbrev X3 : S256x256.Idx → EReal := m ((c.tc : Thread nD τ).loc main_arg3)
abbrev X4 : S256.Idx → EReal := m ((c.tc : Thread nD τ).loc main_arg4)
abbrev X5 : S128x256.Idx → EReal := m ((c.tc : Thread nD τ).loc main_arg5)
abbrev X6 : S256.Idx → EReal := m ((c.tc : Thread nD τ).loc main_arg6)
abbrev X7 : S512x256.Idx → EReal := m ((c.tc : Thread nD τ).loc main_arg7)
abbrev X8 : S256.Idx → EReal := m ((c.tc : Thread nD τ).loc main_arg8)
abbrev X9 : S512x256.Idx → EReal := m ((c.tc : Thread nD τ).loc main_arg9)
abbrev X10 : S256.Idx → EReal := m ((c.tc : Thread nD τ).loc main_arg10)
abbrev X11 : S768x256.Idx → EReal := m ((c.tc : Thread nD τ).loc main_arg11)
abbrev X12 : S256.Idx → EReal := m ((c.tc : Thread nD τ).loc main_arg12)
abbrev X13 : S768x256.Idx → EReal := m ((c.tc : Thread nD τ).loc main_arg13)
abbrev X14 : S256.Idx → EReal := m ((c.tc : Thread nD τ).loc main_arg14)

/-- The node layer and the edge layer at the launch arrays. -/
abbrev QN : S10000x256.Idx → EReal := dense (X0 m c) (X3 m c) (X4 m c)
abbrev QE : S160000x256.Idx → EReal := dense (X1 m c) (X5 m c) (X6 m c)

/-! ## Buffers untouched between two boundaries -/

/-- From the second region's exit back to the first stretch's end. -/
theorem back4_1 (b : Ref sig .tc) (h1 : ∀ w, Pipeline.arrRef spec1 w ≠ b) (h2 : b ∉ ([main_v10] : List (Ref sig .tc)))
    (h3 : ∀ w, Pipeline.arrRef spec0 w ≠ b) : W4 m ρ c (Proc.devRef .tc b) = W1 m ρ c (Proc.devRef .tc b) :=
  (W4_of_ne m ρ c b h1).trans ((keepH1 m ρ c b h2).trans (W2_of_ne m ρ c b h3))

/-- An argument array at the second region's exit is the launch array. -/
theorem back4_0 (b : Ref sig .tc) (h1 : ∀ w, Pipeline.arrRef spec1 w ≠ b) (h2 : b ∉ ([main_v10] : List (Ref sig .tc)))
    (h3 : ∀ w, Pipeline.arrRef spec0 w ≠ b)
    (h4 : b ∉ ([main_v0, main_v1, main_v2, main_v3, main_v4, main_v5, main_v6, main_v7, main_v8] : List (Ref sig .tc))) :
    W4 m ρ c (Proc.devRef .tc b) = W0 m ρ c (Proc.devRef .tc b) :=
  (back4_1 m ρ c b h1 h2 h3).trans (keepH0 m ρ c b h4)

/-- From the third region's exit back to the second region's exit. -/
theorem back6_4 (b : Ref sig .tc) (h1 : ∀ w, Pipeline.arrRef spec2 w ≠ b)
    (h2 : b ∉ ([main_c, main_v12, main_v13, main_c_0, main_v14, main_v15, main_v16, main_v17, main_v18, main_c_1, main_v19, main_v20, main_c_2, main_v21, main_v22, main_v23, main_v24, main_v25, main_cst, main_v26, main_cst_3, main_v27, main_v28, main_v29, main_cst_4, main_v30, main_v31, main_v32, main_v33, main_v34, main_v35, main_v36, main_v37, main_v38, main_v39, main_v40, main_v41, main_v42, main_v43, main_v44, main_v45, main_v46, main_v47, main_v48, main_v49] : List (Ref sig .tc))) :
    W6 m ρ c (Proc.devRef .tc b) = W4 m ρ c (Proc.devRef .tc b) :=
  (W6_of_ne m ρ c b h1).trans (keepH2 m ρ c b h2)

/-! ## After the first host stretch -/

theorem at1_v1 : (W1 m ρ c (Proc.devRef .tc main_v1) : IVec S160000 32) = srcOf (X2 m c) := by
  dsimp only [W1, hostOps0]; after_results; rfl
theorem at1_v3 : (W1 m ρ c (Proc.devRef .tc main_v3) : IVec S160000 32) = dstOf (X2 m c) := by
  dsimp only [W1, hostOps0]; after_results; rfl
theorem at1_v4 : (W1 m ρ c (Proc.devRef .tc main_v4) : S10000x256.Idx → EReal) = X0 m c := by
  dsimp only [W1, hostOps0]; after_results; rfl
theorem at1_v5 : (W1 m ρ c (Proc.devRef .tc main_v5) : S160000x128.Idx → EReal) = X1 m c := by
  dsimp only [W1, hostOps0]; after_results; rfl
theorem at1_v6 : (W1 m ρ c (Proc.devRef .tc main_v6) : S256x256.Idx → EReal) = X3 m c := by
  dsimp only [W1, hostOps0]; after_results; rfl
theorem at1_v7 : (W1 m ρ c (Proc.devRef .tc main_v7) : S128x256.Idx → EReal) = X5 m c := by
  dsimp only [W1, hostOps0]; after_results; rfl
theorem at1_v8 : (W1 m ρ c (Proc.devRef .tc main_v8) : S1x256.Idx → EReal)
    = shapeCast S1x256 (X4 m c) shapeCasts_S256_S1x256 := by
  dsimp only [W1, hostOps0]; after_results; rfl

/-! ## After the first region: the node layer -/

theorem at2_v9 : (W2 m ρ c (Proc.devRef .tc main_v9) : S10000x256.Idx → EReal) = QN m c := by
  refine (W2_arr m ρ c 3).trans ((final0 (V1 m ρ) c).trans ?_)
  unfold layer0
  show actRow (prod (W1 m ρ c (Proc.devRef .tc main_v4) : S10000x256.Idx → EReal) (W1 m ρ c (Proc.devRef .tc main_v6) : S256x256.Idx → EReal))
    (W1 m ρ c (Proc.devRef .tc main_v8) : S1x256.Idx → EReal) Layers.z0 = _
  rw [at1_v4, at1_v6, at1_v8, actRow_cast]
  rfl

/-! ## After the second host stretch and the second region: the edge layer -/

theorem at3_v5 : (W3 m ρ c (Proc.devRef .tc main_v5) : S160000x128.Idx → EReal) = X1 m c :=
  (keepH1 m ρ c main_v5 (by decide)).trans ((W2_of_ne m ρ c main_v5 (by decide)).trans (at1_v5 m ρ c))
theorem at3_v7 : (W3 m ρ c (Proc.devRef .tc main_v7) : S128x256.Idx → EReal) = X5 m c :=
  (keepH1 m ρ c main_v7 (by decide)).trans ((W2_of_ne m ρ c main_v7 (by decide)).trans (at1_v7 m ρ c))
theorem at2_arg6 : (W2 m ρ c (Proc.devRef .tc main_arg6) : S256.Idx → EReal) = X6 m c :=
  (W2_of_ne m ρ c main_arg6 (by decide)).trans (keepH0 m ρ c main_arg6 (by decide))
theorem at3_v10 : (W3 m ρ c (Proc.devRef .tc main_v10) : S1x256.Idx → EReal)
    = shapeCast S1x256 (X6 m c) shapeCasts_S256_S1x256 := by
  dsimp only [W3, hostOps1]; after_results
  rw [at2_arg6]; rfl

theorem at4_v11 : (W4 m ρ c (Proc.devRef .tc main_v11) : S160000x256.Idx → EReal) = QE m c := by
  refine (W4_arr m ρ c 3).trans ((final1 (V3 m ρ) c).trans ?_)
  unfold layer1
  show actRow (prod (W3 m ρ c (Proc.devRef .tc main_v5) : S160000x128.Idx → EReal) (W3 m ρ c (Proc.devRef .tc main_v7) : S128x256.Idx → EReal))
    (W3 m ρ c (Proc.devRef .tc main_v10) : S1x256.Idx → EReal) Layers.z0 = _
  rw [at3_v5, at3_v7, at3_v10, actRow_cast]
  rfl

theorem at4_v9 : (W4 m ρ c (Proc.devRef .tc main_v9) : S10000x256.Idx → EReal) = QN m c :=
  (W4_of_ne m ρ c main_v9 (by decide)).trans ((keepH1 m ρ c main_v9 (by decide)).trans (at2_v9 m ρ c))
theorem at4_v1 : (W4 m ρ c (Proc.devRef .tc main_v1) : IVec S160000 32) = srcOf (X2 m c) :=
  (back4_1 m ρ c main_v1 (by decide) (by decide) (by decide)).trans (at1_v1 m ρ c)
theorem at4_v3 : (W4 m ρ c (Proc.devRef .tc main_v3) : IVec S160000 32) = dstOf (X2 m c) :=
  (back4_1 m ρ c main_v3 (by decide) (by decide) (by decide)).trans (at1_v3 m ρ c)
theorem at4_arg7 : (W4 m ρ c (Proc.devRef .tc main_arg7) : S512x256.Idx → EReal) = X7 m c :=
  back4_0 m ρ c main_arg7 (by decide) (by decide) (by decide) (by decide)
theorem at4_arg8 : (W4 m ρ c (Proc.devRef .tc main_arg8) : S256.Idx → EReal) = X8 m c :=
  back4_0 m ρ c main_arg8 (by decide) (by decide) (by decide) (by decide)
theorem at4_arg9 : (W4 m ρ c (Proc.devRef .tc main_arg9) : S512x256.Idx → EReal) = X9 m c :=
  back4_0 m ρ c main_arg9 (by decide) (by decide) (by decide) (by decide)
theorem at4_arg10 : (W4 m ρ c (Proc.devRef .tc main_arg10) : S256.Idx → EReal) = X10 m c :=
  back4_0 m ρ c main_arg10 (by decide) (by decide) (by decide) (by decide)
theorem at4_arg11 : (W4 m ρ c (Proc.devRef .tc main_arg11) : S768x256.Idx → EReal) = X11 m c :=
  back4_0 m ρ c main_arg11 (by decide) (by decide) (by decide) (by decide)
theorem at4_arg12 : (W4 m ρ c (Proc.devRef .tc main_arg12) : S256.Idx → EReal) = X12 m c :=
  back4_0 m ρ c main_arg12 (by decide) (by decide) (by decide) (by decide)
theorem at4_arg13 : (W4 m ρ c (Proc.devRef .tc main_arg13) : S768x256.Idx → EReal) = X13 m c :=
  back4_0 m ρ c main_arg13 (by decide) (by decide) (by decide) (by decide)
theorem at4_arg14 : (W4 m ρ c (Proc.devRef .tc main_arg14) : S256.Idx → EReal) = X14 m c :=
  back4_0 m ρ c main_arg14 (by decide) (by decide) (by decide) (by decide)

/-! ## After the third host stretch -/

theorem at5_v18 : (W5 m ρ c (Proc.devRef .tc main_v18) : S160000x256.Idx → EReal) = rowsAt (QN m c) (srcOf (X2 m c)) := by
  dsimp only [W5, hostOps2]; after_results
  rw [at4_v9, at4_v1]; rfl
theorem at5_v25 : (W5 m ρ c (Proc.devRef .tc main_v25) : S160000x256.Idx → EReal) = rowsAt (QN m c) (dstOf (X2 m c)) := by
  dsimp only [W5, hostOps2]; after_results
  rw [at4_v9, at4_v3]; rfl
theorem at5_v11 : (W5 m ρ c (Proc.devRef .tc main_v11) : S160000x256.Idx → EReal) = QE m c :=
  (keepH2 m ρ c main_v11 (by decide)).trans (at4_v11 m ρ c)
theorem at5_v29 : (W5 m ρ c (Proc.devRef .tc main_v29) : S10000.Idx → EReal) = degreeOf (dstOf (X2 m c)) := by
  dsimp only [W5, hostOps2]; after_results
  rw [at4_v3]; rfl
theorem at5_v32 : (W5 m ρ c (Proc.devRef .tc main_v32) : S10000.Idx → EReal) = degreeOf (srcOf (X2 m c)) := by
  dsimp only [W5, hostOps2]; after_results
  rw [at4_v1]; rfl
theorem at5_v34 : (W5 m ρ c (Proc.devRef .tc main_v34) : S256x256.Idx → EReal) = rowsFrom 0 256 (by decide) (X7 m c) := by
  dsimp only [W5, hostOps2]; after_results
  rw [at4_arg7]; exact slice_eq 0 256 (by decide) (X7 m c) slices_S512x256_S256x256_0_0
theorem at5_v36 : (W5 m ρ c (Proc.devRef .tc main_v36) : S256x256.Idx → EReal) = rowsFrom 256 256 (by decide) (X7 m c) := by
  dsimp only [W5, hostOps2]; after_results
  rw [at4_arg7]; exact slice_eq 256 256 (by decide) (X7 m c) slices_S512x256_S256x256_256_0
theorem at5_v38 : (W5 m ρ c (Proc.devRef .tc main_v38) : S256x256.Idx → EReal) = rowsFrom 0 256 (by decide) (X9 m c) := by
  dsimp only [W5, hostOps2]; after_results
  rw [at4_arg9]; exact slice_eq 0 256 (by decide) (X9 m c) slices_S512x256_S256x256_0_0
theorem at5_v40 : (W5 m ρ c (Proc.devRef .tc main_v40) : S256x256.Idx → EReal) = rowsFrom 256 256 (by decide) (X9 m c) := by
  dsimp only [W5, hostOps2]; after_results
  rw [at4_arg9]; exact slice_eq 256 256 (by decide) (X9 m c) slices_S512x256_S256x256_256_0
theorem at5_v42 : (W5 m ρ c (Proc.devRef .tc main_v42) : S256x256.Idx → EReal) = rowsFrom 0 256 (by decide) (X13 m c) := by
  dsimp only [W5, hostOps2]; after_results
  rw [at4_arg13]; exact slice_eq 0 256 (by decide) (X13 m c) slices_S768x256_S256x256_0_0
theorem at5_v44 : (W5 m ρ c (Proc.devRef .tc main_v44) : S256x256.Idx → EReal) = rowsFrom 256 256 (by decide) (X13 m c) := by
  dsimp only [W5, hostOps2]; after_results
  rw [at4_arg13]; exact slice_eq 256 256 (by decide) (X13 m c) slices_S768x256_S256x256_256_0
theorem at5_v46 : (W5 m ρ c (Proc.devRef .tc main_v46) : S256x256.Idx → EReal) = rowsFrom (256 + 256) 256 (by decide) (X13 m c) := by
  dsimp only [W5, hostOps2]; after_results
  rw [at4_arg13]; exact slice_eq 512 256 (by decide) (X13 m c) slices_S768x256_S256x256_512_0
theorem at5_v47 : (W5 m ρ c (Proc.devRef .tc main_v47) : S1x256.Idx → EReal)
    = shapeCast S1x256 (X8 m c) shapeCasts_S256_S1x256 := by
  dsimp only [W5, hostOps2]; after_results
  rw [at4_arg8]; rfl
theorem at5_v48 : (W5 m ρ c (Proc.devRef .tc main_v48) : S1x256.Idx → EReal)
    = shapeCast S1x256 (X10 m c) shapeCasts_S256_S1x256 := by
  dsimp only [W5, hostOps2]; after_results
  rw [at4_arg10]; rfl
theorem at5_v49 : (W5 m ρ c (Proc.devRef .tc main_v49) : S1x256.Idx → EReal)
    = shapeCast S1x256 (X14 m c) shapeCasts_S256_S1x256 := by
  dsimp only [W5, hostOps2]; after_results
  rw [at4_arg14]; rfl

/-! ## After the third region: the two messages and the edge result -/

theorem at6_v50_0 : (W6 m ρ c (Proc.devRef .tc main_v50_0) : S160000x256.Idx → EReal)
    = msg (rowsAt (QN m c) (srcOf (X2 m c))) (QE m c) (X7 m c) (X8 m c) := by
  refine (W6_arr m ρ c 13).trans ((final2_13 (V5 m ρ) c).trans ?_)
  unfold layer2_13
  show actRow (fun i => prod (W5 m ρ c (Proc.devRef .tc main_v18) : S160000x256.Idx → EReal) (W5 m ρ c (Proc.devRef .tc main_v34) : S256x256.Idx → EReal) i
      + prod (W5 m ρ c (Proc.devRef .tc main_v11) : S160000x256.Idx → EReal) (W5 m ρ c (Proc.devRef .tc main_v36) : S256x256.Idx → EReal) i)
    (W5 m ρ c (Proc.devRef .tc main_v47) : S1x256.Idx → EReal) Layers.z0 = _
  rw [at5_v18, at5_v34, at5_v11, at5_v36, at5_v47, actRow_cast]
  rfl

theorem at6_v50_1 : (W6 m ρ c (Proc.devRef .tc main_v50_1) : S160000x256.Idx → EReal)
    = msg (rowsAt (QN m c) (dstOf (X2 m c))) (QE m c) (X9 m c) (X10 m c) := by
  refine (W6_arr m ρ c 14).trans ((final2_14 (V5 m ρ) c).trans ?_)
  unfold layer2_14
  show actRow (fun i => prod (W5 m ρ c (Proc.devRef .tc main_v25) : S160000x256.Idx → EReal) (W5 m ρ c (Proc.devRef .tc main_v38) : S256x256.Idx → EReal) i
      + prod (W5 m ρ c (Proc.devRef .tc main_v11) : S160000x256.Idx → EReal) (W5 m ρ c (Proc.devRef .tc main_v40) : S256x256.Idx → EReal) i)
    (W5 m ρ c (Proc.devRef .tc main_v48) : S1x256.Idx → EReal) Layers.z0 = _
  rw [at5_v25, at5_v38, at5_v11, at5_v40, at5_v48, actRow_cast]
  rfl

theorem at6_v50_2 : (W6 m ρ c (Proc.devRef .tc main_v50_2) : S160000x256.Idx → EReal)
    = tri (rowsAt (QN m c) (srcOf (X2 m c))) (QE m c) (rowsAt (QN m c) (dstOf (X2 m c))) (X13 m c) (X14 m c) := by
  refine (W6_arr m ρ c 15).trans ((final2_15 (V5 m ρ) c).trans ?_)
  unfold layer2_15
  show addRowRow (fun i => prod (W5 m ρ c (Proc.devRef .tc main_v18) : S160000x256.Idx → EReal) (W5 m ρ c (Proc.devRef .tc main_v42) : S256x256.Idx → EReal) i
      + prod (W5 m ρ c (Proc.devRef .tc main_v11) : S160000x256.Idx → EReal) (W5 m ρ c (Proc.devRef .tc main_v44) : S256x256.Idx → EReal) i
      + prod (W5 m ρ c (Proc.devRef .tc main_v25) : S160000x256.Idx → EReal) (W5 m ρ c (Proc.devRef .tc main_v46) : S256x256.Idx → EReal) i)
    (W5 m ρ c (Proc.devRef .tc main_v49) : S1x256.Idx → EReal) = _
  rw [at5_v18, at5_v42, at5_v11, at5_v44, at5_v25, at5_v46, at5_v49, addRowRow_cast]
  rfl

theorem at6_v1 : (W6 m ρ c (Proc.devRef .tc main_v1) : IVec S160000 32) = srcOf (X2 m c) :=
  (back6_4 m ρ c main_v1 (by decide) (by decide)).trans (at4_v1 m ρ c)
theorem at6_v3 : (W6 m ρ c (Proc.devRef .tc main_v3) : IVec S160000 32) = dstOf (X2 m c) :=
  (back6_4 m ρ c main_v3 (by decide) (by decide)).trans (at4_v3 m ρ c)
theorem at6_v9 : (W6 m ρ c (Proc.devRef .tc main_v9) : S10000x256.Idx → EReal) = QN m c :=
  (back6_4 m ρ c main_v9 (by decide) (by decide)).trans (at4_v9 m ρ c)
theorem at6_v29 : (W6 m ρ c (Proc.devRef .tc main_v29) : S10000.Idx → EReal) = degreeOf (dstOf (X2 m c)) :=
  (W6_of_ne m ρ c main_v29 (by decide)).trans (at5_v29 m ρ c)
theorem at6_v32 : (W6 m ρ c (Proc.devRef .tc main_v32) : S10000.Idx → EReal) = degreeOf (srcOf (X2 m c)) :=
  (W6_of_ne m ρ c main_v32 (by decide)).trans (at5_v32 m ρ c)
theorem at6_arg11 : (W6 m ρ c (Proc.devRef .tc main_arg11) : S768x256.Idx → EReal) = X11 m c :=
  (back6_4 m ρ c main_arg11 (by decide) (by decide)).trans (at4_arg11 m ρ c)
theorem at6_arg12 : (W6 m ρ c (Proc.devRef .tc main_arg12) : S256.Idx → EReal) = X12 m c :=
  (back6_4 m ρ c main_arg12 (by decide) (by decide)).trans (at4_arg12 m ρ c)

/-! ## After the fourth host stretch: the two means -/

/-- The mean of the messages arriving at each node. -/
abbrev MI : S10000x256.Idx → EReal :=
  meanAt (msg (rowsAt (QN m c) (srcOf (X2 m c))) (QE m c) (X7 m c) (X8 m c)) (dstOf (X2 m c))
/-- The mean of the messages leaving each node. -/
abbrev MO : S10000x256.Idx → EReal :=
  meanAt (msg (rowsAt (QN m c) (dstOf (X2 m c))) (QE m c) (X9 m c) (X10 m c)) (srcOf (X2 m c))

theorem at7_v58 : (W7 m ρ c (Proc.devRef .tc main_v58) : S10000x256.Idx → EReal) = MI m c := by
  dsimp only [W7, hostOps3]; after_results
  rw [at6_v3, at6_v50_0, at6_v29]; rfl
theorem at7_v66 : (W7 m ρ c (Proc.devRef .tc main_v66) : S10000x256.Idx → EReal) = MO m c := by
  dsimp only [W7, hostOps3]; after_results
  rw [at6_v1, at6_v50_1, at6_v32]; rfl
theorem at7_v9 : (W7 m ρ c (Proc.devRef .tc main_v9) : S10000x256.Idx → EReal) = QN m c :=
  (keepH3 m ρ c main_v9 (by decide)).trans (at6_v9 m ρ c)
theorem at7_v68 : (W7 m ρ c (Proc.devRef .tc main_v68) : S256x256.Idx → EReal) = rowsFrom 0 256 (by decide) (X11 m c) := by
  dsimp only [W7, hostOps3]; after_results
  rw [at6_arg11]; exact slice_eq 0 256 (by decide) (X11 m c) slices_S768x256_S256x256_0_0
theorem at7_v70 : (W7 m ρ c (Proc.devRef .tc main_v70) : S256x256.Idx → EReal) = rowsFrom 256 256 (by decide) (X11 m c) := by
  dsimp only [W7, hostOps3]; after_results
  rw [at6_arg11]; exact slice_eq 256 256 (by decide) (X11 m c) slices_S768x256_S256x256_256_0
theorem at7_v72 : (W7 m ρ c (Proc.devRef .tc main_v72) : S256x256.Idx → EReal) = rowsFrom (256 + 256) 256 (by decide) (X11 m c) := by
  dsimp only [W7, hostOps3]; after_results
  rw [at6_arg11]; exact slice_eq 512 256 (by decide) (X11 m c) slices_S768x256_S256x256_512_0
theorem at7_v73 : (W7 m ρ c (Proc.devRef .tc main_v73) : S1x256.Idx → EReal)
    = shapeCast S1x256 (X12 m c) shapeCasts_S256_S1x256 := by
  dsimp only [W7, hostOps3]; after_results
  rw [at6_arg12]; rfl

/-! ## After the fourth region: the two results -/

/-- THE NODE RESULT. -/
theorem node_result : (W8 m ρ c (Proc.devRef .tc main_v74) : S10000x256.Idx → EReal)
    = tri (MI m c) (QN m c) (MO m c) (X11 m c) (X12 m c) := by
  refine (W8_arr m ρ c 7).trans ((final3 (V7 m ρ) c).trans ?_)
  unfold layer3
  show addRowRow (fun i => prod (W7 m ρ c (Proc.devRef .tc main_v58) : S10000x256.Idx → EReal) (W7 m ρ c (Proc.devRef .tc main_v68) : S256x256.Idx → EReal) i
      + prod (W7 m ρ c (Proc.devRef .tc main_v9) : S10000x256.Idx → EReal) (W7 m ρ c (Proc.devRef .tc main_v70) : S256x256.Idx → EReal) i
      + prod (W7 m ρ c (Proc.devRef .tc main_v66) : S10000x256.Idx → EReal) (W7 m ρ c (Proc.devRef .tc main_v72) : S256x256.Idx → EReal) i)
    (W7 m ρ c (Proc.devRef .tc main_v73) : S1x256.Idx → EReal) = _
  rw [at7_v58, at7_v68, at7_v9, at7_v70, at7_v66, at7_v72, at7_v73, addRowRow_cast]
  rfl

/-- THE EDGE RESULT. -/
theorem edge_result : (W8 m ρ c (Proc.devRef .tc main_v50_2) : S160000x256.Idx → EReal)
    = tri (rowsAt (QN m c) (srcOf (X2 m c))) (QE m c) (rowsAt (QN m c) (dstOf (X2 m c))) (X13 m c) (X14 m c) :=
  (W8_of_ne m ρ c main_v50_2 (by decide)).trans ((keepH3 m ρ c main_v50_2 (by decide)).trans (at6_v50_2 m ρ c))

end Cert.KernelIdeal.Layers

end
-- ==== Proof.RefGlue.lean ====
/-
  THE IRREGULAR STEPS OF THE NETWORK, which both programs leave to the host: the two node lists of the edges, the
  gather of a node array's rows at a list, the degree of each node in a list, and the mean over a node's edges (the
  edge rows added into their nodes, divided by max(degree, 1)). Each is spelled here once, with the host operations the
  program prints, so that the rest of the proof can carry it as one opaque function.
-/
import proofs.«130760_j38732015076057_2_alg».proof.Proof.Gen.ReferenceIdeal
import Idealize.ShloMosaic.PureOps.Ideal

noncomputable section

namespace Cert.ReferenceIdeal.Layers

open Idealize.ShloMosaic Cert.ReferenceIdeal Cert.ReferenceIdeal.Facts₀ Cert.ReferenceIdeal.Facts

/-- The edges' source nodes: row 0 of the index array. -/
def srcOf (a2 : IVec S2x160000 32) : IVec S160000 32 :=
  shapeCast S160000 (extractStridedSlice S1x160000 ![0, 0] a2 slices_S2x160000_S1x160000_0_0) shapeCasts_S1x160000_S160000

/-- The edges' target nodes: row 1 of the index array. -/
def dstOf (a2 : IVec S2x160000 32) : IVec S160000 32 :=
  shapeCast S160000 (extractStridedSlice S1x160000 ![1, 0] a2 slices_S2x160000_S1x160000_1_0) shapeCasts_S1x160000_S160000

/-- A node list as a column of start indices, a negative entry moved up by the number of nodes. -/
def wrapOf (s : IVec S160000 32) : IVec S160000x1 32 :=
  broadcastInDim S160000x1 ![0] bcast_S160000_S160000x1_0
    (select (cmpi .slt s (broadcastInDim S160000 ![] bcast_S_S160000 (constantI S_ 32 0#32)))
      (addi s (broadcastInDim S160000 ![] bcast_S_S160000 (constantI S_ 32 10000#32))) s)

/-- The rows of a node array at the nodes of a list, one row per edge. -/
def rowsAt (P : S10000x256.Idx → EReal) (s : IVec S160000 32) : S160000x256.Idx → EReal :=
  Host.gather gather_S10000x256_S160000x1_S160000x256_1_0_n_n_0_1_1256 P (wrapOf s)

/-- How many edges name each node in a list: ones added into zeros. -/
def degreeOf (s : IVec S160000 32) : FVec Ideal S10000 .f32 :=
  Host.scatterAdd scatter_S10000_S160000x1_S160000_n_0_0_1
    (broadcastInDim S10000 ![] bcast_S_S10000 (constant S_ .f32 0x00000000#32))
    (broadcastInDim S160000x1 ![0] bcast_S160000_S160000x1_0 s)
    (broadcastInDim S160000 ![] bcast_S_S160000 (constant S_ .f32 0x3F800000#32))

/-- The edge rows added into the nodes of a list, each node's sum divided by max(its degree, 1). -/
def meanAt (M : S160000x256.Idx → EReal) (s : IVec S160000 32) : S10000x256.Idx → EReal :=
  Host.divf (φ := .f32)
    (Host.scatterAdd scatter_S10000x256_S160000x1_S160000x256_1_0_0_1
      (broadcastInDim S10000x256 ![] bcast_S_S10000x256 (constant S_ .f32 0x00000000#32))
      (broadcastInDim S160000x1 ![0] bcast_S160000_S160000x1_0 s) M)
    (broadcastInDim S10000x256 ![0, 1] bcast_S10000x1_S10000x256_0_1
      (broadcastInDim S10000x1 ![0] bcast_S10000_S10000x1_0
        (maximumf (degreeOf s) (broadcastInDim S10000 ![] bcast_S_S10000 (constant S_ .f32 0x3F800000#32)))))

end Cert.ReferenceIdeal.Layers

end
-- ==== Proof.RefValue.lean ====
/-
  WHAT THE REFERENCE COMPUTES, as the layers of the specification.

  The reference's two results are, operation by operation,

    node result = (meanIn(msg(S, E, Wp, bp)) | Q | meanOut(msg(T, E, Ws, bs))) · Wn + bn,
    edge result = (S | E | T) · We + be,

  with Q = relu(x · W + b) the node layer, E the edge layer, S and T the rows of Q at the edges' sources and targets,
  msg(g, e, W, b) = relu((g | e) · W + b), and the two means over a node's incoming / outgoing edges. Each dense
  operation is rewritten to its layer of the specification (a product with concatenated rows being the sum of the
  products with the parts); the gathers and means stay the host's own operations.
-/
import proofs.«130760_j38732015076057_2_alg».proof.Proof.Gen.ReferenceIdeal.Read
import proofs.«130760_j38732015076057_2_alg».proof.Proof.Spec
import proofs.«130760_j38732015076057_2_alg».proof.Proof.RefGlue

noncomputable section

namespace Cert.ReferenceIdeal.Layers

open Idealize.ShloMosaic Idealize.ShloMosaic.ValueIdx
open Cert.ReferenceIdeal Cert.ReferenceIdeal.Read Cert.Spec

variable (x0 : S10000x256.Idx → EReal) (x1 : S160000x128.Idx → EReal) (x2 : IVec S2x160000 32)
  (x3 : S256x256.Idx → EReal) (x4 : S256.Idx → EReal) (x5 : S128x256.Idx → EReal) (x6 : S256.Idx → EReal)
  (x7 : S512x256.Idx → EReal) (x8 : S256.Idx → EReal) (x9 : S512x256.Idx → EReal) (x10 : S256.Idx → EReal)
  (x11 : S768x256.Idx → EReal) (x12 : S256.Idx → EReal) (x13 : S768x256.Idx → EReal) (x14 : S256.Idx → EReal)

/-- The node layer. -/
theorem ref_v8 : val_main_v8 (F := Ideal) x0 x3 x4 = dense x0 x3 x4 := by
  unfold val_main_v8 val_main_v7 val_main_v6 val_main_v5 val_main_v4 val_main_call0_v0 val_main_call0_cst
  exact hostDense_eq _ rfl rfl rfl rfl rfl rfl x0 x3 x4 _ _ _

/-- The edge layer. -/
theorem ref_v13 : val_main_v13 (F := Ideal) x1 x5 x6 = dense x1 x5 x6 := by
  unfold val_main_v13 val_main_v12 val_main_v11 val_main_v10 val_main_v9 val_main_call1_v0 val_main_call1_cst
  exact hostDense_eq _ rfl rfl rfl rfl rfl rfl x1 x5 x6 _ _ _

/-- The node layer's rows at the sources (three times in the text) and at the targets. -/
theorem ref_v27 : val_main_v27 (F := Ideal) x0 x2 x3 x4 = rowsAt (dense x0 x3 x4) (srcOf x2) := by
  unfold val_main_v27; rw [ref_v8]; rfl
theorem ref_v74 : val_main_v74 (F := Ideal) x0 x2 x3 x4 = rowsAt (dense x0 x3 x4) (srcOf x2) := by
  unfold val_main_v74; rw [ref_v8]; rfl
theorem ref_v48 : val_main_v48 (F := Ideal) x0 x2 x3 x4 = rowsAt (dense x0 x3 x4) (dstOf x2) := by
  unfold val_main_v48; rw [ref_v8]; rfl
theorem ref_v81 : val_main_v81 (F := Ideal) x0 x2 x3 x4 = rowsAt (dense x0 x3 x4) (dstOf x2) := by
  unfold val_main_v81; rw [ref_v8]; rfl

/-- The message along an edge from its source. -/
theorem ref_v33 : val_main_v33 (F := Ideal) x0 x1 x2 x3 x4 x5 x6 x7 x8
    = msg (rowsAt (dense x0 x3 x4) (srcOf x2)) (dense x1 x5 x6) x7 x8 := by
  unfold val_main_v33 val_main_v32 val_main_v31 val_main_v30 val_main_v29 val_main_v28 val_main_call2_v0
    val_main_call2_cst
  rw [ref_v27, ref_v13]
  exact hostMsg_eq _ rfl rfl rfl rfl rfl rfl _ _ x7 x8 _ _ _ _

/-- The message along an edge from its target. -/
theorem ref_v54 : val_main_v54 (F := Ideal) x0 x1 x2 x3 x4 x5 x6 x9 x10
    = msg (rowsAt (dense x0 x3 x4) (dstOf x2)) (dense x1 x5 x6) x9 x10 := by
  unfold val_main_v54 val_main_v53 val_main_v52 val_main_v51 val_main_v50 val_main_v49 val_main_call3_v0
    val_main_call3_cst
  rw [ref_v48, ref_v13]
  exact hostMsg_eq _ rfl rfl rfl rfl rfl rfl _ _ x9 x10 _ _ _ _

/-- The mean of the incoming messages. -/
theorem ref_v41 : val_main_v41 (F := Ideal) x0 x1 x2 x3 x4 x5 x6 x7 x8
    = meanAt (msg (rowsAt (dense x0 x3 x4) (srcOf x2)) (dense x1 x5 x6) x7 x8) (dstOf x2) := by
  unfold val_main_v41 val_main_v36; rw [ref_v33]; rfl

/-- The mean of the outgoing messages. -/
theorem ref_v62 : val_main_v62 (F := Ideal) x0 x1 x2 x3 x4 x5 x6 x9 x10
    = meanAt (msg (rowsAt (dense x0 x3 x4) (dstOf x2)) (dense x1 x5 x6) x9 x10) (srcOf x2) := by
  unfold val_main_v62 val_main_v57; rw [ref_v54]; rfl

/-- THE NODE RESULT. -/
theorem ref_node : val_main_v67 (F := Ideal) x0 x1 x2 x3 x4 x5 x6 x7 x8 x9 x10 x11 x12
    = tri (meanAt (msg (rowsAt (dense x0 x3 x4) (srcOf x2)) (dense x1 x5 x6) x7 x8) (dstOf x2)) (dense x0 x3 x4)
        (meanAt (msg (rowsAt (dense x0 x3 x4) (dstOf x2)) (dense x1 x5 x6) x9 x10) (srcOf x2)) x11 x12 := by
  unfold val_main_v67 val_main_v66 val_main_v65 val_main_v64 val_main_v63
  rw [ref_v41, ref_v8, ref_v62]
  exact hostTri_eq _ rfl rfl rfl rfl rfl rfl _ _ _ x11 x12 _ _ _

/-- THE EDGE RESULT. -/
theorem ref_edge : val_main_v86 (F := Ideal) x0 x1 x2 x3 x4 x5 x6 x13 x14
    = tri (rowsAt (dense x0 x3 x4) (srcOf x2)) (dense x1 x5 x6) (rowsAt (dense x0 x3 x4) (dstOf x2)) x13 x14 := by
  unfold val_main_v86 val_main_v85 val_main_v84 val_main_v83 val_main_v82
  rw [ref_v74, ref_v13, ref_v81]
  exact hostTri_eq _ rfl rfl rfl rfl rfl rfl _ _ _ x13 x14 _ _ _

end Cert.ReferenceIdeal.Layers

end
-- ==== Proof.lean ====
/-
  A graph-network layer with edge features: the kernel program against its reference, equal on the extended reals.

  Both programs compute, from node features x, edge features f and the edges' source / target lists,

    Q = relu(x · Wn + bn),  E = relu(f · We + be),  S, T = the rows of Q at the sources / targets,
    node result = (mean_in relu((S | E) · Wp + bp)  |  Q  |  mean_out relu((T | E) · Ws + bs)) · Wnt + bnt,
    edge result = (S | E | T) · Wet + bet.

  The reference multiplies each concatenation by the whole weight matrix. The kernel program never forms a
  concatenation: four kernels compute the dense stages block of rows by block of rows, each multiplying the parts by
  the matching row slices of the weights and adding the products, while the gathers, the degree counts and the
  scatter-add means are the same host operations in both programs. The two agree because a sum over the contracted
  index is the sum of its consecutive ranges — no entry has to be finite, so the precondition is never opened.

  The frames of the two kernel programs are the generated ones; the reference's frame is its generated run with the
  results dropped; the idealization rewrote nothing, so `preserves` is trivial.
-/
import proofs.«130760_j38732015076057_2_alg».proof.Defs
import proofs.«130760_j38732015076057_2_alg».proof.Proof.Gen.Kernel
import proofs.«130760_j38732015076057_2_alg».proof.Proof.Gen.Kernel.Frame
import proofs.«130760_j38732015076057_2_alg».proof.Proof.Gen.KernelIdeal
import proofs.«130760_j38732015076057_2_alg».proof.Proof.Gen.KernelIdeal.Frame
import proofs.«130760_j38732015076057_2_alg».proof.Proof.Gen.ReferenceIdeal
import proofs.«130760_j38732015076057_2_alg».proof.Proof.Gen.Pre_finite_inputs
import proofs.«130760_j38732015076057_2_alg».proof.Proof.Gen.ReferenceIdeal.Run
import proofs.«130760_j38732015076057_2_alg».proof.Proof.Gen.ReferenceIdeal.Read
import proofs.«130760_j38732015076057_2_alg».proof.Proof.KernelRun
import proofs.«130760_j38732015076057_2_alg».proof.Proof.KernelValue
import proofs.«130760_j38732015076057_2_alg».proof.Proof.RefValue
import Idealize.ShloMosaic.Adequacy
import Idealize.ShloMosaic.Init

noncomputable section

namespace Cert.Proof

open Idealize.ShloMosaic Idealize.SL.Sem

/-! ## The host's irregular steps are spelled alike in the two programs -/

theorem srcOf_eq : @Cert.ReferenceIdeal.Layers.srcOf = @Cert.KernelIdeal.Layers.srcOf := rfl
theorem dstOf_eq : @Cert.ReferenceIdeal.Layers.dstOf = @Cert.KernelIdeal.Layers.dstOf := rfl
theorem rowsAt_eq : @Cert.ReferenceIdeal.Layers.rowsAt = @Cert.KernelIdeal.Layers.rowsAt := rfl
theorem meanAt_eq : @Cert.ReferenceIdeal.Layers.meanAt = @Cert.KernelIdeal.Layers.meanAt := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

open Cert.KernelIdeal.Layers in
/-- From memories agreeing on the arguments both programs end with the node result and the edge result of the
    specification at the launch arrays. -/
theorem algebraic : Cert.algebraic_KernelIdeal_ReferenceIdeal := by
  intro m ρ m' ρ' _ hagree
  refine ⟨fun c => Cert.Spec.tri (MI m c) (QN m c) (MO m c) (X11 m c) (X12 m c),
    fun c => Cert.Spec.tri (rowsAt (QN m c) (srcOf (X2 m c))) (QE m c) (rowsAt (QN m c) (dstOf (X2 m c))) (X13 m c) (X14 m c),
    ?_, ?_⟩
  · exact (θ_run Cert.KernelIdeal.defs _ _).mono
      (fun r h c => ⟨(h c).1.trans (node_result m ρ c), (h c).2.1.trans (edge_result m ρ c), (h c).2.2⟩)
      (run_results m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14⟩ := hagree c
      rw [Cert.ReferenceIdeal.Read.val_main_v67_eq, Cert.ReferenceIdeal.Layers.ref_node,
        h0, h1, h2, h3, h4, h5, h6, h7, h8, h9, h10, h11, h12, srcOf_eq, dstOf_eq, rowsAt_eq, meanAt_eq]
    · obtain ⟨h0, h1, h2, h3, h4, h5, h6, h7, h8, h9, h10, h11, h12, h13, h14⟩ := hagree c
      refine (Cert.ReferenceIdeal.Read.val_main_v86_eq _ _ _ _ _ _ _ _ _).trans ?_
      rw [Cert.ReferenceIdeal.Layers.ref_edge, h0, h1, h2, h3, h4, h5, h6, h13, h14, srcOf_eq, dstOf_eq, rowsAt_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
